-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v71_0)) (v1 : (c : Dev Cert.KernelIdeal.nD) → Buf (Elt Ideal) ((c.tc : Thread Cert.KernelIdeal.nD Cert.KernelIdeal.τ).loc Cert.KernelIdeal.main_v71_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71_0) = v0 c
          ∧ r.2.mem ((c.tc : Thread Cert.KernelIdeal.nD Cert.KernelIdeal.τ).loc Cert.KernelIdeal.main_v71_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024000x128 : Shape := ⟨2, ![1024000, 128]⟩
abbrev S1024000 : Shape := ⟨1, ![1024000]⟩
abbrev S102400 : Shape := ⟨1, ![102400]⟩
abbrev S10240 : Shape := ⟨1, ![10240]⟩
abbrev S128x256 : Shape := ⟨2, ![128, 256]⟩
abbrev S256 : Shape := ⟨1, ![256]⟩
abbrev S256x256 : Shape := ⟨2, ![256, 256]⟩
abbrev S256x47 : Shape := ⟨2, ![256, 47]⟩
abbrev S47 : Shape := ⟨1, ![47]⟩
abbrev S_ : Shape := ⟨0, ![]⟩

class Facts : Prop where
  bcast_S_S1024000x128 : S_.BroadcastsInDim S1024000x128 (![] : Fin 0 → Fin S1024000x128.rank)
  reducesTo_S1024000x128_S_d0_1 : S1024000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x47 : S_.BroadcastsInDim S256x47 (![] : Fin 0 → Fin S256x47.rank)
  reducesTo_S256x47_S_d0_1 : S256x47.ReducesTo [0, 1] S_
  bcast_S_S47 : S_.BroadcastsInDim S47 (![] : Fin 0 → Fin S47.rank)
  reducesTo_S47_S_d0 : S47.ReducesTo [0] S_

variable [Facts]

def fn_part2 {F : FTy → Type} [FloatOps F] (main_arg13 : FVec F S256x47 .f32) (main_arg14 : FVec F S47 .f32) (main_arg15 : FVec F S256x47 .f32) (main_v33 : IVec S_ 1) : IVec S_ 1 :=
  let main_v34 : FVec F S256x47 .f32 := Host.absf main_arg13
  let main_cst_12 : FVec F S_ .f32 := constant S_ .f32 0x7F800000#32
  let main_v35 : FVec F S256x47 .f32 := broadcastInDim S256x47 ![] bcast_S_S256x47 main_cst_12
  let main_v36 : IVec S256x47 1 := cmpf .olt main_v34 main_v35
  let main_c_13 : IVec S_ 1 := constantI S_ 1 1#1
  let main_v37 : IVec S_ 1 := (fun x v => Host.reduce IntOp.andi x v reducesTo_S256x47_S_d0_1 h_S_) main_v36 main_c_13
  let main_v38 : IVec S_ 1 := andi main_v33 main_v37
  let main_v39 : FVec F S47 .f32 := Host.absf main_arg14
  let main_cst_14 : FVec F S_ .f32 := constant S_ .f32 0x7F800000#32
  let main_v40 : FVec F S47 .f32 := broadcastInDim S47 ![] bcast_S_S47 main_cst_14
  let main_v41 : IVec S47 1 := cmpf .olt main_v39 main_v40
  let main_c_15 : IVec S_ 1 := constantI S_ 1 1#1
  let main_v42 : IVec S_ 1 := (fun x v => Host.reduce IntOp.andi x v reducesTo_S47_S_d0 h_S_) main_v41 main_c_15
  let main_v43 : IVec S_ 1 := andi main_v38 main_v42
  let main_v44 : FVec F S256x47 .f32 := Host.absf main_arg15
  let main_cst_16 : FVec F S_ .f32 := constant S_ .f32 0x7F800000#32
  let main_v45 : FVec F S256x47 .f32 := broadcastInDim S256x47 ![] bcast_S_S256x47 main_cst_16
  let main_v46 : IVec S256x47 1 := cmpf .olt main_v44 main_v45
  let main_c_17 : IVec S_ 1 := constantI S_ 1 1#1
  let main_v47 : IVec S_ 1 := (fun x v => Host.reduce IntOp.andi x v reducesTo_S256x47_S_d0_1 h_S_) main_v46 main_c_17
  let main_v48 : IVec S_ 1 := andi main_v43 main_v47
  main_v48

def fn_part1 {F : FTy → Type} [FloatOps F] (main_arg10 : FVec F S256x256 .f32) (main_arg11 : FVec F S256 .f32) (main_arg12 : FVec F S256x256 .f32) (main_arg13 : FVec F S256x47 .f32) (main_arg14 : FVec F S47 .f32) (main_arg15 : FVec F S256x47 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256x256 .f32 := Host.absf main_arg10
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg11
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg12
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg13 main_arg14 main_arg15 main_v33

def fn {F : FTy → Type} [FloatOps F] (main_arg0 : FVec F S1024000x128 .f32) (main_arg1 : IVec S1024000 32) (main_arg2 : IVec S1024000 32) (main_arg3 : IVec S102400 32) (main_arg4 : IVec S102400 32) (main_arg5 : IVec S10240 32) (main_arg6 : IVec S10240 32) (main_arg7 : FVec F S128x256 .f32) (main_arg8 : FVec F S256 .f32) (main_arg9 : FVec F S128x256 .f32) (main_arg10 : FVec F S256x256 .f32) (main_arg11 : FVec F S256 .f32) (main_arg12 : FVec F S256x256 .f32) (main_arg13 : FVec F S256x47 .f32) (main_arg14 : FVec F S47 .f32) (main_arg15 : FVec F S256x47 .f32) : IVec S_ 1 :=
  let main_v0 : FVec F S1024000x128 .f32 := Host.absf main_arg0
  let main_cst : FVec F S_ .f32 := constant S_ .f32 0x7F800000#32
  let main_v1 : FVec F S1024000x128 .f32 := broadcastInDim S1024000x128 ![] bcast_S_S1024000x128 main_cst
  let main_v2 : IVec S1024000x128 1 := cmpf .olt main_v0 main_v1
  let main_c : IVec S_ 1 := constantI S_ 1 1#1
  let main_v3 : IVec S_ 1 := (fun x v => Host.reduce IntOp.andi x v reducesTo_S1024000x128_S_d0_1 h_S_) main_v2 main_c
  let main_v4 : FVec F S128x256 .f32 := Host.absf main_arg7
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg8
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg9
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg10 main_arg11 main_arg12 main_arg13 main_arg14 main_arg15 main_v13 main_v16
-- ==== Kernel.lean ====
abbrev S1024000x128 : Shape := ⟨2, ![1024000, 128]⟩
abbrev S1024000 : Shape := ⟨1, ![1024000]⟩
abbrev S102400 : Shape := ⟨1, ![102400]⟩
abbrev S10240 : Shape := ⟨1, ![10240]⟩
abbrev S128x256 : Shape := ⟨2, ![128, 256]⟩
abbrev S256 : Shape := ⟨1, ![256]⟩
abbrev S256x256 : Shape := ⟨2, ![256, 256]⟩
abbrev S256x47 : Shape := ⟨2, ![256, 47]⟩
abbrev S47 : Shape := ⟨1, ![47]⟩
abbrev S102400x128 : Shape := ⟨2, ![102400, 128]⟩
abbrev S_ : Shape := ⟨0, ![]⟩
abbrev S1024000x1 : Shape := ⟨2, ![1024000, 1]⟩
abbrev S102400x1 : Shape := ⟨2, ![102400, 1]⟩
abbrev S1x256 : Shape := ⟨2, ![1, 256]⟩
abbrev S102400x256 : Shape := ⟨2, ![102400, 256]⟩
abbrev S4096x128 : Shape := ⟨2, ![4096, 128]⟩
abbrev S4096x1 : Shape := ⟨2, ![4096, 1]⟩
abbrev S4096x256 : Shape := ⟨2, ![4096, 256]⟩
abbrev S10240x256 : Shape := ⟨2, ![10240, 256]⟩
abbrev S10240x1 : Shape := ⟨2, ![10240, 1]⟩
abbrev S2048x256 : Shape := ⟨2, ![2048, 256]⟩
abbrev S2048x1 : Shape := ⟨2, ![2048, 1]⟩
abbrev S1024x256 : Shape := ⟨2, ![1024, 256]⟩
abbrev S1024 : Shape := ⟨1, ![1024]⟩
abbrev S1024x1 : Shape := ⟨2, ![1024, 1]⟩
abbrev S1x47 : Shape := ⟨2, ![1, 47]⟩
abbrev S1024x47 : Shape := ⟨2, ![1024, 47]⟩

abbrev nBuf : Space → Nat
  | .hbm => 110
  | .vmem => 29
  | .smem => 0
  | _ => 0

abbrev bufTy : (tb : Table) → Fin (tcTables nBuf tb) → BufTy
  | .hbm, ⟨0, _⟩ => ⟨S1024000x128, .f32⟩
  | .hbm, ⟨1, _⟩ => ⟨S1024000, .i32⟩
  | .hbm, ⟨2, _⟩ => ⟨S1024000, .i32⟩
  | .hbm, ⟨3, _⟩ => ⟨S102400, .i32⟩
  | .hbm, ⟨4, _⟩ => ⟨S102400, .i32⟩
  | .hbm, ⟨5, _⟩ => ⟨S10240, .i32⟩
  | .hbm, ⟨6, _⟩ => ⟨S10240, .i32⟩
  | .hbm, ⟨7, _⟩ => ⟨S128x256, .f32⟩
  | .hbm, ⟨8, _⟩ => ⟨S256, .f32⟩
  | .hbm, ⟨9, _⟩ => ⟨S128x256, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256x47, .f32⟩
  | .hbm, ⟨14, _⟩ => ⟨S47, .f32⟩
  | .hbm, ⟨15, _⟩ => ⟨S256x47, .f32⟩
  | .hbm, ⟨16, _⟩ => ⟨S102400x128, .f32⟩
  | .hbm, ⟨17, _⟩ => ⟨S_, .i32⟩
  | .hbm, ⟨18, _⟩ => ⟨S1024000, .i32⟩
  | .hbm, ⟨19, _⟩ => ⟨S1024000, .i1⟩
  | .hbm, ⟨20, _⟩ => ⟨S_, .i32⟩
  | .hbm, ⟨21, _⟩ => ⟨S1024000, .i32⟩
  | .hbm, ⟨22, _⟩ => ⟨S1024000, .i32⟩
  | .hbm, ⟨23, _⟩ => ⟨S1024000, .i32⟩
  | .hbm, ⟨24, _⟩ => ⟨S1024000x1, .i32⟩
  | .hbm, ⟨25, _⟩ => ⟨S1024000x128, .f32⟩
  | .hbm, ⟨26, _⟩ => ⟨S_, .f32⟩
  | .hbm, ⟨27, _⟩ => ⟨S102400x128, .f32⟩
  | .hbm, ⟨28, _⟩ => ⟨S1024000x1, .i32⟩
  | .hbm, ⟨29, _⟩ => ⟨S102400x128, .f32⟩
  | .hbm, ⟨30, _⟩ => ⟨S_, .f32⟩
  | .hbm, ⟨31, _⟩ => ⟨S1024000, .f32⟩
  | .hbm, ⟨32, _⟩ => ⟨S_, .f32⟩
  | .hbm, ⟨33, _⟩ => ⟨S102400, .f32⟩
  | .hbm, ⟨34, _⟩ => ⟨S1024000x1, .i32⟩
  | .hbm, ⟨35, _⟩ => ⟨S102400, .f32⟩
  | .hbm, ⟨36, _⟩ => ⟨S_, .f32⟩
  | .hbm, ⟨37, _⟩ => ⟨S102400, .f32⟩
  | .hbm, ⟨38, _⟩ => ⟨S102400, .f32⟩
  | .hbm, ⟨39, _⟩ => ⟨S_, .f32⟩
  | .hbm, ⟨40, _⟩ => ⟨S102400, .f32⟩
  | .hbm, ⟨41, _⟩ => ⟨S102400, .f32⟩
  | .hbm, ⟨42, _⟩ => ⟨S102400x1, .f32⟩
  | .hbm, ⟨43, _⟩ => ⟨S256x256, .f32⟩
  | .hbm, ⟨44, _⟩ => ⟨S256x256, .bf16⟩
  | .hbm, ⟨45, _⟩ => ⟨S1x256, .f32⟩
  | .hbm, ⟨46, _⟩ => ⟨S102400x256, .f32⟩
  | .hbm, ⟨47, _⟩ => ⟨S10240x256, .f32⟩
  | .hbm, ⟨48, _⟩ => ⟨S_, .i32⟩
  | .hbm, ⟨49, _⟩ => ⟨S102400, .i32⟩
  | .hbm, ⟨50, _⟩ => ⟨S102400, .i1⟩
  | .hbm, ⟨51, _⟩ => ⟨S_, .i32⟩
  | .hbm, ⟨52, _⟩ => ⟨S102400, .i32⟩
  | .hbm, ⟨53, _⟩ => ⟨S102400, .i32⟩
  | .hbm, ⟨54, _⟩ => ⟨S102400, .i32⟩
  | .hbm, ⟨55, _⟩ => ⟨S102400x1, .i32⟩
  | .hbm, ⟨56, _⟩ => ⟨S102400x256, .f32⟩
  | .hbm, ⟨57, _⟩ => ⟨S_, .f32⟩
  | .hbm, ⟨58, _⟩ => ⟨S10240x256, .f32⟩
  | .hbm, ⟨59, _⟩ => ⟨S102400x1, .i32⟩
  | .hbm, ⟨60, _⟩ => ⟨S10240x256, .f32⟩
  | .hbm, ⟨61, _⟩ => ⟨S_, .f32⟩
  | .hbm, ⟨62, _⟩ => ⟨S102400, .f32⟩
  | .hbm, ⟨63, _⟩ => ⟨S_, .f32⟩
  | .hbm, ⟨64, _⟩ => ⟨S10240, .f32⟩
  | .hbm, ⟨65, _⟩ => ⟨S102400x1, .i32⟩
  | .hbm, ⟨66, _⟩ => ⟨S10240, .f32⟩
  | .hbm, ⟨67, _⟩ => ⟨S_, .f32⟩
  | .hbm, ⟨68, _⟩ => ⟨S10240, .f32⟩
  | .hbm, ⟨69, _⟩ => ⟨S10240, .f32⟩
  | .hbm, ⟨70, _⟩ => ⟨S_, .f32⟩
  | .hbm, ⟨71, _⟩ => ⟨S10240, .f32⟩
  | .hbm, ⟨72, _⟩ => ⟨S10240, .f32⟩
  | .hbm, ⟨73, _⟩ => ⟨S10240x1, .f32⟩
  | .hbm, ⟨74, _⟩ => ⟨S256x256, .bf16⟩
  | .hbm, ⟨75, _⟩ => ⟨S256x256, .bf16⟩
  | .hbm, ⟨76, _⟩ => ⟨S1x256, .f32⟩
  | .hbm, ⟨77, _⟩ => ⟨S10240x256, .f32⟩
  | .hbm, ⟨78, _⟩ => ⟨S1024x256, .f32⟩
  | .hbm, ⟨79, _⟩ => ⟨S_, .i32⟩
  | .hbm, ⟨80, _⟩ => ⟨S10240, .i32⟩
  | .hbm, ⟨81, _⟩ => ⟨S10240, .i1⟩
  | .hbm, ⟨82, _⟩ => ⟨S_, .i32⟩
  | .hbm, ⟨83, _⟩ => ⟨S10240, .i32⟩
  | .hbm, ⟨84, _⟩ => ⟨S10240, .i32⟩
  | .hbm, ⟨85, _⟩ => ⟨S10240, .i32⟩
  | .hbm, ⟨86, _⟩ => ⟨S10240x1, .i32⟩
  | .hbm, ⟨87, _⟩ => ⟨S10240x256, .f32⟩
  | .hbm, ⟨88, _⟩ => ⟨S_, .f32⟩
  | .hbm, ⟨89, _⟩ => ⟨S1024x256, .f32⟩
  | .hbm, ⟨90, _⟩ => ⟨S10240x1, .i32⟩
  | .hbm, ⟨91, _⟩ => ⟨S1024x256, .f32⟩
  | .hbm, ⟨92, _⟩ => ⟨S_, .f32⟩
  | .hbm, ⟨93, _⟩ => ⟨S10240, .f32⟩
  | .hbm, ⟨94, _⟩ => ⟨S_, .f32⟩
  | .hbm, ⟨95, _⟩ => ⟨S1024, .f32⟩
  | .hbm, ⟨96, _⟩ => ⟨S10240x1, .i32⟩
  | .hbm, ⟨97, _⟩ => ⟨S1024, .f32⟩
  | .hbm, ⟨98, _⟩ => ⟨S_, .f32⟩
  | .hbm, ⟨99, _⟩ => ⟨S1024, .f32⟩
  | .hbm, ⟨100, _⟩ => ⟨S1024, .f32⟩
  | .hbm, ⟨101, _⟩ => ⟨S_, .f32⟩
  | .hbm, ⟨102, _⟩ => ⟨S1024, .f32⟩
  | .hbm, ⟨103, _⟩ => ⟨S1024, .f32⟩
  | .hbm, ⟨104, _⟩ => ⟨S1024x1, .f32⟩
  | .hbm, ⟨105, _⟩ => ⟨S256x47, .bf16⟩
  | .hbm, ⟨106, _⟩ => ⟨S256x47, .bf16⟩
  | .hbm, ⟨107, _⟩ => ⟨S1x47, .f32⟩
  | .hbm, ⟨108, _⟩ => ⟨S1024x47, .f32⟩
  | .hbm, ⟨109, _⟩ => ⟨S1024x47, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x1, .f32⟩
  | .local _ .vmem, ⟨5, _⟩ => ⟨S4096x1, .f32⟩
  | .local _ .vmem, ⟨6, _⟩ => ⟨S256x256, .bf16⟩
  | .local _ .vmem, ⟨7, _⟩ => ⟨S1x256, .f32⟩
  | .local _ .vmem, ⟨8, _⟩ => ⟨S4096x256, .f32⟩
  | .local _ .vmem, ⟨9, _⟩ => ⟨S4096x256, .f32⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | .local _ .vmem, ⟨13, _⟩ => ⟨S2048x256, .f32⟩
  | .local _ .vmem, ⟨14, _⟩ => ⟨S2048x1, .f32⟩
  | .local _ .vmem, ⟨15, _⟩ => ⟨S2048x1, .f32⟩
  | .local _ .vmem, ⟨16, _⟩ => ⟨S256x256, .bf16⟩
  | .local _ .vmem, ⟨17, _⟩ => ⟨S1x256, .f32⟩
  | .local _ .vmem, ⟨18, _⟩ => ⟨S256x256, .bf16⟩
  | .local _ .vmem, ⟨19, _⟩ => ⟨S2048x256, .f32⟩
  | .local _ .vmem, ⟨20, _⟩ => ⟨S2048x256, .f32⟩
  | .local _ .vmem, ⟨21, _⟩ => ⟨S1024x256, .f32⟩
  | .local _ .vmem, ⟨22, _⟩ => ⟨S1024x256, .f32⟩
  | .local _ .vmem, ⟨23, _⟩ => ⟨S1024x1, .f32⟩
  | .local _ .vmem, ⟨24, _⟩ => ⟨S256x47, .bf16⟩
  | .local _ .vmem, ⟨25, _⟩ => ⟨S1x47, .f32⟩
  | .local _ .vmem, ⟨26, _⟩ => ⟨S256x47, .bf16⟩
  | .local _ .vmem, ⟨27, _⟩ => ⟨S1024x47, .f32⟩
  | .local _ .vmem, ⟨28, _⟩ => ⟨S1024x47, .f32⟩
  | _, _ => ⟨S1024000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_c_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_cst_2 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_3 : Ref sig .tc := ⟨.hbm, 36, rfl⟩
abbrev main_v15 : Ref sig .tc := ⟨.hbm, 37, rfl⟩
abbrev main_v16 : Ref sig .tc := ⟨.hbm, 38, rfl⟩
abbrev main_cst_4 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_c_5 : Ref sig .tc := ⟨.hbm, 48, rfl⟩
abbrev main_v25 : Ref sig .tc := ⟨.hbm, 49, rfl⟩
abbrev main_v26 : Ref sig .tc := ⟨.hbm, 50, rfl⟩
abbrev main_c_6 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_7 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_8 : Ref sig .tc := ⟨.hbm, 61, rfl⟩
abbrev main_v35 : Ref sig .tc := ⟨.hbm, 62, rfl⟩
abbrev main_cst_9 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_10 : Ref sig .tc := ⟨.hbm, 67, rfl⟩
abbrev main_v39 : Ref sig .tc := ⟨.hbm, 68, rfl⟩
abbrev main_v40 : Ref sig .tc := ⟨.hbm, 69, rfl⟩
abbrev main_cst_11 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_c_12 : Ref sig .tc := ⟨.hbm, 79, rfl⟩
abbrev main_v49 : Ref sig .tc := ⟨.hbm, 80, rfl⟩
abbrev main_v50 : Ref sig .tc := ⟨.hbm, 81, rfl⟩
abbrev main_c_13 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_14 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_15 : Ref sig .tc := ⟨.hbm, 92, rfl⟩
abbrev main_v59 : Ref sig .tc := ⟨.hbm, 93, rfl⟩
abbrev main_cst_16 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_cst_17 : Ref sig .tc := ⟨.hbm, 98, rfl⟩
abbrev main_v63 : Ref sig .tc := ⟨.hbm, 99, rfl⟩
abbrev main_v64 : Ref sig .tc := ⟨.hbm, 100, rfl⟩
abbrev main_cst_18 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71_0 : Ref sig .tc := ⟨.hbm, 108, rfl⟩
abbrev main_v71_1 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg6_1 : Ref sig .tc := ⟨.vmem, 20, rfl⟩
abbrev cc2_stg0_0 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem6_1 : DmaSem sig := 20
abbrev cc2_sem0_0 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2048x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S1024x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S1024x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev stage2_2 : Fin 1 → Memref sig .tc .vmem S1024x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true]

abbrev stage2_3 : Fin 1 → Memref sig .tc .vmem S256x47 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x47 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x47 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1024x47 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![true]

abbrev stage2_7 : Fin 1 → Memref sig .tc .vmem S1024x47 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![true]

class Facts₀ : Prop where
  slices_S1024000x128_S102400x128_0_0 : S1024000x128.Slices ![0, 0] S102400x128
  bcast_S_S1024000 : S_.BroadcastsInDim S1024000 (![] : Fin 0 → Fin S1024000.rank)
  bcast_S1024000_S1024000x1_0 : S1024000.BroadcastsInDim S1024000x1 (![0] : Fin 1 → Fin S1024000x1.rank)
  bcast_S_S102400x128 : S_.BroadcastsInDim S102400x128 (![] : Fin 0 → Fin S102400x128.rank)
  bcast_S_S102400 : S_.BroadcastsInDim S102400 (![] : Fin 0 → Fin S102400.rank)
  shapeCasts_S102400_S102400x1 : S102400.ShapeCasts S102400x1
  concatenates_S128x256_S128x256_S256x256_d0 : Shape.Concatenates [S128x256, S128x256] S256x256 0
  bitsLt_bf16_f32 : FTy.bits .bf16 < FTy.bits .f32
  shapeCasts_S256_S1x256 : S256.ShapeCasts S1x256
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x128 : S4096x1.Broadcasts S4096x128
  concatenates_S4096x128_S4096x128_S4096x256_d1 : Shape.Concatenates [S4096x128, S4096x128] S4096x256 1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  inb_S4096x256_S4096x256_0_0 : ∀ a, (![0, 0] : Fin 2 → Nat) a + S4096x256.size a ≤ S4096x256.size a
  h_S4096x256 : 0 < S4096x256.numel
  slices_S102400x256_S10240x256_0_0 : S102400x256.Slices ![0, 0] S10240x256
  bcast_S102400_S102400x1_0 : S102400.BroadcastsInDim S102400x1 (![0] : Fin 1 → Fin S102400x1.rank)
  bcast_S_S10240x256 : S_.BroadcastsInDim S10240x256 (![] : Fin 0 → Fin S10240x256.rank)
  bcast_S_S10240 : S_.BroadcastsInDim S10240 (![] : Fin 0 → Fin S10240.rank)
  shapeCasts_S10240_S10240x1 : S10240.ShapeCasts S10240x1
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x256 : S2048x1.Broadcasts S2048x256
  broadcasts_S1x256_S2048x256 : S1x256.Broadcasts S2048x256
  slices_S10240x256_S1024x256_0_0 : S10240x256.Slices ![0, 0] S1024x256
  bcast_S10240_S10240x1_0 : S10240.BroadcastsInDim S10240x1 (![0] : Fin 1 → Fin S10240x1.rank)
  bcast_S_S1024x256 : S_.BroadcastsInDim S1024x256 (![] : Fin 0 → Fin S1024x256.rank)
  bcast_S_S1024 : S_.BroadcastsInDim S1024 (![] : Fin 0 → Fin S1024.rank)
  shapeCasts_S1024_S1024x1 : S1024.ShapeCasts S1024x1
  shapeCasts_S47_S1x47 : S47.ShapeCasts S1x47
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x256 : S1024x1.Broadcasts S1024x256
  inb_S256x47_S256x47_0_0 : ∀ a, (![0, 0] : Fin 2 → Nat) a + S256x47.size a ≤ S256x47.size a
  h_S256x47 : 0 < S256x47.numel
  shapeCasts_S256x47_S256x47 : S256x47.ShapeCasts S256x47
  inb_S1x47_S1x47_0_0 : ∀ a, (![0, 0] : Fin 2 → Nat) a + S1x47.size a ≤ S1x47.size a
  h_S1x47 : 0 < S1x47.numel
  shapeCasts_S1x47_S1x47 : S1x47.ShapeCasts S1x47
  broadcasts_S1x47_S1024x47 : S1x47.Broadcasts S1024x47
  inb_S1024x47_S1024x47_0_0 : ∀ a, (![0, 0] : Fin 2 → Nat) a + S1024x47.size a ≤ S1024x47.size a
  h_S1024x47 : 0 < S1024x47.numel
  reduces_S1024x47_S1024 : S1024x47.Reduces [1] S1024
  broadcasts_S1024x1_S1024x47 : S1024x1.Broadcasts S1024x47
  gather_S1024000x128_S1024000x1_S1024000x128_1_0_n_n_0_1_1128_wf : GatherDims.WF S1024000x128 S1024000x1 S1024000x128 [1] [0] [] [0] [] 1 ![1, 128]
  scatter_S102400x128_S1024000x1_S1024000x128_1_0_0_1_wf : ScatterDims.WF S102400x128 S1024000x1 S1024000x128 [1] [0] [0] 1
  scatter_S102400_S1024000x1_S1024000_n_0_0_1_wf : ScatterDims.WF S102400 S1024000x1 S1024000 [] [0] [0] 1
  dot_S4096x256_S256x256_S4096x256_1_0_0_1_n_n_wf : DotDims.WF S4096x256 S256x256 S4096x256 [1] [0] [0] [1] [] []
  gather_S102400x256_S102400x1_S102400x256_1_0_n_n_0_1_1256_wf : GatherDims.WF S102400x256 S102400x1 S102400x256 [1] [0] [] [0] [] 1 ![1, 256]
  scatter_S10240x256_S102400x1_S102400x256_1_0_0_1_wf : ScatterDims.WF S10240x256 S102400x1 S102400x256 [1] [0] [0] 1
  scatter_S10240_S102400x1_S102400_n_0_0_1_wf : ScatterDims.WF S10240 S102400x1 S102400 [] [0] [0] 1
  dot_S2048x256_S256x256_S2048x256_1_0_0_1_n_n_wf : DotDims.WF S2048x256 S256x256 S2048x256 [1] [0] [0] [1] [] []
  gather_S10240x256_S10240x1_S10240x256_1_0_n_n_0_1_1256_wf : GatherDims.WF S10240x256 S10240x1 S10240x256 [1] [0] [] [0] [] 1 ![1, 256]
  scatter_S1024x256_S10240x1_S10240x256_1_0_0_1_wf : ScatterDims.WF S1024x256 S10240x1 S10240x256 [1] [0] [0] 1
  scatter_S1024_S10240x1_S10240_n_0_0_1_wf : ScatterDims.WF S1024 S10240x1 S10240 [] [0] [0] 1
  dot_S1024x256_S256x47_S1024x47_1_0_0_1_n_n_wf : DotDims.WF S1024x256 S256x47 S1024x47 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S102400x128.size a
  hwx0_0 : ∀ i : grid0.Coords, EltTy.bits .f32 = 32 ∨ (Rect.block (s := S102400x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S102400x128.size a
  hwx0_1 : ∀ i : grid0.Coords, EltTy.bits .f32 = 32 ∨ (Rect.block (s := S102400x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x1.size a ≤ S102400x1.size a
  hwx0_2 : ∀ i : grid0.Coords, EltTy.bits .f32 = 32 ∨ (Rect.block (s := S102400x1) S4096x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x256.size a ≤ S102400x256.size a
  hwx0_5 : ∀ i : grid0.Coords, EltTy.bits .f32 = 32 ∨ (Rect.block (s := S102400x256) S4096x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S10240x256.size a
  hwx1_0 : ∀ i : grid1.Coords, EltTy.bits .f32 = 32 ∨ (Rect.block (s := S10240x256) S2048x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S10240x256.size a
  hwx1_1 : ∀ i : grid1.Coords, EltTy.bits .f32 = 32 ∨ (Rect.block (s := S10240x256) S2048x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S10240x1.size a
  hwx1_2 : ∀ i : grid1.Coords, EltTy.bits .f32 = 32 ∨ (Rect.block (s := S10240x1) S2048x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .bf16 = 32 ∨ (Rect.block (s := S256x256) S256x256.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2048x256.size a ≤ S10240x256.size a
  hwx1_6 : ∀ i : grid1.Coords, EltTy.bits .f32 = 32 ∨ (Rect.block (s := S10240x256) S2048x256.size (cc1_transform_6 i) (hinb1_6 i)).WholeWords (EltTy.packing .f32)
  hrank2 : 0 < grid2.rank
  hstage2_0 : ∀ j, (stage2_0 j).IsWhole
  nbuf2_0 : grid2.bufCount reads2_0 false = 1
  hreads2_0 : ∀ i i' : grid2.Coords, (∀ a, reads2_0 a = true → i a = i' a) → cc2_transform_0 i = cc2_transform_0 i'
  hinb2_0 : ∀ (i : grid2.Coords) a, (cc2_transform_0 i a + 1) * S1024x256.size a ≤ S1024x256.size a
  hwx2_0 : ∀ i : grid2.Coords, EltTy.bits .f32 = 32 ∨ (Rect.block (s := S1024x256) S1024x256.size (cc2_transform_0 i) (hinb2_0 i)).WholeWords (EltTy.packing .f32)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S1024x256.size a ≤ S1024x256.size a
  hwx2_1 : ∀ i : grid2.Coords, EltTy.bits .f32 = 32 ∨ (Rect.block (s := S1024x256) S1024x256.size (cc2_transform_1 i) (hinb2_1 i)).WholeWords (EltTy.packing .f32)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S1024x1.size a ≤ S1024x1.size a
  hwx2_2 : ∀ i : grid2.Coords, EltTy.bits .f32 = 32 ∨ (Rect.block (s := S1024x1) S1024x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x47.size a ≤ S256x47.size a
  hwx2_3 : ∀ i : grid2.Coords, EltTy.bits .bf16 = 32 ∨ (Rect.block (s := S256x47) S256x47.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x47.size a ≤ S1x47.size a
  hwx2_4 : ∀ i : grid2.Coords, EltTy.bits .f32 = 32 ∨ (Rect.block (s := S1x47) S1x47.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x47.size a ≤ S256x47.size a
  hwx2_5 : ∀ i : grid2.Coords, EltTy.bits .bf16 = 32 ∨ (Rect.block (s := S256x47) S256x47.size (cc2_transform_5 i) (hinb2_5 i)).WholeWords (EltTy.packing .bf16)
  hstage2_6 : ∀ j, (stage2_6 j).IsWhole
  nbuf2_6 : grid2.bufCount reads2_6 false = 1
  hreads2_6 : ∀ i i' : grid2.Coords, (∀ a, reads2_6 a = true → i a = i' a) → cc2_transform_6 i = cc2_transform_6 i'
  hinb2_6 : ∀ (i : grid2.Coords) a, (cc2_transform_6 i a + 1) * S1024x47.size a ≤ S1024x47.size a
  hwx2_6 : ∀ i : grid2.Coords, EltTy.bits .f32 = 32 ∨ (Rect.block (s := S1024x47) S1024x47.size (cc2_transform_6 i) (hinb2_6 i)).WholeWords (EltTy.packing .f32)
  hstage2_7 : ∀ j, (stage2_7 j).IsWhole
  nbuf2_7 : grid2.bufCount reads2_7 false = 1
  hreads2_7 : ∀ i i' : grid2.Coords, (∀ a, reads2_7 a = true → i a = i' a) → cc2_transform_7 i = cc2_transform_7 i'
  hinb2_7 : ∀ (i : grid2.Coords) a, (cc2_transform_7 i a + 1) * S1024x47.size a ≤ S1024x47.size a
  hwx2_7 : ∀ i : grid2.Coords, EltTy.bits .f32 = 32 ∨ (Rect.block (s := S1024x47) S1024x47.size (cc2_transform_7 i) (hinb2_7 i)).WholeWords (EltTy.packing .f32)

variable [Facts₀]

def gather_S1024000x128_S1024000x1_S1024000x128_1_0_n_n_0_1_1128 : GatherDims S1024000x128 S1024000x1 S1024000x128 where
  offsetDims := [1]
  collapsedSliceDims := [0]
  operandBatchingDims := []
  startIndicesBatchingDims := []
  startIndexMap := [0]
  indexVectorDim := 1
  sliceSizes := ![1, 128]
  wf := gather_S1024000x128_S1024000x1_S1024000x128_1_0_n_n_0_1_1128_wf
def scatter_S102400x128_S1024000x1_S1024000x128_1_0_0_1 : ScatterDims S102400x128 S1024000x1 S1024000x128 where
  updateWindowDims := [1]
  insertedWindowDims := [0]
  scatterDimsToOperandDims := [0]
  indexVectorDim := 1
  wf := scatter_S102400x128_S1024000x1_S1024000x128_1_0_0_1_wf
def scatter_S102400_S1024000x1_S1024000_n_0_0_1 : ScatterDims S102400 S1024000x1 S1024000 where
  updateWindowDims := []
  insertedWindowDims := [0]
  scatterDimsToOperandDims := [0]
  indexVectorDim := 1
  wf := scatter_S102400_S1024000x1_S1024000_n_0_0_1_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def gather_S102400x256_S102400x1_S102400x256_1_0_n_n_0_1_1256 : GatherDims S102400x256 S102400x1 S102400x256 where
  offsetDims := [1]
  collapsedSliceDims := [0]
  operandBatchingDims := []
  startIndicesBatchingDims := []
  startIndexMap := [0]
  indexVectorDim := 1
  sliceSizes := ![1, 256]
  wf := gather_S102400x256_S102400x1_S102400x256_1_0_n_n_0_1_1256_wf
def scatter_S10240x256_S102400x1_S102400x256_1_0_0_1 : ScatterDims S10240x256 S102400x1 S102400x256 where
  updateWindowDims := [1]
  insertedWindowDims := [0]
  scatterDimsToOperandDims := [0]
  indexVectorDim := 1
  wf := scatter_S10240x256_S102400x1_S102400x256_1_0_0_1_wf
def scatter_S10240_S102400x1_S102400_n_0_0_1 : ScatterDims S10240 S102400x1 S102400 where
  updateWindowDims := []
  insertedWindowDims := [0]
  scatterDimsToOperandDims := [0]
  indexVectorDim := 1
  wf := scatter_S10240_S102400x1_S102400_n_0_0_1_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def gather_S10240x256_S10240x1_S10240x256_1_0_n_n_0_1_1256 : GatherDims S10240x256 S10240x1 S10240x256 where
  offsetDims := [1]
  collapsedSliceDims := [0]
  operandBatchingDims := []
  startIndicesBatchingDims := []
  startIndexMap := [0]
  indexVectorDim := 1
  sliceSizes := ![1, 256]
  wf := gather_S10240x256_S10240x1_S10240x256_1_0_n_n_0_1_1256_wf
def scatter_S1024x256_S10240x1_S10240x256_1_0_0_1 : ScatterDims S1024x256 S10240x1 S10240x256 where
  updateWindowDims := [1]
  insertedWindowDims := [0]
  scatterDimsToOperandDims := [0]
  indexVectorDim := 1
  wf := scatter_S1024x256_S10240x1_S10240x256_1_0_0_1_wf
def scatter_S1024_S10240x1_S10240_n_0_0_1 : ScatterDims S1024 S10240x1 S10240 where
  updateWindowDims := []
  insertedWindowDims := [0]
  scatterDimsToOperandDims := [0]
  indexVectorDim := 1
  wf := scatter_S1024_S10240x1_S10240_n_0_0_1_wf
def dot_S1024x256_S256x47_S1024x47_1_0_0_1_n_n : DotDims S1024x256 S256x47 S1024x47 where
  lhsContracting := [1]
  rhsContracting := [0]
  lhsNonContracting := [0]
  rhsNonContracting := [1]
  lhsBatch := []
  rhsBatch := []
  wf := dot_S1024x256_S256x47_S1024x47_1_0_0_1_n_n_wf

abbrev win0_0 : Pipeline.Window sig grid0 :=
  Pipeline.Window.ofSpec (Memref.whole main_v10) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S4096x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S4096x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v34) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S2048x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v44) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v47) S2048x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v58) S1024x256.size cc2_transform_0 reads2_0 false false 1 stage2_0 sem2_0
    hrank2 hreads2_0 hinb2_0 nbuf2_0 (Memref.isWhole_whole _) hwx2_0 hstage2_0

abbrev win2_1 : Pipeline.Window sig grid2 :=
  Pipeline.Window.ofSpec (Memref.whole main_v48) S1024x256.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v67) S1024x1.size cc2_transform_2 reads2_2 false false 1 stage2_2 sem2_2
    hrank2 hreads2_2 hinb2_2 nbuf2_2 (Memref.isWhole_whole _) hwx2_2 hstage2_2

abbrev win2_3 : Pipeline.Window sig grid2 :=
  Pipeline.Window.ofSpec (Memref.whole main_v68) S256x47.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v70) S1x47.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v69) S256x47.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v71_0) S1024x47.size cc2_transform_6 reads2_6 true false 1 stage2_6 sem2_6
    hrank2 hreads2_6 hinb2_6 nbuf2_6 (Memref.isWhole_whole _) hwx2_6 hstage2_6

abbrev win2_7 : Pipeline.Window sig grid2 :=
  Pipeline.Window.ofSpec (Memref.whole main_v71_1) S1024x47.size cc2_transform_7 reads2_7 true false 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S1024000x128 : Shape := ⟨2, ![1024000, 128]⟩
abbrev S1024000 : Shape := ⟨1, ![1024000]⟩
abbrev S102400 : Shape := ⟨1, ![102400]⟩
abbrev S10240 : Shape := ⟨1, ![10240]⟩
abbrev S128x256 : Shape := ⟨2, ![128, 256]⟩
abbrev S256 : Shape := ⟨1, ![256]⟩
abbrev S256x256 : Shape := ⟨2, ![256, 256]⟩
abbrev S256x47 : Shape := ⟨2, ![256, 47]⟩
abbrev S47 : Shape := ⟨1, ![47]⟩
abbrev S102400x128 : Shape := ⟨2, ![102400, 128]⟩
abbrev S_ : Shape := ⟨0, ![]⟩
abbrev S1024000x1 : Shape := ⟨2, ![1024000, 1]⟩
abbrev S102400x1 : Shape := ⟨2, ![102400, 1]⟩
abbrev S102400x256 : Shape := ⟨2, ![102400, 256]⟩
abbrev S1x256 : Shape := ⟨2, ![1, 256]⟩
abbrev S10240x256 : Shape := ⟨2, ![10240, 256]⟩
abbrev S10240x1 : Shape := ⟨2, ![10240, 1]⟩
abbrev S1024x256 : Shape := ⟨2, ![1024, 256]⟩
abbrev S1024 : Shape := ⟨1, ![1024]⟩
abbrev S1024x1 : Shape := ⟨2, ![1024, 1]⟩
abbrev S1024x47 : Shape := ⟨2, ![1024, 47]⟩
abbrev S1x47 : Shape := ⟨2, ![1, 47]⟩

abbrev nBuf : Space → Nat
  | .hbm => 133
  | .vmem => 0
  | .smem => 0
  | _ => 0

abbrev hbmTy0_0 (i : Nat) : BufTy := match i % 128 with
  | 0 => ⟨S1024000x128, .f32⟩
  | 1 => ⟨S1024000, .i32⟩
  | 2 => ⟨S1024000, .i32⟩
  | 3 => ⟨S102400, .i32⟩
  | 4 => ⟨S102400, .i32⟩
  | 5 => ⟨S10240, .i32⟩
  | 6 => ⟨S10240, .i32⟩
  | 7 => ⟨S128x256, .f32⟩
  | 8 => ⟨S256, .f32⟩
  | 9 => ⟨S128x256, .f32⟩
  | 10 => ⟨S256x256, .f32⟩
  | 11 => ⟨S256, .f32⟩
  | 12 => ⟨S256x256, .f32⟩
  | 13 => ⟨S256x47, .f32⟩
  | 14 => ⟨S47, .f32⟩
  | 15 => ⟨S256x47, .f32⟩
  | 16 => ⟨S102400x128, .f32⟩
  | 17 => ⟨S_, .i32⟩
  | 18 => ⟨S1024000, .i32⟩
  | 19 => ⟨S1024000, .i1⟩
  | 20 => ⟨S_, .i32⟩
  | 21 => ⟨S1024000, .i32⟩
  | 22 => ⟨S1024000, .i32⟩
  | 23 => ⟨S1024000, .i32⟩
  | 24 => ⟨S1024000x1, .i32⟩
  | 25 => ⟨S1024000x128, .f32⟩
  | 26 => ⟨S_, .f32⟩
  | 27 => ⟨S102400x128, .f32⟩
  | 28 => ⟨S1024000x1, .i32⟩
  | 29 => ⟨S102400x128, .f32⟩
  | 30 => ⟨S_, .f32⟩
  | 31 => ⟨S1024000, .f32⟩
  | 32 => ⟨S_, .f32⟩
  | 33 => ⟨S102400, .f32⟩
  | 34 => ⟨S1024000x1, .i32⟩
  | 35 => ⟨S102400, .f32⟩
  | 36 => ⟨S_, .f32⟩
  | 37 => ⟨S102400, .f32⟩
  | 38 => ⟨S102400, .f32⟩
  | 39 => ⟨S102400x1, .f32⟩
  | 40 => ⟨S102400x128, .f32⟩
  | 41 => ⟨S102400x128, .f32⟩
  | 42 => ⟨S102400x256, .f32⟩
  | 43 => ⟨S1x256, .f32⟩
  | 44 => ⟨S102400x256, .f32⟩
  | 45 => ⟨S102400x256, .f32⟩
  | 46 => ⟨S102400x256, .f32⟩
  | 47 => ⟨S102400x256, .f32⟩
  | 48 => ⟨S_, .f32⟩
  | 49 => ⟨S102400x256, .f32⟩
  | 50 => ⟨S102400x256, .f32⟩
  | 51 => ⟨S10240x256, .f32⟩
  | 52 => ⟨S_, .i32⟩
  | 53 => ⟨S102400, .i32⟩
  | 54 => ⟨S102400, .i1⟩
  | 55 => ⟨S_, .i32⟩
  | 56 => ⟨S102400, .i32⟩
  | 57 => ⟨S102400, .i32⟩
  | 58 => ⟨S102400, .i32⟩
  | 59 => ⟨S102400x1, .i32⟩
  | 60 => ⟨S102400x256, .f32⟩
  | 61 => ⟨S_, .f32⟩
  | 62 => ⟨S10240x256, .f32⟩
  | 63 => ⟨S102400x1, .i32⟩
  | 64 => ⟨S10240x256, .f32⟩
  | 65 => ⟨S_, .f32⟩
  | 66 => ⟨S102400, .f32⟩
  | 67 => ⟨S_, .f32⟩
  | 68 => ⟨S10240, .f32⟩
  | 69 => ⟨S102400x1, .i32⟩
  | 70 => ⟨S10240, .f32⟩
  | 71 => ⟨S_, .f32⟩
  | 72 => ⟨S10240, .f32⟩
  | 73 => ⟨S10240, .f32⟩
  | 74 => ⟨S10240x1, .f32⟩
  | 75 => ⟨S10240x256, .f32⟩
  | 76 => ⟨S10240x256, .f32⟩
  | 77 => ⟨S10240x256, .f32⟩
  | 78 => ⟨S1x256, .f32⟩
  | 79 => ⟨S10240x256, .f32⟩
  | 80 => ⟨S10240x256, .f32⟩
  | 81 => ⟨S10240x256, .f32⟩
  | 82 => ⟨S10240x256, .f32⟩
  | 83 => ⟨S_, .f32⟩
  | 84 => ⟨S10240x256, .f32⟩
  | 85 => ⟨S10240x256, .f32⟩
  | 86 => ⟨S1024x256, .f32⟩
  | 87 => ⟨S_, .i32⟩
  | 88 => ⟨S10240, .i32⟩
  | 89 => ⟨S10240, .i1⟩
  | 90 => ⟨S_, .i32⟩
  | 91 => ⟨S10240, .i32⟩
  | 92 => ⟨S10240, .i32⟩
  | 93 => ⟨S10240, .i32⟩
  | 94 => ⟨S10240x1, .i32⟩
  | 95 => ⟨S10240x256, .f32⟩
  | 96 => ⟨S_, .f32⟩
  | 97 => ⟨S1024x256, .f32⟩
  | 98 => ⟨S10240x1, .i32⟩
  | 99 => ⟨S1024x256, .f32⟩
  | 100 => ⟨S_, .f32⟩
  | 101 => ⟨S10240, .f32⟩
  | 102 => ⟨S_, .f32⟩
  | 103 => ⟨S1024, .f32⟩
  | 104 => ⟨S10240x1, .i32⟩
  | 105 => ⟨S1024, .f32⟩
  | 106 => ⟨S_, .f32⟩
  | 107 => ⟨S1024, .f32⟩
  | 108 => ⟨S1024, .f32⟩
  | 109 => ⟨S1024x1, .f32⟩
  | 110 => ⟨S1024x256, .f32⟩
  | 111 => ⟨S1024x256, .f32⟩
  | 112 => ⟨S1024x47, .f32⟩
  | 113 => ⟨S1x47, .f32⟩
  | 114 => ⟨S1024x47, .f32⟩
  | 115 => ⟨S1024x47, .f32⟩
  | 116 => ⟨S1024x47, .f32⟩
  | 117 => ⟨S1024x47, .f32⟩
  | 118 => ⟨S_, .f32⟩
  | 119 => ⟨S1024, .f32⟩
  | 120 => ⟨S_, .f32⟩
  | 121 => ⟨S1024, .f32⟩
  | 122 => ⟨S1024, .f32⟩
  | 123 => ⟨S1024x1, .f32⟩
  | 124 => ⟨S1024x47, .f32⟩
  | 125 => ⟨S1024x47, .f32⟩
  | 126 => ⟨S1024x47, .f32⟩
  | 127 => ⟨S_, .f32⟩
  | _ => ⟨S1024000x128, .f32⟩

abbrev hbmTy0_1 (i : Nat) : BufTy := match i % 128 with
  | 0 => ⟨S1024, .f32⟩
  | 1 => ⟨S1024x1, .f32⟩
  | 2 => ⟨S1024x1, .f32⟩
  | 3 => ⟨S1024x47, .f32⟩
  | 4 => ⟨S1024x47, .f32⟩
  | _ => ⟨S1024000x128, .f32⟩

abbrev hbmTy (i : Nat) : BufTy := match i / 128 with
  | 0 => hbmTy0_0 i
  | 1 => hbmTy0_1 i
  | _ => ⟨S1024000x128, .f32⟩

abbrev bufTy : (tb : Table) → Fin (tcTables nBuf tb) → BufTy
  | .hbm, ⟨i, _⟩ => hbmTy i
  | _, _ => ⟨S1024000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_c_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_cst_2 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_3 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_call0_cst : Ref sig .tc := ⟨.hbm, 48, rfl⟩
abbrev main_call0_v0 : Ref sig .tc := ⟨.hbm, 49, rfl⟩
abbrev main_v26 : Ref sig .tc := ⟨.hbm, 50, rfl⟩
abbrev main_v27 : Ref sig .tc := ⟨.hbm, 51, rfl⟩
abbrev main_c_4 : Ref sig .tc := ⟨.hbm, 52, rfl⟩
abbrev main_v28 : Ref sig .tc := ⟨.hbm, 53, rfl⟩
abbrev main_v29 : Ref sig .tc := ⟨.hbm, 54, rfl⟩
abbrev main_c_5 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_6 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_7 : Ref sig .tc := ⟨.hbm, 65, rfl⟩
abbrev main_v38 : Ref sig .tc := ⟨.hbm, 66, rfl⟩
abbrev main_cst_8 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_9 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_call1_cst : Ref sig .tc := ⟨.hbm, 83, rfl⟩
abbrev main_call1_v0 : Ref sig .tc := ⟨.hbm, 84, rfl⟩
abbrev main_v53 : Ref sig .tc := ⟨.hbm, 85, rfl⟩
abbrev main_v54 : Ref sig .tc := ⟨.hbm, 86, rfl⟩
abbrev main_c_10 : Ref sig .tc := ⟨.hbm, 87, rfl⟩
abbrev main_v55 : Ref sig .tc := ⟨.hbm, 88, rfl⟩
abbrev main_v56 : Ref sig .tc := ⟨.hbm, 89, rfl⟩
abbrev main_c_11 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_12 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_13 : Ref sig .tc := ⟨.hbm, 100, rfl⟩
abbrev main_v65 : Ref sig .tc := ⟨.hbm, 101, rfl⟩
abbrev main_cst_14 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_cst_15 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_call2_cst : Ref sig .tc := ⟨.hbm, 118, rfl⟩
abbrev main_call2_v0 : Ref sig .tc := ⟨.hbm, 119, rfl⟩
abbrev main_call2_cst_0 : Ref sig .tc := ⟨.hbm, 120, rfl⟩
abbrev main_call2_v1 : Ref sig .tc := ⟨.hbm, 121, rfl⟩
abbrev main_call2_v2 : Ref sig .tc := ⟨.hbm, 122, rfl⟩
abbrev main_call2_v3 : Ref sig .tc := ⟨.hbm, 123, rfl⟩
abbrev main_call2_v4 : Ref sig .tc := ⟨.hbm, 124, rfl⟩
abbrev main_call2_v5 : Ref sig .tc := ⟨.hbm, 125, rfl⟩
abbrev main_call2_v6 : Ref sig .tc := ⟨.hbm, 126, rfl⟩
abbrev main_call2_cst_1 : Ref sig .tc := ⟨.hbm, 127, rfl⟩
abbrev main_call2_v7 : Ref sig .tc := ⟨.hbm, 128, rfl⟩
abbrev main_call2_v8 : Ref sig .tc := ⟨.hbm, 129, rfl⟩
abbrev main_call2_v9 : Ref sig .tc := ⟨.hbm, 130, rfl⟩
abbrev main_call2_v10 : Ref sig .tc := ⟨.hbm, 131, rfl⟩
abbrev main_v80 : Ref sig .tc := ⟨.hbm, 132, rfl⟩

abbrev nD : Nat := 1
abbrev τ : Topo := Topo.v7x

variable {F : FTy → Type} [FloatOps F]

class Facts₀ : Prop where
  slices_S1024000x128_S102400x128_0_0 : S1024000x128.Slices ![0, 0] S102400x128
  bcast_S_S1024000 : S_.BroadcastsInDim S1024000 (![] : Fin 0 → Fin S1024000.rank)
  bcast_S1024000_S1024000x1_0 : S1024000.BroadcastsInDim S1024000x1 (![0] : Fin 1 → Fin S1024000x1.rank)
  bcast_S_S102400x128 : S_.BroadcastsInDim S102400x128 (![] : Fin 0 → Fin S102400x128.rank)
  bcast_S_S102400 : S_.BroadcastsInDim S102400 (![] : Fin 0 → Fin S102400.rank)
  bcast_S102400_S102400x1_0 : S102400.BroadcastsInDim S102400x1 (![0] : Fin 1 → Fin S102400x1.rank)
  bcast_S102400x1_S102400x128_0_1 : S102400x1.BroadcastsInDim S102400x128 (![0, 1] : Fin 2 → Fin S102400x128.rank)
  bcast_S256_S1x256_1 : S256.BroadcastsInDim S1x256 (![1] : Fin 1 → Fin S1x256.rank)
  bcast_S1x256_S102400x256_0_1 : S1x256.BroadcastsInDim S102400x256 (![0, 1] : Fin 2 → Fin S102400x256.rank)
  bcast_S_S102400x256 : S_.BroadcastsInDim S102400x256 (![] : Fin 0 → Fin S102400x256.rank)
  slices_S102400x256_S10240x256_0_0 : S102400x256.Slices ![0, 0] S10240x256
  bcast_S_S10240x256 : S_.BroadcastsInDim S10240x256 (![] : Fin 0 → Fin S10240x256.rank)
  bcast_S_S10240 : S_.BroadcastsInDim S10240 (![] : Fin 0 → Fin S10240.rank)
  bcast_S10240_S10240x1_0 : S10240.BroadcastsInDim S10240x1 (![0] : Fin 1 → Fin S10240x1.rank)
  bcast_S10240x1_S10240x256_0_1 : S10240x1.BroadcastsInDim S10240x256 (![0, 1] : Fin 2 → Fin S10240x256.rank)
  bcast_S1x256_S10240x256_0_1 : S1x256.BroadcastsInDim S10240x256 (![0, 1] : Fin 2 → Fin S10240x256.rank)
  slices_S10240x256_S1024x256_0_0 : S10240x256.Slices ![0, 0] S1024x256
  bcast_S_S1024x256 : S_.BroadcastsInDim S1024x256 (![] : Fin 0 → Fin S1024x256.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x256_0_1 : S1024x1.BroadcastsInDim S1024x256 (![0, 1] : Fin 2 → Fin S1024x256.rank)
  bcast_S47_S1x47_1 : S47.BroadcastsInDim S1x47 (![1] : Fin 1 → Fin S1x47.rank)
  bcast_S1x47_S1024x47_0_1 : S1x47.BroadcastsInDim S1024x47 (![0, 1] : Fin 2 → Fin S1024x47.rank)
  reducesTo_S1024x47_S1024_d1 : S1024x47.ReducesTo [1] S1024
  h_S_ : 0 < S_.numel
  bcast_S1024x1_S1024x47_0_1 : S1024x1.BroadcastsInDim S1024x47 (![0, 1] : Fin 2 → Fin S1024x47.rank)
  gather_S1024000x128_S1024000x1_S1024000x128_1_0_n_n_0_1_1128_wf : GatherDims.WF S1024000x128 S1024000x1 S1024000x128 [1] [0] [] [0] [] 1 ![1, 128]
  scatter_S102400x128_S1024000x1_S1024000x128_1_0_0_1_wf : ScatterDims.WF S102400x128 S1024000x1 S1024000x128 [1] [0] [0] 1
  scatter_S102400_S1024000x1_S1024000_n_0_0_1_wf : ScatterDims.WF S102400 S1024000x1 S1024000 [] [0] [0] 1
  dot_S102400x128_S128x256_S102400x256_1_0_0_1_n_n_wf : DotDims.WF S102400x128 S128x256 S102400x256 [1] [0] [0] [1] [] []
  gather_S102400x256_S102400x1_S102400x256_1_0_n_n_0_1_1256_wf : GatherDims.WF S102400x256 S102400x1 S102400x256 [1] [0] [] [0] [] 1 ![1, 256]
  scatter_S10240x256_S102400x1_S102400x256_1_0_0_1_wf : ScatterDims.WF S10240x256 S102400x1 S102400x256 [1] [0] [0] 1
  scatter_S10240_S102400x1_S102400_n_0_0_1_wf : ScatterDims.WF S10240 S102400x1 S102400 [] [0] [0] 1
  dot_S10240x256_S256x256_S10240x256_1_0_0_1_n_n_wf : DotDims.WF S10240x256 S256x256 S10240x256 [1] [0] [0] [1] [] []
  gather_S10240x256_S10240x1_S10240x256_1_0_n_n_0_1_1256_wf : GatherDims.WF S10240x256 S10240x1 S10240x256 [1] [0] [] [0] [] 1 ![1, 256]
  scatter_S1024x256_S10240x1_S10240x256_1_0_0_1_wf : ScatterDims.WF S1024x256 S10240x1 S10240x256 [1] [0] [0] 1
  scatter_S1024_S10240x1_S10240_n_0_0_1_wf : ScatterDims.WF S1024 S10240x1 S10240 [] [0] [0] 1
  dot_S1024x256_S256x47_S1024x47_1_0_0_1_n_n_wf : DotDims.WF S1024x256 S256x47 S1024x47 [1] [0] [0] [1] [] []

variable [Facts₀]

def gather_S1024000x128_S1024000x1_S1024000x128_1_0_n_n_0_1_1128 : GatherDims S1024000x128 S1024000x1 S1024000x128 where
  offsetDims := [1]
  collapsedSliceDims := [0]
  operandBatchingDims := []
  startIndicesBatchingDims := []
  startIndexMap := [0]
  indexVectorDim := 1
  sliceSizes := ![1, 128]
  wf := gather_S1024000x128_S1024000x1_S1024000x128_1_0_n_n_0_1_1128_wf
def scatter_S102400x128_S1024000x1_S1024000x128_1_0_0_1 : ScatterDims S102400x128 S1024000x1 S1024000x128 where
  updateWindowDims := [1]
  insertedWindowDims := [0]
  scatterDimsToOperandDims := [0]
  indexVectorDim := 1
  wf := scatter_S102400x128_S1024000x1_S1024000x128_1_0_0_1_wf
def scatter_S102400_S1024000x1_S1024000_n_0_0_1 : ScatterDims S102400 S1024000x1 S1024000 where
  updateWindowDims := []
  insertedWindowDims := [0]
  scatterDimsToOperandDims := [0]
  indexVectorDim := 1
  wf := scatter_S102400_S1024000x1_S1024000_n_0_0_1_wf
def dot_S102400x128_S128x256_S102400x256_1_0_0_1_n_n : DotDims S102400x128 S128x256 S102400x256 where
  lhsContracting := [1]
  rhsContracting := [0]
  lhsNonContracting := [0]
  rhsNonContracting := [1]
  lhsBatch := []
  rhsBatch := []
  wf := dot_S102400x128_S128x256_S102400x256_1_0_0_1_n_n_wf
def gather_S102400x256_S102400x1_S102400x256_1_0_n_n_0_1_1256 : GatherDims S102400x256 S102400x1 S102400x256 where
  offsetDims := [1]
  collapsedSliceDims := [0]
  operandBatchingDims := []
  startIndicesBatchingDims := []
  startIndexMap := [0]
  indexVectorDim := 1
  sliceSizes := ![1, 256]
  wf := gather_S102400x256_S102400x1_S102400x256_1_0_n_n_0_1_1256_wf
def scatter_S10240x256_S102400x1_S102400x256_1_0_0_1 : ScatterDims S10240x256 S102400x1 S102400x256 where
  updateWindowDims := [1]
  insertedWindowDims := [0]
  scatterDimsToOperandDims := [0]
  indexVectorDim := 1
  wf := scatter_S10240x256_S102400x1_S102400x256_1_0_0_1_wf
def scatter_S10240_S102400x1_S102400_n_0_0_1 : ScatterDims S10240 S102400x1 S102400 where
  updateWindowDims := []
  insertedWindowDims := [0]
  scatterDimsToOperandDims := [0]
  indexVectorDim := 1
  wf := scatter_S10240_S102400x1_S102400_n_0_0_1_wf
def dot_S10240x256_S256x256_S10240x256_1_0_0_1_n_n : DotDims S10240x256 S256x256 S10240x256 where
  lhsContracting := [1]
  rhsContracting := [0]
  lhsNonContracting := [0]
  rhsNonContracting := [1]
  lhsBatch := []
  rhsBatch := []
  wf := dot_S10240x256_S256x256_S10240x256_1_0_0_1_n_n_wf
def gather_S10240x256_S10240x1_S10240x256_1_0_n_n_0_1_1256 : GatherDims S10240x256 S10240x1 S10240x256 where
  offsetDims := [1]
  collapsedSliceDims := [0]
  operandBatchingDims := []
  startIndicesBatchingDims := []
  startIndexMap := [0]
  indexVectorDim := 1
  sliceSizes := ![1, 256]
  wf := gather_S10240x256_S10240x1_S10240x256_1_0_n_n_0_1_1256_wf
def scatter_S1024x256_S10240x1_S10240x256_1_0_0_1 : ScatterDims S1024x256 S10240x1 S10240x256 where
  updateWindowDims := [1]
  insertedWindowDims := [0]
  scatterDimsToOperandDims := [0]
  indexVectorDim := 1
  wf := scatter_S1024x256_S10240x1_S10240x256_1_0_0_1_wf
def scatter_S1024_S10240x1_S10240_n_0_0_1 : ScatterDims S1024 S10240x1 S10240 where
  updateWindowDims := []
  insertedWindowDims := [0]
  scatterDimsToOperandDims := [0]
  indexVectorDim := 1
  wf := scatter_S1024_S10240x1_S10240_n_0_0_1_wf
def dot_S1024x256_S256x47_S1024x47_1_0_0_1_n_n : DotDims S1024x256 S256x47 S1024x47 where
  lhsContracting := [1]
  rhsContracting := [0]
  lhsNonContracting := [0]
  rhsNonContracting := [1]
  lhsBatch := []
  rhsBatch := []
  wf := dot_S1024x256_S256x47_S1024x47_1_0_0_1_n_n_wf

class Facts : Prop extends Facts₀ where

variable [Facts]
-- ==== Proof.Reals.lean ====
import Idealize.ShloMosaic.PureOps.Ideal

/-! Extended reals that are real numbers, and the operations that keep them so. -/

noncomputable section

namespace Cert.Sage

open Idealize.ShloMosaic

/-- An extended real that is a real number (neither infinity). -/
def IsReal (x : EReal) : Prop := ∃ r : ℝ, x = (r : EReal)

theorem IsReal.zero : IsReal 0 := ⟨0, rfl⟩
theorem IsReal.one : IsReal 1 := ⟨1, rfl⟩

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.sup {a b : EReal} (ha : IsReal a) (hb : IsReal b) : IsReal (Max.max a b) := by
  obtain ⟨r, rfl⟩ := ha; obtain ⟨s, rfl⟩ := hb
  exact ⟨Max.max r s, (EReal.coe_strictMono.monotone.map_max (a := r) (b := s)).symm⟩

theorem IsReal.sum {ι : Type*} (s : Finset ι) (f : ι → EReal) (h : ∀ i ∈ s, IsReal (f i)) :
    IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

end Cert.Sage

end
-- ==== Proof.RefReal.lean ====
import proofs.«121724_j32804960207226_2_alg».proof.Proof.RefReadP
import proofs.«121724_j32804960207226_2_alg».proof.Proof.Reals
import Idealize.ShloMosaic.Lib.IdealHost

/-!
Every entry of the reference's final pre-softmax array is a real number when the float inputs are.

The reference is three layers of the same shape: gather rows of the layer's input at the source indices,
sum them by destination index into an array of zeros, count the edges into each destination the same way
(a sum of ones into zeros), divide the sum by the count clamped below at one, multiply by a weight, add a
bias and the destination rows times a second weight, and (after the first two layers) take the maximum
with zero. Each of these operations keeps real numbers real: a layout operation reads one entry of its
operand, a scatter with an addition body adds a finite sum of update entries to an operand entry, a
contraction is a finite sum of products, and the division is by a real number at least one, so it is the
product with a reciprocal. The index arrays play no part: whichever entries a gather reads or a scatter
adds up, they are entries of arrays of real numbers.
-/

noncomputable section

namespace Cert.Sage

open Idealize.ShloMosaic Cert.ReferenceIdeal Cert.ReferenceIdeal.ReadP

/-! ### Real numbers at least one -/

/-- An extended real that is a real number at least one (in particular not zero). -/
def GeOne (x : EReal) : Prop := ∃ r : ℝ, 1 ≤ r ∧ x = (r : EReal)

/-- An extended real that is the number one. -/
def IsOne (x : EReal) : Prop := x = 1

theorem IsOne.isReal {x : EReal} (h : IsOne x) : IsReal x := by rw [show x = 1 from h]; exact IsReal.one

/-- The maximum of a real number and one is a real number at least one. -/
theorem IsReal.max_one {a : EReal} (ha : IsReal a) : GeOne (Max.max a 1) := by
  obtain ⟨r, rfl⟩ := ha
  refine ⟨Max.max r 1, le_max_right _ _, ?_⟩
  rw [← EReal.coe_one]
  exact (EReal.coe_strictMono.monotone.map_max (a := r) (b := 1)).symm

/-- A real number divided by a real number at least one is a real number: the divisor is not zero, so the
    quotient is the product with the reciprocal. -/
theorem IsReal.div_geOne {a b : EReal} (ha : IsReal a) (hb : GeOne b) : IsReal (Ideal.div a b) := by
  obtain ⟨r, rfl⟩ := ha
  obtain ⟨q, hq, rfl⟩ := hb
  have hq0 : q ≠ 0 := ne_of_gt (lt_of_lt_of_le one_pos hq)
  rw [Ideal.div_coe hq0]
  exact ⟨r * (1 / q), (EReal.coe_mul _ _).symm⟩

/-! ### One operation at a time, over arbitrary operands

Every layout operation reads, at each result index, one entry of its operand; so a property of all entries of
the operand is a property of all entries of the result. -/

section Ops

variable {s t si u : Shape} {w : Nat}

theorem all_gather {α : Type} (P : α → Prop) (d : GatherDims s si t) (x : s.Idx → α) (idx : IVec si w)
    (hx : ∀ i, P (x i)) : ∀ j, P (Host.gather d x idx j) := fun j => hx _

theorem all_broadcastInDim {α : Type} (P : α → Prop) (dims : Fin s.rank → Fin t.rank) (h : s.BroadcastsInDim t dims)
    (x : s.Idx → α) (hx : ∀ i, P (x i)) : ∀ j, P (broadcastInDim t dims h x j) := fun j => hx _

theorem all_slice {α : Type} (P : α → Prop) (off : Fin s.rank → Nat) (x : s.Idx → α) (h : s.Slices off t)
    (hx : ∀ i, P (x i)) : ∀ j, P (extractStridedSlice t off x h j) := fun j => hx _

/-- The constant of bit pattern zero is the real number zero everywhere. -/
theorem real_const_zero (s : Shape) : ∀ i, IsReal (constant (F := Ideal) s .f32 0x00000000#32 i) := by
  intro i
  show IsReal (Ideal.ofBits .f32 0x00000000#32)
  rw [Ideal.ofBits_zero_f32]
  exact IsReal.zero

/-- The constant of bit pattern 0x3F800000 is one everywhere. -/
theorem const_one (s : Shape) : ∀ i, IsOne (constant (F := Ideal) s .f32 0x3F800000#32 i) := by
  intro i
  show Ideal.ofBits .f32 0x3F800000#32 = 1
  exact Ideal.ofBits_one_f32

theorem real_of_one {x : s.Idx → EReal} (hx : ∀ i, IsOne (x i)) : ∀ i, IsReal (x i) := fun i => (hx i).isReal

theorem real_addf (x y : FVec Ideal s .f32) (hx : ∀ i, IsReal (x i)) (hy : ∀ i, IsReal (y i)) :
    ∀ i, IsReal (addf x y i) := fun i => (hx i).add (hy i)

theorem real_maximumf (x y : FVec Ideal s .f32) (hx : ∀ i, IsReal (x i)) (hy : ∀ i, IsReal (y i)) :
    ∀ i, IsReal (maximumf x y i) := fun i => (hx i).sup (hy i)

/-- The maximum with the all-ones array: real numbers at least one. -/
theorem geOne_maximumf_one (x y : FVec Ideal s .f32) (hx : ∀ i, IsReal (x i)) (hy : ∀ i, IsOne (y i)) :
    ∀ i, GeOne (maximumf x y i) := fun i => by
  show GeOne (Max.max (x i) (y i))
  rw [show y i = 1 from hy i]
  exact (hx i).max_one

theorem real_divf (x y : FVec Ideal s .f32) (hx : ∀ i, IsReal (x i)) (hy : ∀ i, GeOne (y i)) :
    ∀ i, IsReal (Host.divf x y i) := fun i => (hx i).div_geOne (hy i)

/-- A scatter with an addition body: each entry is the operand's plus a finite sum of update entries. -/
theorem real_scatterAdd (d : ScatterDims s si u) (x : FVec Ideal s .f32) (idx : IVec si w) (upd : FVec Ideal u .f32)
    (hx : ∀ i, IsReal (x i)) (hu : ∀ j, IsReal (upd j)) : ∀ i, IsReal (Host.scatterAdd d x idx upd i) := by
  intro i
  rw [Host.scatterAdd, Ideal.hostScatterAdd_def]
  unfold Ideal.hostScatterAdd
  exact (hx i).add (IsReal.sum _ _ fun j _ => hu j)

/-- A contraction: each entry is a finite sum of products of one entry of each operand. -/
theorem real_dot {sl sr so : Shape} (d : DotDims sl sr so) (prec : Option ContractPrecision)
    (x : FVec Ideal sl .f32) (y : FVec Ideal sr .f32) (hx : ∀ i, IsReal (x i)) (hy : ∀ i, IsReal (y i)) :
    ∀ i, IsReal (Host.dotGeneral d prec x y i) := by
  intro i
  rw [Host.dotGeneral, Ideal.dotGeneral_def]
  unfold Ideal.matmul
  exact IsReal.zero.add (IsReal.sum _ _ fun k _ => (hx _).mul (hy _))

end Ops

/-! ### The reference, stage by stage

One statement per float stage of the program, in program order, each from the statements of its operands. -/

/-- The leading rows of the features, the first layer's destinations. -/
theorem real_main_v0 (x0 : (⟨S1024000x128, .f32⟩ : BufTy).Contents (Elt Ideal))
    (h0 : ∀ i, IsReal (x0 i)) :
    ∀ i, IsReal (val_main_v0 (F := Ideal) x0 i) := by
  unfold val_main_v0
  exact all_slice IsReal _ _ _ h0

/-- Layer 0: the rows of the layer's input gathered at the source indices. -/
theorem real_main_v7 (x0 : (⟨S1024000x128, .f32⟩ : BufTy).Contents (Elt Ideal)) (x1 : (⟨S1024000, .i32⟩ : BufTy).Contents (Elt Ideal))
    (h0 : ∀ i, IsReal (x0 i)) :
    ∀ i, IsReal (val_main_v7 (F := Ideal) x0 x1 i) := by
  unfold val_main_v7
  exact all_gather IsReal _ _ _ h0

/-- An array of zeros. -/
theorem real_main_v8 :
    ∀ i, IsReal (val_main_v8 (F := Ideal) i) := by
  unfold val_main_v8 val_main_cst
  exact all_broadcastInDim IsReal _ _ _ (real_const_zero _)

/-- Layer 0: the gathered rows summed by destination index. -/
theorem real_main_v10 (x0 : (⟨S1024000x128, .f32⟩ : BufTy).Contents (Elt Ideal)) (x1 x2 : (⟨S1024000, .i32⟩ : BufTy).Contents (Elt Ideal))
    (h0 : ∀ i, IsReal (x0 i)) :
    ∀ i, IsReal (val_main_v10 (F := Ideal) x0 x1 x2 i) := by
  unfold val_main_v10
  exact real_scatterAdd _ _ _ _ real_main_v8 (real_main_v7 x0 x1 h0)

/-- An array of ones. -/
theorem one_main_v11 :
    ∀ i, IsOne (val_main_v11 (F := Ideal) i) := by
  unfold val_main_v11 val_main_cst_1
  exact all_broadcastInDim IsOne _ _ _ (const_one _)

/-- An array of zeros. -/
theorem real_main_v12 :
    ∀ i, IsReal (val_main_v12 (F := Ideal) i) := by
  unfold val_main_v12 val_main_cst_2
  exact all_broadcastInDim IsReal _ _ _ (real_const_zero _)

/-- Layer 0: the number of edges into each destination. -/
theorem real_main_v14 (x2 : (⟨S1024000, .i32⟩ : BufTy).Contents (Elt Ideal)) :
    ∀ i, IsReal (val_main_v14 (F := Ideal) x2 i) := by
  unfold val_main_v14
  exact real_scatterAdd _ _ _ _ real_main_v12 (real_of_one one_main_v11)

/-- An array of ones. -/
theorem one_main_v15 :
    ∀ i, IsOne (val_main_v15 (F := Ideal) i) := by
  unfold val_main_v15 val_main_cst_3
  exact all_broadcastInDim IsOne _ _ _ (const_one _)

/-- Layer 0: the count, at least one. -/
theorem geOne_main_v16 (x2 : (⟨S1024000, .i32⟩ : BufTy).Contents (Elt Ideal)) :
    ∀ i, GeOne (val_main_v16 (F := Ideal) x2 i) := by
  unfold val_main_v16
  exact geOne_maximumf_one _ _ (real_main_v14 x2) one_main_v15

/-- Layer 0: the clamped count as a column. -/
theorem geOne_main_v17 (x2 : (⟨S1024000, .i32⟩ : BufTy).Contents (Elt Ideal)) :
    ∀ i, GeOne (val_main_v17 (F := Ideal) x2 i) := by
  unfold val_main_v17
  exact all_broadcastInDim GeOne _ _ _ (geOne_main_v16 x2)

/-- Layer 0: the clamped count along every row. -/
theorem geOne_main_v18 (x2 : (⟨S1024000, .i32⟩ : BufTy).Contents (Elt Ideal)) :
    ∀ i, GeOne (val_main_v18 (F := Ideal) x2 i) := by
  unfold val_main_v18
  exact all_broadcastInDim GeOne _ _ _ (geOne_main_v17 x2)

/-- Layer 0: the mean over the incoming edges. -/
theorem real_main_v19 (x0 : (⟨S1024000x128, .f32⟩ : BufTy).Contents (Elt Ideal)) (x1 x2 : (⟨S1024000, .i32⟩ : BufTy).Contents (Elt Ideal))
    (h0 : ∀ i, IsReal (x0 i)) :
    ∀ i, IsReal (val_main_v19 (F := Ideal) x0 x1 x2 i) := by
  unfold val_main_v19
  exact real_divf _ _ (real_main_v10 x0 x1 x2 h0) (geOne_main_v18 x2)

/-- Layer 0: the mean times the left weight. -/
theorem real_main_v20 (x0 : (⟨S1024000x128, .f32⟩ : BufTy).Contents (Elt Ideal)) (x1 x2 : (⟨S1024000, .i32⟩ : BufTy).Contents (Elt Ideal)) (x7 : (⟨S128x256, .f32⟩ : BufTy).Contents (Elt Ideal))
    (h0 : ∀ i, IsReal (x0 i)) (h7 : ∀ i, IsReal (x7 i)) :
    ∀ i, IsReal (val_main_v20 (F := Ideal) x0 x1 x2 x7 i) := by
  unfold val_main_v20
  exact real_dot _ _ _ _ (real_main_v19 x0 x1 x2 h0) h7

/-- Layer 0: the bias as a row. -/
theorem real_main_v21 (x8 : (⟨S256, .f32⟩ : BufTy).Contents (Elt Ideal))
    (h8 : ∀ i, IsReal (x8 i)) :
    ∀ i, IsReal (val_main_v21 (F := Ideal) x8 i) := by
  unfold val_main_v21
  exact all_broadcastInDim IsReal _ _ _ h8

/-- Layer 0: the bias along every row. -/
theorem real_main_v22 (x8 : (⟨S256, .f32⟩ : BufTy).Contents (Elt Ideal))
    (h8 : ∀ i, IsReal (x8 i)) :
    ∀ i, IsReal (val_main_v22 (F := Ideal) x8 i) := by
  unfold val_main_v22
  exact all_broadcastInDim IsReal _ _ _ (real_main_v21 x8 h8)

/-- Layer 0: product plus bias. -/
theorem real_main_v23 (x0 : (⟨S1024000x128, .f32⟩ : BufTy).Contents (Elt Ideal)) (x1 x2 : (⟨S1024000, .i32⟩ : BufTy).Contents (Elt Ideal)) (x7 : (⟨S128x256, .f32⟩ : BufTy).Contents (Elt Ideal)) (x8 : (⟨S256, .f32⟩ : BufTy).Contents (Elt Ideal))
    (h0 : ∀ i, IsReal (x0 i)) (h7 : ∀ i, IsReal (x7 i)) (h8 : ∀ i, IsReal (x8 i)) :
    ∀ i, IsReal (val_main_v23 (F := Ideal) x0 x1 x2 x7 x8 i) := by
  unfold val_main_v23
  exact real_addf _ _ (real_main_v20 x0 x1 x2 x7 h0 h7) (real_main_v22 x8 h8)

/-- Layer 0: the destination rows times the right weight. -/
theorem real_main_v24 (x0 : (⟨S1024000x128, .f32⟩ : BufTy).Contents (Elt Ideal)) (x9 : (⟨S128x256, .f32⟩ : BufTy).Contents (Elt Ideal))
    (h0 : ∀ i, IsReal (x0 i)) (h9 : ∀ i, IsReal (x9 i)) :
    ∀ i, IsReal (val_main_v24 (F := Ideal) x0 x9 i) := by
  unfold val_main_v24
  exact real_dot _ _ _ _ (real_main_v0 x0 h0) h9

/-- Layer 0: the layer's pre-activation output. -/
theorem real_main_v25 (x0 : (⟨S1024000x128, .f32⟩ : BufTy).Contents (Elt Ideal)) (x1 x2 : (⟨S1024000, .i32⟩ : BufTy).Contents (Elt Ideal)) (x7 : (⟨S128x256, .f32⟩ : BufTy).Contents (Elt Ideal)) (x8 : (⟨S256, .f32⟩ : BufTy).Contents (Elt Ideal)) (x9 : (⟨S128x256, .f32⟩ : BufTy).Contents (Elt Ideal))
    (h0 : ∀ i, IsReal (x0 i)) (h7 : ∀ i, IsReal (x7 i)) (h8 : ∀ i, IsReal (x8 i)) (h9 : ∀ i, IsReal (x9 i)) :
    ∀ i, IsReal (val_main_v25 (F := Ideal) x0 x1 x2 x7 x8 x9 i) := by
  unfold val_main_v25
  exact real_addf _ _ (real_main_v23 x0 x1 x2 x7 x8 h0 h7 h8) (real_main_v24 x0 x9 h0 h9)

/-- An array of zeros. -/
theorem real_main_call0_v0 :
    ∀ i, IsReal (val_main_call0_v0 (F := Ideal) i) := by
  unfold val_main_call0_v0 val_main_call0_cst
  exact all_broadcastInDim IsReal _ _ _ (real_const_zero _)

/-- Layer 0: the rectified output. -/
theorem real_main_v26 (x0 : (⟨S1024000x128, .f32⟩ : BufTy).Contents (Elt Ideal)) (x1 x2 : (⟨S1024000, .i32⟩ : BufTy).Contents (Elt Ideal)) (x7 : (⟨S128x256, .f32⟩ : BufTy).Contents (Elt Ideal)) (x8 : (⟨S256, .f32⟩ : BufTy).Contents (Elt Ideal)) (x9 : (⟨S128x256, .f32⟩ : BufTy).Contents (Elt Ideal))
    (h0 : ∀ i, IsReal (x0 i)) (h7 : ∀ i, IsReal (x7 i)) (h8 : ∀ i, IsReal (x8 i)) (h9 : ∀ i, IsReal (x9 i)) :
    ∀ i, IsReal (val_main_v26 (F := Ideal) x0 x1 x2 x7 x8 x9 i) := by
  unfold val_main_v26
  exact real_maximumf _ _ (real_main_v25 x0 x1 x2 x7 x8 x9 h0 h7 h8 h9) real_main_call0_v0

/-- Layer 0: the output's leading rows, the next layer's destinations. -/
theorem real_main_v27 (x0 : (⟨S1024000x128, .f32⟩ : BufTy).Contents (Elt Ideal)) (x1 x2 : (⟨S1024000, .i32⟩ : BufTy).Contents (Elt Ideal)) (x7 : (⟨S128x256, .f32⟩ : BufTy).Contents (Elt Ideal)) (x8 : (⟨S256, .f32⟩ : BufTy).Contents (Elt Ideal)) (x9 : (⟨S128x256, .f32⟩ : BufTy).Contents (Elt Ideal))
    (h0 : ∀ i, IsReal (x0 i)) (h7 : ∀ i, IsReal (x7 i)) (h8 : ∀ i, IsReal (x8 i)) (h9 : ∀ i, IsReal (x9 i)) :
    ∀ i, IsReal (val_main_v27 (F := Ideal) x0 x1 x2 x7 x8 x9 i) := by
  unfold val_main_v27
  exact all_slice IsReal _ _ _ (real_main_v26 x0 x1 x2 x7 x8 x9 h0 h7 h8 h9)

/-- Layer 1: the rows of the layer's input gathered at the source indices. -/
theorem real_main_v34 (x0 : (⟨S1024000x128, .f32⟩ : BufTy).Contents (Elt Ideal)) (x1 x2 : (⟨S1024000, .i32⟩ : BufTy).Contents (Elt Ideal)) (x3 : (⟨S102400, .i32⟩ : BufTy).Contents (Elt Ideal)) (x7 : (⟨S128x256, .f32⟩ : BufTy).Contents (Elt Ideal)) (x8 : (⟨S256, .f32⟩ : BufTy).Contents (Elt Ideal)) (x9 : (⟨S128x256, .f32⟩ : BufTy).Contents (Elt Ideal))
    (h0 : ∀ i, IsReal (x0 i)) (h7 : ∀ i, IsReal (x7 i)) (h8 : ∀ i, IsReal (x8 i)) (h9 : ∀ i, IsReal (x9 i)) :
    ∀ i, IsReal (val_main_v34 (F := Ideal) x0 x1 x2 x3 x7 x8 x9 i) := by
  unfold val_main_v34
  exact all_gather IsReal _ _ _ (real_main_v26 x0 x1 x2 x7 x8 x9 h0 h7 h8 h9)

/-- An array of zeros. -/
theorem real_main_v35 :
    ∀ i, IsReal (val_main_v35 (F := Ideal) i) := by
  unfold val_main_v35 val_main_cst_6
  exact all_broadcastInDim IsReal _ _ _ (real_const_zero _)

/-- Layer 1: the gathered rows summed by destination index. -/
theorem real_main_v37 (x0 : (⟨S1024000x128, .f32⟩ : BufTy).Contents (Elt Ideal)) (x1 x2 : (⟨S1024000, .i32⟩ : BufTy).Contents (Elt Ideal)) (x3 x4 : (⟨S102400, .i32⟩ : BufTy).Contents (Elt Ideal)) (x7 : (⟨S128x256, .f32⟩ : BufTy).Contents (Elt Ideal)) (x8 : (⟨S256, .f32⟩ : BufTy).Contents (Elt Ideal)) (x9 : (⟨S128x256, .f32⟩ : BufTy).Contents (Elt Ideal))
    (h0 : ∀ i, IsReal (x0 i)) (h7 : ∀ i, IsReal (x7 i)) (h8 : ∀ i, IsReal (x8 i)) (h9 : ∀ i, IsReal (x9 i)) :
    ∀ i, IsReal (val_main_v37 (F := Ideal) x0 x1 x2 x3 x4 x7 x8 x9 i) := by
  unfold val_main_v37
  exact real_scatterAdd _ _ _ _ real_main_v35 (real_main_v34 x0 x1 x2 x3 x7 x8 x9 h0 h7 h8 h9)

/-- An array of ones. -/
theorem one_main_v38 :
    ∀ i, IsOne (val_main_v38 (F := Ideal) i) := by
  unfold val_main_v38 val_main_cst_7
  exact all_broadcastInDim IsOne _ _ _ (const_one _)

/-- An array of zeros. -/
theorem real_main_v39 :
    ∀ i, IsReal (val_main_v39 (F := Ideal) i) := by
  unfold val_main_v39 val_main_cst_8
  exact all_broadcastInDim IsReal _ _ _ (real_const_zero _)

/-- Layer 1: the number of edges into each destination. -/
theorem real_main_v41 (x4 : (⟨S102400, .i32⟩ : BufTy).Contents (Elt Ideal)) :
    ∀ i, IsReal (val_main_v41 (F := Ideal) x4 i) := by
  unfold val_main_v41
  exact real_scatterAdd _ _ _ _ real_main_v39 (real_of_one one_main_v38)

/-- An array of ones. -/
theorem one_main_v42 :
    ∀ i, IsOne (val_main_v42 (F := Ideal) i) := by
  unfold val_main_v42 val_main_cst_9
  exact all_broadcastInDim IsOne _ _ _ (const_one _)

/-- Layer 1: the count, at least one. -/
theorem geOne_main_v43 (x4 : (⟨S102400, .i32⟩ : BufTy).Contents (Elt Ideal)) :
    ∀ i, GeOne (val_main_v43 (F := Ideal) x4 i) := by
  unfold val_main_v43
  exact geOne_maximumf_one _ _ (real_main_v41 x4) one_main_v42

/-- Layer 1: the clamped count as a column. -/
theorem geOne_main_v44 (x4 : (⟨S102400, .i32⟩ : BufTy).Contents (Elt Ideal)) :
    ∀ i, GeOne (val_main_v44 (F := Ideal) x4 i) := by
  unfold val_main_v44
  exact all_broadcastInDim GeOne _ _ _ (geOne_main_v43 x4)

/-- Layer 1: the clamped count along every row. -/
theorem geOne_main_v45 (x4 : (⟨S102400, .i32⟩ : BufTy).Contents (Elt Ideal)) :
    ∀ i, GeOne (val_main_v45 (F := Ideal) x4 i) := by
  unfold val_main_v45
  exact all_broadcastInDim GeOne _ _ _ (geOne_main_v44 x4)

/-- Layer 1: the mean over the incoming edges. -/
theorem real_main_v46 (x0 : (⟨S1024000x128, .f32⟩ : BufTy).Contents (Elt Ideal)) (x1 x2 : (⟨S1024000, .i32⟩ : BufTy).Contents (Elt Ideal)) (x3 x4 : (⟨S102400, .i32⟩ : BufTy).Contents (Elt Ideal)) (x7 : (⟨S128x256, .f32⟩ : BufTy).Contents (Elt Ideal)) (x8 : (⟨S256, .f32⟩ : BufTy).Contents (Elt Ideal)) (x9 : (⟨S128x256, .f32⟩ : BufTy).Contents (Elt Ideal))
    (h0 : ∀ i, IsReal (x0 i)) (h7 : ∀ i, IsReal (x7 i)) (h8 : ∀ i, IsReal (x8 i)) (h9 : ∀ i, IsReal (x9 i)) :
    ∀ i, IsReal (val_main_v46 (F := Ideal) x0 x1 x2 x3 x4 x7 x8 x9 i) := by
  unfold val_main_v46
  exact real_divf _ _ (real_main_v37 x0 x1 x2 x3 x4 x7 x8 x9 h0 h7 h8 h9) (geOne_main_v45 x4)

/-- Layer 1: the mean times the left weight. -/
theorem real_main_v47 (x0 : (⟨S1024000x128, .f32⟩ : BufTy).Contents (Elt Ideal)) (x1 x2 : (⟨S1024000, .i32⟩ : BufTy).Contents (Elt Ideal)) (x3 x4 : (⟨S102400, .i32⟩ : BufTy).Contents (Elt Ideal)) (x7 : (⟨S128x256, .f32⟩ : BufTy).Contents (Elt Ideal)) (x8 : (⟨S256, .f32⟩ : BufTy).Contents (Elt Ideal)) (x9 : (⟨S128x256, .f32⟩ : BufTy).Contents (Elt Ideal)) (x10 : (⟨S256x256, .f32⟩ : BufTy).Contents (Elt Ideal))
    (h0 : ∀ i, IsReal (x0 i)) (h7 : ∀ i, IsReal (x7 i)) (h8 : ∀ i, IsReal (x8 i)) (h9 : ∀ i, IsReal (x9 i)) (h10 : ∀ i, IsReal (x10 i)) :
    ∀ i, IsReal (val_main_v47 (F := Ideal) x0 x1 x2 x3 x4 x7 x8 x9 x10 i) := by
  unfold val_main_v47
  exact real_dot _ _ _ _ (real_main_v46 x0 x1 x2 x3 x4 x7 x8 x9 h0 h7 h8 h9) h10

/-- Layer 1: the bias as a row. -/
theorem real_main_v48 (x11 : (⟨S256, .f32⟩ : BufTy).Contents (Elt Ideal))
    (h11 : ∀ i, IsReal (x11 i)) :
    ∀ i, IsReal (val_main_v48 (F := Ideal) x11 i) := by
  unfold val_main_v48
  exact all_broadcastInDim IsReal _ _ _ h11

/-- Layer 1: the bias along every row. -/
theorem real_main_v49 (x11 : (⟨S256, .f32⟩ : BufTy).Contents (Elt Ideal))
    (h11 : ∀ i, IsReal (x11 i)) :
    ∀ i, IsReal (val_main_v49 (F := Ideal) x11 i) := by
  unfold val_main_v49
  exact all_broadcastInDim IsReal _ _ _ (real_main_v48 x11 h11)

/-- Layer 1: product plus bias. -/
theorem real_main_v50 (x0 : (⟨S1024000x128, .f32⟩ : BufTy).Contents (Elt Ideal)) (x1 x2 : (⟨S1024000, .i32⟩ : BufTy).Contents (Elt Ideal)) (x3 x4 : (⟨S102400, .i32⟩ : BufTy).Contents (Elt Ideal)) (x7 : (⟨S128x256, .f32⟩ : BufTy).Contents (Elt Ideal)) (x8 : (⟨S256, .f32⟩ : BufTy).Contents (Elt Ideal)) (x9 : (⟨S128x256, .f32⟩ : BufTy).Contents (Elt Ideal)) (x10 : (⟨S256x256, .f32⟩ : BufTy).Contents (Elt Ideal)) (x11 : (⟨S256, .f32⟩ : BufTy).Contents (Elt Ideal))
    (h0 : ∀ i, IsReal (x0 i)) (h7 : ∀ i, IsReal (x7 i)) (h8 : ∀ i, IsReal (x8 i)) (h9 : ∀ i, IsReal (x9 i)) (h10 : ∀ i, IsReal (x10 i)) (h11 : ∀ i, IsReal (x11 i)) :
    ∀ i, IsReal (val_main_v50 (F := Ideal) x0 x1 x2 x3 x4 x7 x8 x9 x10 x11 i) := by
  unfold val_main_v50
  exact real_addf _ _ (real_main_v47 x0 x1 x2 x3 x4 x7 x8 x9 x10 h0 h7 h8 h9 h10) (real_main_v49 x11 h11)

/-- Layer 1: the destination rows times the right weight. -/
theorem real_main_v51 (x0 : (⟨S1024000x128, .f32⟩ : BufTy).Contents (Elt Ideal)) (x1 x2 : (⟨S1024000, .i32⟩ : BufTy).Contents (Elt Ideal)) (x7 : (⟨S128x256, .f32⟩ : BufTy).Contents (Elt Ideal)) (x8 : (⟨S256, .f32⟩ : BufTy).Contents (Elt Ideal)) (x9 : (⟨S128x256, .f32⟩ : BufTy).Contents (Elt Ideal)) (x12 : (⟨S256x256, .f32⟩ : BufTy).Contents (Elt Ideal))
    (h0 : ∀ i, IsReal (x0 i)) (h7 : ∀ i, IsReal (x7 i)) (h8 : ∀ i, IsReal (x8 i)) (h9 : ∀ i, IsReal (x9 i)) (h12 : ∀ i, IsReal (x12 i)) :
    ∀ i, IsReal (val_main_v51 (F := Ideal) x0 x1 x2 x7 x8 x9 x12 i) := by
  unfold val_main_v51
  exact real_dot _ _ _ _ (real_main_v27 x0 x1 x2 x7 x8 x9 h0 h7 h8 h9) h12

/-- Layer 1: the layer's pre-activation output. -/
theorem real_main_v52 (x0 : (⟨S1024000x128, .f32⟩ : BufTy).Contents (Elt Ideal)) (x1 x2 : (⟨S1024000, .i32⟩ : BufTy).Contents (Elt Ideal)) (x3 x4 : (⟨S102400, .i32⟩ : BufTy).Contents (Elt Ideal)) (x7 : (⟨S128x256, .f32⟩ : BufTy).Contents (Elt Ideal)) (x8 : (⟨S256, .f32⟩ : BufTy).Contents (Elt Ideal)) (x9 : (⟨S128x256, .f32⟩ : BufTy).Contents (Elt Ideal)) (x10 : (⟨S256x256, .f32⟩ : BufTy).Contents (Elt Ideal)) (x11 : (⟨S256, .f32⟩ : BufTy).Contents (Elt Ideal)) (x12 : (⟨S256x256, .f32⟩ : BufTy).Contents (Elt Ideal))
    (h0 : ∀ i, IsReal (x0 i)) (h7 : ∀ i, IsReal (x7 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v52 (F := Ideal) x0 x1 x2 x3 x4 x7 x8 x9 x10 x11 x12 i) := by
  unfold val_main_v52
  exact real_addf _ _ (real_main_v50 x0 x1 x2 x3 x4 x7 x8 x9 x10 x11 h0 h7 h8 h9 h10 h11) (real_main_v51 x0 x1 x2 x7 x8 x9 x12 h0 h7 h8 h9 h12)

/-- An array of zeros. -/
theorem real_main_call1_v0 :
    ∀ i, IsReal (val_main_call1_v0 (F := Ideal) i) := by
  unfold val_main_call1_v0 val_main_call1_cst
  exact all_broadcastInDim IsReal _ _ _ (real_const_zero _)

/-- Layer 1: the rectified output. -/
theorem real_main_v53 (x0 : (⟨S1024000x128, .f32⟩ : BufTy).Contents (Elt Ideal)) (x1 x2 : (⟨S1024000, .i32⟩ : BufTy).Contents (Elt Ideal)) (x3 x4 : (⟨S102400, .i32⟩ : BufTy).Contents (Elt Ideal)) (x7 : (⟨S128x256, .f32⟩ : BufTy).Contents (Elt Ideal)) (x8 : (⟨S256, .f32⟩ : BufTy).Contents (Elt Ideal)) (x9 : (⟨S128x256, .f32⟩ : BufTy).Contents (Elt Ideal)) (x10 : (⟨S256x256, .f32⟩ : BufTy).Contents (Elt Ideal)) (x11 : (⟨S256, .f32⟩ : BufTy).Contents (Elt Ideal)) (x12 : (⟨S256x256, .f32⟩ : BufTy).Contents (Elt Ideal))
    (h0 : ∀ i, IsReal (x0 i)) (h7 : ∀ i, IsReal (x7 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v53 (F := Ideal) x0 x1 x2 x3 x4 x7 x8 x9 x10 x11 x12 i) := by
  unfold val_main_v53
  exact real_maximumf _ _ (real_main_v52 x0 x1 x2 x3 x4 x7 x8 x9 x10 x11 x12 h0 h7 h8 h9 h10 h11 h12) real_main_call1_v0

/-- Layer 1: the output's leading rows, the next layer's destinations. -/
theorem real_main_v54 (x0 : (⟨S1024000x128, .f32⟩ : BufTy).Contents (Elt Ideal)) (x1 x2 : (⟨S1024000, .i32⟩ : BufTy).Contents (Elt Ideal)) (x3 x4 : (⟨S102400, .i32⟩ : BufTy).Contents (Elt Ideal)) (x7 : (⟨S128x256, .f32⟩ : BufTy).Contents (Elt Ideal)) (x8 : (⟨S256, .f32⟩ : BufTy).Contents (Elt Ideal)) (x9 : (⟨S128x256, .f32⟩ : BufTy).Contents (Elt Ideal)) (x10 : (⟨S256x256, .f32⟩ : BufTy).Contents (Elt Ideal)) (x11 : (⟨S256, .f32⟩ : BufTy).Contents (Elt Ideal)) (x12 : (⟨S256x256, .f32⟩ : BufTy).Contents (Elt Ideal))
    (h0 : ∀ i, IsReal (x0 i)) (h7 : ∀ i, IsReal (x7 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v54 (F := Ideal) x0 x1 x2 x3 x4 x7 x8 x9 x10 x11 x12 i) := by
  unfold val_main_v54
  exact all_slice IsReal _ _ _ (real_main_v53 x0 x1 x2 x3 x4 x7 x8 x9 x10 x11 x12 h0 h7 h8 h9 h10 h11 h12)

/-- Layer 2: the rows of the layer's input gathered at the source indices. -/
theorem real_main_v61 (x0 : (⟨S1024000x128, .f32⟩ : BufTy).Contents (Elt Ideal)) (x1 x2 : (⟨S1024000, .i32⟩ : BufTy).Contents (Elt Ideal)) (x3 x4 : (⟨S102400, .i32⟩ : BufTy).Contents (Elt Ideal)) (x5 : (⟨S10240, .i32⟩ : BufTy).Contents (Elt Ideal)) (x7 : (⟨S128x256, .f32⟩ : BufTy).Contents (Elt Ideal)) (x8 : (⟨S256, .f32⟩ : BufTy).Contents (Elt Ideal)) (x9 : (⟨S128x256, .f32⟩ : BufTy).Contents (Elt Ideal)) (x10 : (⟨S256x256, .f32⟩ : BufTy).Contents (Elt Ideal)) (x11 : (⟨S256, .f32⟩ : BufTy).Contents (Elt Ideal)) (x12 : (⟨S256x256, .f32⟩ : BufTy).Contents (Elt Ideal))
    (h0 : ∀ i, IsReal (x0 i)) (h7 : ∀ i, IsReal (x7 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v61 (F := Ideal) x0 x1 x2 x3 x4 x5 x7 x8 x9 x10 x11 x12 i) := by
  unfold val_main_v61
  exact all_gather IsReal _ _ _ (real_main_v53 x0 x1 x2 x3 x4 x7 x8 x9 x10 x11 x12 h0 h7 h8 h9 h10 h11 h12)

/-- An array of zeros. -/
theorem real_main_v62 :
    ∀ i, IsReal (val_main_v62 (F := Ideal) i) := by
  unfold val_main_v62 val_main_cst_12
  exact all_broadcastInDim IsReal _ _ _ (real_const_zero _)

/-- Layer 2: the gathered rows summed by destination index. -/
theorem real_main_v64 (x0 : (⟨S1024000x128, .f32⟩ : BufTy).Contents (Elt Ideal)) (x1 x2 : (⟨S1024000, .i32⟩ : BufTy).Contents (Elt Ideal)) (x3 x4 : (⟨S102400, .i32⟩ : BufTy).Contents (Elt Ideal)) (x5 x6 : (⟨S10240, .i32⟩ : BufTy).Contents (Elt Ideal)) (x7 : (⟨S128x256, .f32⟩ : BufTy).Contents (Elt Ideal)) (x8 : (⟨S256, .f32⟩ : BufTy).Contents (Elt Ideal)) (x9 : (⟨S128x256, .f32⟩ : BufTy).Contents (Elt Ideal)) (x10 : (⟨S256x256, .f32⟩ : BufTy).Contents (Elt Ideal)) (x11 : (⟨S256, .f32⟩ : BufTy).Contents (Elt Ideal)) (x12 : (⟨S256x256, .f32⟩ : BufTy).Contents (Elt Ideal))
    (h0 : ∀ i, IsReal (x0 i)) (h7 : ∀ i, IsReal (x7 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v64 (F := Ideal) x0 x1 x2 x3 x4 x5 x6 x7 x8 x9 x10 x11 x12 i) := by
  unfold val_main_v64
  exact real_scatterAdd _ _ _ _ real_main_v62 (real_main_v61 x0 x1 x2 x3 x4 x5 x7 x8 x9 x10 x11 x12 h0 h7 h8 h9 h10 h11 h12)

/-- An array of ones. -/
theorem one_main_v65 :
    ∀ i, IsOne (val_main_v65 (F := Ideal) i) := by
  unfold val_main_v65 val_main_cst_13
  exact all_broadcastInDim IsOne _ _ _ (const_one _)

/-- An array of zeros. -/
theorem real_main_v66 :
    ∀ i, IsReal (val_main_v66 (F := Ideal) i) := by
  unfold val_main_v66 val_main_cst_14
  exact all_broadcastInDim IsReal _ _ _ (real_const_zero _)

/-- Layer 2: the number of edges into each destination. -/
theorem real_main_v68 (x6 : (⟨S10240, .i32⟩ : BufTy).Contents (Elt Ideal)) :
    ∀ i, IsReal (val_main_v68 (F := Ideal) x6 i) := by
  unfold val_main_v68
  exact real_scatterAdd _ _ _ _ real_main_v66 (real_of_one one_main_v65)

/-- An array of ones. -/
theorem one_main_v69 :
    ∀ i, IsOne (val_main_v69 (F := Ideal) i) := by
  unfold val_main_v69 val_main_cst_15
  exact all_broadcastInDim IsOne _ _ _ (const_one _)

/-- Layer 2: the count, at least one. -/
theorem geOne_main_v70 (x6 : (⟨S10240, .i32⟩ : BufTy).Contents (Elt Ideal)) :
    ∀ i, GeOne (val_main_v70 (F := Ideal) x6 i) := by
  unfold val_main_v70
  exact geOne_maximumf_one _ _ (real_main_v68 x6) one_main_v69

/-- Layer 2: the clamped count as a column. -/
theorem geOne_main_v71 (x6 : (⟨S10240, .i32⟩ : BufTy).Contents (Elt Ideal)) :
    ∀ i, GeOne (val_main_v71 (F := Ideal) x6 i) := by
  unfold val_main_v71
  exact all_broadcastInDim GeOne _ _ _ (geOne_main_v70 x6)

/-- Layer 2: the clamped count along every row. -/
theorem geOne_main_v72 (x6 : (⟨S10240, .i32⟩ : BufTy).Contents (Elt Ideal)) :
    ∀ i, GeOne (val_main_v72 (F := Ideal) x6 i) := by
  unfold val_main_v72
  exact all_broadcastInDim GeOne _ _ _ (geOne_main_v71 x6)

/-- Layer 2: the mean over the incoming edges. -/
theorem real_main_v73 (x0 : (⟨S1024000x128, .f32⟩ : BufTy).Contents (Elt Ideal)) (x1 x2 : (⟨S1024000, .i32⟩ : BufTy).Contents (Elt Ideal)) (x3 x4 : (⟨S102400, .i32⟩ : BufTy).Contents (Elt Ideal)) (x5 x6 : (⟨S10240, .i32⟩ : BufTy).Contents (Elt Ideal)) (x7 : (⟨S128x256, .f32⟩ : BufTy).Contents (Elt Ideal)) (x8 : (⟨S256, .f32⟩ : BufTy).Contents (Elt Ideal)) (x9 : (⟨S128x256, .f32⟩ : BufTy).Contents (Elt Ideal)) (x10 : (⟨S256x256, .f32⟩ : BufTy).Contents (Elt Ideal)) (x11 : (⟨S256, .f32⟩ : BufTy).Contents (Elt Ideal)) (x12 : (⟨S256x256, .f32⟩ : BufTy).Contents (Elt Ideal))
    (h0 : ∀ i, IsReal (x0 i)) (h7 : ∀ i, IsReal (x7 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v73 (F := Ideal) x0 x1 x2 x3 x4 x5 x6 x7 x8 x9 x10 x11 x12 i) := by
  unfold val_main_v73
  exact real_divf _ _ (real_main_v64 x0 x1 x2 x3 x4 x5 x6 x7 x8 x9 x10 x11 x12 h0 h7 h8 h9 h10 h11 h12) (geOne_main_v72 x6)

/-- Layer 2: the mean times the left weight. -/
theorem real_main_v74 (x0 : (⟨S1024000x128, .f32⟩ : BufTy).Contents (Elt Ideal)) (x1 x2 : (⟨S1024000, .i32⟩ : BufTy).Contents (Elt Ideal)) (x3 x4 : (⟨S102400, .i32⟩ : BufTy).Contents (Elt Ideal)) (x5 x6 : (⟨S10240, .i32⟩ : BufTy).Contents (Elt Ideal)) (x7 : (⟨S128x256, .f32⟩ : BufTy).Contents (Elt Ideal)) (x8 : (⟨S256, .f32⟩ : BufTy).Contents (Elt Ideal)) (x9 : (⟨S128x256, .f32⟩ : BufTy).Contents (Elt Ideal)) (x10 : (⟨S256x256, .f32⟩ : BufTy).Contents (Elt Ideal)) (x11 : (⟨S256, .f32⟩ : BufTy).Contents (Elt Ideal)) (x12 : (⟨S256x256, .f32⟩ : BufTy).Contents (Elt Ideal)) (x13 : (⟨S256x47, .f32⟩ : BufTy).Contents (Elt Ideal))
    (h0 : ∀ i, IsReal (x0 i)) (h7 : ∀ i, IsReal (x7 i)) (h8 : ∀ i, IsReal (x8 i)) (h9 : ∀ i, IsReal (x9 i)) (h10 : ∀ i, IsReal (x10 i)) (h11 : ∀ i, IsReal (x11 i)) (h12 : ∀ i, IsReal (x12 i)) (h13 : ∀ i, IsReal (x13 i)) :
    ∀ i, IsReal (val_main_v74 (F := Ideal) x0 x1 x2 x3 x4 x5 x6 x7 x8 x9 x10 x11 x12 x13 i) := by
  unfold val_main_v74
  exact real_dot _ _ _ _ (real_main_v73 x0 x1 x2 x3 x4 x5 x6 x7 x8 x9 x10 x11 x12 h0 h7 h8 h9 h10 h11 h12) h13

/-- Layer 2: the bias as a row. -/
theorem real_main_v75 (x14 : (⟨S47, .f32⟩ : BufTy).Contents (Elt Ideal))
    (h14 : ∀ i, IsReal (x14 i)) :
    ∀ i, IsReal (val_main_v75 (F := Ideal) x14 i) := by
  unfold val_main_v75
  exact all_broadcastInDim IsReal _ _ _ h14

/-- Layer 2: the bias along every row. -/
theorem real_main_v76 (x14 : (⟨S47, .f32⟩ : BufTy).Contents (Elt Ideal))
    (h14 : ∀ i, IsReal (x14 i)) :
    ∀ i, IsReal (val_main_v76 (F := Ideal) x14 i) := by
  unfold val_main_v76
  exact all_broadcastInDim IsReal _ _ _ (real_main_v75 x14 h14)

/-- Layer 2: product plus bias. -/
theorem real_main_v77 (x0 : (⟨S1024000x128, .f32⟩ : BufTy).Contents (Elt Ideal)) (x1 x2 : (⟨S1024000, .i32⟩ : BufTy).Contents (Elt Ideal)) (x3 x4 : (⟨S102400, .i32⟩ : BufTy).Contents (Elt Ideal)) (x5 x6 : (⟨S10240, .i32⟩ : BufTy).Contents (Elt Ideal)) (x7 : (⟨S128x256, .f32⟩ : BufTy).Contents (Elt Ideal)) (x8 : (⟨S256, .f32⟩ : BufTy).Contents (Elt Ideal)) (x9 : (⟨S128x256, .f32⟩ : BufTy).Contents (Elt Ideal)) (x10 : (⟨S256x256, .f32⟩ : BufTy).Contents (Elt Ideal)) (x11 : (⟨S256, .f32⟩ : BufTy).Contents (Elt Ideal)) (x12 : (⟨S256x256, .f32⟩ : BufTy).Contents (Elt Ideal)) (x13 : (⟨S256x47, .f32⟩ : BufTy).Contents (Elt Ideal)) (x14 : (⟨S47, .f32⟩ : BufTy).Contents (Elt Ideal))
    (h0 : ∀ i, IsReal (x0 i)) (h7 : ∀ i, IsReal (x7 i)) (h8 : ∀ i, IsReal (x8 i)) (h9 : ∀ i, IsReal (x9 i)) (h10 : ∀ i, IsReal (x10 i)) (h11 : ∀ i, IsReal (x11 i)) (h12 : ∀ i, IsReal (x12 i)) (h13 : ∀ i, IsReal (x13 i)) (h14 : ∀ i, IsReal (x14 i)) :
    ∀ i, IsReal (val_main_v77 (F := Ideal) x0 x1 x2 x3 x4 x5 x6 x7 x8 x9 x10 x11 x12 x13 x14 i) := by
  unfold val_main_v77
  exact real_addf _ _ (real_main_v74 x0 x1 x2 x3 x4 x5 x6 x7 x8 x9 x10 x11 x12 x13 h0 h7 h8 h9 h10 h11 h12 h13) (real_main_v76 x14 h14)

/-- Layer 2: the destination rows times the right weight. -/
theorem real_main_v78 (x0 : (⟨S1024000x128, .f32⟩ : BufTy).Contents (Elt Ideal)) (x1 x2 : (⟨S1024000, .i32⟩ : BufTy).Contents (Elt Ideal)) (x3 x4 : (⟨S102400, .i32⟩ : BufTy).Contents (Elt Ideal)) (x7 : (⟨S128x256, .f32⟩ : BufTy).Contents (Elt Ideal)) (x8 : (⟨S256, .f32⟩ : BufTy).Contents (Elt Ideal)) (x9 : (⟨S128x256, .f32⟩ : BufTy).Contents (Elt Ideal)) (x10 : (⟨S256x256, .f32⟩ : BufTy).Contents (Elt Ideal)) (x11 : (⟨S256, .f32⟩ : BufTy).Contents (Elt Ideal)) (x12 : (⟨S256x256, .f32⟩ : BufTy).Contents (Elt Ideal)) (x15 : (⟨S256x47, .f32⟩ : BufTy).Contents (Elt Ideal))
    (h0 : ∀ i, IsReal (x0 i)) (h7 : ∀ i, IsReal (x7 i)) (h8 : ∀ i, IsReal (x8 i)) (h9 : ∀ i, IsReal (x9 i)) (h10 : ∀ i, IsReal (x10 i)) (h11 : ∀ i, IsReal (x11 i)) (h12 : ∀ i, IsReal (x12 i)) (h15 : ∀ i, IsReal (x15 i)) :
    ∀ i, IsReal (val_main_v78 (F := Ideal) x0 x1 x2 x3 x4 x7 x8 x9 x10 x11 x12 x15 i) := by
  unfold val_main_v78
  exact real_dot _ _ _ _ (real_main_v54 x0 x1 x2 x3 x4 x7 x8 x9 x10 x11 x12 h0 h7 h8 h9 h10 h11 h12) h15

/-- Layer 2: the layer's pre-activation output. -/
theorem real_main_v79 (x0 : (⟨S1024000x128, .f32⟩ : BufTy).Contents (Elt Ideal)) (x1 x2 : (⟨S1024000, .i32⟩ : BufTy).Contents (Elt Ideal)) (x3 x4 : (⟨S102400, .i32⟩ : BufTy).Contents (Elt Ideal)) (x5 x6 : (⟨S10240, .i32⟩ : BufTy).Contents (Elt Ideal)) (x7 : (⟨S128x256, .f32⟩ : BufTy).Contents (Elt Ideal)) (x8 : (⟨S256, .f32⟩ : BufTy).Contents (Elt Ideal)) (x9 : (⟨S128x256, .f32⟩ : BufTy).Contents (Elt Ideal)) (x10 : (⟨S256x256, .f32⟩ : BufTy).Contents (Elt Ideal)) (x11 : (⟨S256, .f32⟩ : BufTy).Contents (Elt Ideal)) (x12 : (⟨S256x256, .f32⟩ : BufTy).Contents (Elt Ideal)) (x13 : (⟨S256x47, .f32⟩ : BufTy).Contents (Elt Ideal)) (x14 : (⟨S47, .f32⟩ : BufTy).Contents (Elt Ideal)) (x15 : (⟨S256x47, .f32⟩ : BufTy).Contents (Elt Ideal))
    (h0 : ∀ i, IsReal (x0 i)) (h7 : ∀ i, IsReal (x7 i)) (h8 : ∀ i, IsReal (x8 i)) (h9 : ∀ i, IsReal (x9 i)) (h10 : ∀ i, IsReal (x10 i)) (h11 : ∀ i, IsReal (x11 i)) (h12 : ∀ i, IsReal (x12 i)) (h13 : ∀ i, IsReal (x13 i)) (h14 : ∀ i, IsReal (x14 i)) (h15 : ∀ i, IsReal (x15 i)) :
    ∀ i, IsReal (val_main_v79 (F := Ideal) x0 x1 x2 x3 x4 x5 x6 x7 x8 x9 x10 x11 x12 x13 x14 x15 i) := by
  unfold val_main_v79
  exact real_addf _ _ (real_main_v77 x0 x1 x2 x3 x4 x5 x6 x7 x8 x9 x10 x11 x12 x13 x14 h0 h7 h8 h9 h10 h11 h12 h13 h14) (real_main_v78 x0 x1 x2 x3 x4 x7 x8 x9 x10 x11 x12 x15 h0 h7 h8 h9 h10 h11 h12 h15)

/-- Every entry of the final pre-softmax array of the reference is a real number when the float inputs are. -/
theorem ref_logits_real
    (x0 : (⟨S1024000x128, .f32⟩ : BufTy).Contents (Elt Ideal)) (x1 x2 : (⟨S1024000, .i32⟩ : BufTy).Contents (Elt Ideal))
    (x3 x4 : (⟨S102400, .i32⟩ : BufTy).Contents (Elt Ideal)) (x5 x6 : (⟨S10240, .i32⟩ : BufTy).Contents (Elt Ideal))
    (x7 : (⟨S128x256, .f32⟩ : BufTy).Contents (Elt Ideal)) (x8 : (⟨S256, .f32⟩ : BufTy).Contents (Elt Ideal)) (x9 : (⟨S128x256, .f32⟩ : BufTy).Contents (Elt Ideal))
    (x10 : (⟨S256x256, .f32⟩ : BufTy).Contents (Elt Ideal)) (x11 : (⟨S256, .f32⟩ : BufTy).Contents (Elt Ideal)) (x12 : (⟨S256x256, .f32⟩ : BufTy).Contents (Elt Ideal))
    (x13 : (⟨S256x47, .f32⟩ : BufTy).Contents (Elt Ideal)) (x14 : (⟨S47, .f32⟩ : BufTy).Contents (Elt Ideal)) (x15 : (⟨S256x47, .f32⟩ : BufTy).Contents (Elt Ideal))
    (h0 : ∀ i, IsReal (x0 i)) (h7 : ∀ i, IsReal (x7 i)) (h8 : ∀ i, IsReal (x8 i)) (h9 : ∀ i, IsReal (x9 i)) (h10 : ∀ i, IsReal (x10 i))
    (h11 : ∀ i, IsReal (x11 i)) (h12 : ∀ i, IsReal (x12 i)) (h13 : ∀ i, IsReal (x13 i)) (h14 : ∀ i, IsReal (x14 i)) (h15 : ∀ i, IsReal (x15 i)) :
    ∀ i, IsReal (val_main_v79 (F := Ideal) x0 x1 x2 x3 x4 x5 x6 x7 x8 x9 x10 x11 x12 x13 x14 x15 i) :=
  real_main_v79 x0 x1 x2 x3 x4 x5 x6 x7 x8 x9 x10 x11 x12 x13 x14 x15 h0 h7 h8 h9 h10 h11 h12 h13 h14 h15

end Cert.Sage

end
-- ==== Proof.FiniteInputs.lean ====
import proofs.«121724_j32804960207226_2_alg».proof.Pre_finite_inputs
import proofs.«121724_j32804960207226_2_alg».proof.Proof.Reals
import Idealize.ShloMosaic.Lib.ReduceAll
import Idealize.ShloMosaic.Lib.ValueIdx

/-!
The precondition `finite_inputs` decoded: every float argument is an array of real numbers.

The precondition is the conjunction, over the ten float arguments `x`, of `jnp.all(|x| < +∞)`.
Over the extended reals `|x| = max x (-x)`, and `max x (-x) < ⊤` excludes both `x = ⊤` and
`x = ⊥` (whose negation is `⊤`), so each entry is the image of a real number.
-/

noncomputable section

namespace Cert.Sage

open Idealize.ShloMosaic

/-- The f32 pattern `0x7F800000` denotes `+∞`. -/
private theorem ofBits_inf_f32 : Ideal.ofBits .f32 0x7F800000#32 = ⊤ := by
  simp [Ideal.ofBits, Ideal.ieee]

/-- An extended real with `|x| < +∞` is a real number: at `⊤` the maximum is `⊤`, at `⊥` the negation is `⊤`. -/
private theorem isReal_of_abs_lt_top (x : EReal) (h : max x (-x) < ⊤) : IsReal x := by
  induction x using EReal.rec with
  | bot => simp at h
  | coe r => exact ⟨r, rfl⟩
  | top => simp at h

/-- The printed comparison `|x| < +∞` on one value, when it answers 1, says the value is real. -/
private theorem isReal_of_cmp (x : Ideal .f32)
    (h : FloatOps.cmpf .olt (FloatOps.hostAbsf x) (FloatOps.ofBits (F := Ideal) .f32 0x7F800000#32) = 1#1) :
    IsReal x := by
  have h' : Ideal.cmp .olt (max (x : EReal) (-(x : EReal))) (Ideal.ofBits .f32 0x7F800000#32) = 1#1 := h
  rw [ofBits_inf_f32] at h'
  unfold Ideal.cmp at h'
  by_cases hlt : max (x : EReal) (-(x : EReal)) < ⊤
  · exact isReal_of_abs_lt_top x hlt
  · simp [hlt] at h'

/-- The scalar shape has one index. -/
private instance subsingleton_scalar_idx : Subsingleton (⟨0, ![]⟩ : Shape).Idx :=
  ⟨fun a b => funext fun d => d.elim0⟩

/-- One `jnp.all(|x| < +∞)` of the precondition, for an array of any shape: if the reduction by `and`
    over all axes answers 1, every entry of `x` is real. -/
private theorem real_of_all {s u : Shape} {axes : List (Fin s.rank)} (x : FVec Ideal s .f32)
    (hb : (⟨0, ![]⟩ : Shape).BroadcastsInDim s ![]) (init : IVec u 1)
    (hr : s.ReducesTo axes ⟨0, ![]⟩) (hu : 0 < u.numel) (j : (⟨0, ![]⟩ : Shape).Idx)
    (e : Host.reduce IntOp.andi
          (cmpf .olt (Host.absf x) (broadcastInDim s ![] hb (constant (F := Ideal) ⟨0, ![]⟩ .f32 0x7F800000#32)))
          init hr hu j = 1#1) (i : s.Idx) : IsReal (x i) :=
  isReal_of_cmp (x i) (Host.reduce_andi_all _ init hr hu j e i)

open Cert.Pre_finite_inputs in
theorem real_of_finite_inputs [Cert.Pre_finite_inputs.Facts]
    (a0 : FVec Ideal S1024000x128 .f32) (a1 a2 : IVec S1024000 32) (a3 a4 : IVec S102400 32) (a5 a6 : IVec S10240 32)
    (a7 : FVec Ideal S128x256 .f32) (a8 : FVec Ideal S256 .f32) (a9 : FVec Ideal S128x256 .f32)
    (a10 : FVec Ideal S256x256 .f32) (a11 : FVec Ideal S256 .f32) (a12 : FVec Ideal S256x256 .f32)
    (a13 : FVec Ideal S256x47 .f32) (a14 : FVec Ideal S47 .f32) (a15 : FVec Ideal S256x47 .f32)
    (h : Cert.Pre_finite_inputs.fn (F := Ideal) a0 a1 a2 a3 a4 a5 a6 a7 a8 a9 a10 a11 a12 a13 a14 a15 = fun _ => 1#1) :
    (∀ i, IsReal (a0 i)) ∧ (∀ i, IsReal (a7 i)) ∧ (∀ i, IsReal (a8 i)) ∧ (∀ i, IsReal (a9 i)) ∧ (∀ i, IsReal (a10 i))
      ∧ (∀ i, IsReal (a11 i)) ∧ (∀ i, IsReal (a12 i)) ∧ (∀ i, IsReal (a13 i)) ∧ (∀ i, IsReal (a14 i)) ∧ (∀ i, IsReal (a15 i)) := by
  have e := congrFun h ValueIdx.ix0
  dsimp only [fn, fn_part1, fn_part2] at e
  -- the nine conjunctions, from the outermost: the last bit is the last argument's
  obtain ⟨e, h15⟩ := IntOp.andi_eq_one.1 e
  obtain ⟨e, h14⟩ := IntOp.andi_eq_one.1 e
  obtain ⟨e, h13⟩ := IntOp.andi_eq_one.1 e
  obtain ⟨e, h12⟩ := IntOp.andi_eq_one.1 e
  obtain ⟨e, h11⟩ := IntOp.andi_eq_one.1 e
  obtain ⟨e, h10⟩ := IntOp.andi_eq_one.1 e
  obtain ⟨e, h9⟩ := IntOp.andi_eq_one.1 e
  obtain ⟨e, h8⟩ := IntOp.andi_eq_one.1 e
  obtain ⟨h0, h7⟩ := IntOp.andi_eq_one.1 e
  exact ⟨real_of_all a0 _ _ _ _ _ h0, real_of_all a7 _ _ _ _ _ h7, real_of_all a8 _ _ _ _ _ h8,
    real_of_all a9 _ _ _ _ _ h9, real_of_all a10 _ _ _ _ _ h10, real_of_all a11 _ _ _ _ _ h11,
    real_of_all a12 _ _ _ _ _ h12, real_of_all a13 _ _ _ _ _ h13, real_of_all a14 _ _ _ _ _ h14,
    real_of_all a15 _ _ _ _ _ h15⟩

end Cert.Sage

end
-- ==== Proof.KernelRun.lean ====
/- The kernel program's run, read with its results named. -/
import proofs.«121724_j32804960207226_2_alg».proof.Proof.Gen.KernelIdeal.Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.RunNamed

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The kernel program's run with its two results named: every weakly fair execution terminates, nothing faulting,
    each result buffer ends at what the last boundary of the fold through @main holds there, and the argument arrays end
    as launched. -/
theorem run_named : θ_run defs (onTc (τ := τ) (main (F := F))) ⟨m, fun _ => 0, ρ⟩ (fun r => ∀ c : Dev nD,
      r.2.mem ((c.tc : Thread nD τ).loc main_v71_0) = W6 m ρ c (Proc.devRef .tc main_v71_0)
      ∧ r.2.mem ((c.tc : Thread nD τ).loc main_v71_1) = W6 m ρ c (Proc.devRef .tc main_v71_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v71_0 (by decide)),
       h c _ (mem_uc main_v71_1 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c)⟩)

end Cert.KernelIdeal.RunNamed

end
-- ==== Proof.Boundaries.lean ====
/- The argument arrays read at the boundaries between the kernels: each is still what the program was launched with. -/
import proofs.«121724_j32804960207226_2_alg».proof.Proof.Gen.KernelIdeal.Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Boundaries

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Argument 3 is untouched up to the second kernel's host stretch: neither the first stretch nor the first kernel writes it. -/
theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- Argument 4 is untouched up to the second kernel's host stretch: neither the first stretch nor the first kernel writes it. -/
theorem W2_main_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- Argument 10 is untouched up to the second kernel's host stretch: neither the first stretch nor the first kernel writes it. -/
theorem W2_main_arg10 (c : Dev nD) : W2 m ρ c (Proc.devRef .tc main_arg10) = m ((c : Thread nD τ).loc main_arg10) :=
  calc W2 m ρ c (Proc.devRef .tc main_arg10)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

/-- Argument 11 is untouched up to the second kernel's host stretch: neither the first stretch nor the first kernel writes it. -/
theorem W2_main_arg11 (c : Dev nD) : W2 m ρ c (Proc.devRef .tc main_arg11) = m ((c : Thread nD τ).loc main_arg11) :=
  calc W2 m ρ c (Proc.devRef .tc main_arg11)
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

/-- Argument 12 is untouched up to the second kernel's host stretch: neither the first stretch nor the first kernel writes it. -/
theorem W2_main_arg12 (c : Dev nD) : W2 m ρ c (Proc.devRef .tc main_arg12) = m ((c : Thread nD τ).loc main_arg12) :=
  calc W2 m ρ c (Proc.devRef .tc main_arg12)
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl

/-- Argument 5 is untouched up to the last kernel's host stretch. -/
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-- Argument 6 is untouched up to the last kernel's host stretch. -/
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-- Argument 13 is untouched up to the last kernel's host stretch. -/
theorem W4_main_arg13 (c : Dev nD) : W4 m ρ c (Proc.devRef .tc main_arg13) = m ((c : Thread nD τ).loc main_arg13) :=
  calc W4 m ρ c (Proc.devRef .tc main_arg13)
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := rfl

/-- Argument 14 is untouched up to the last kernel's host stretch. -/
theorem W4_main_arg14 (c : Dev nD) : W4 m ρ c (Proc.devRef .tc main_arg14) = m ((c : Thread nD τ).loc main_arg14) :=
  calc W4 m ρ c (Proc.devRef .tc main_arg14)
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := rfl

/-- Argument 15 is untouched up to the last kernel's host stretch. -/
theorem W4_main_arg15 (c : Dev nD) : W4 m ρ c (Proc.devRef .tc main_arg15) = m ((c : Thread nD τ).loc main_arg15) :=
  calc W4 m ρ c (Proc.devRef .tc main_arg15)
    _ = W3 m ρ c (Proc.devRef .tc main_arg15) := W4_of_ne m ρ c main_arg15 (by decide)
    _ = W2 m ρ c (Proc.devRef .tc main_arg15) := StableHlo.after_of_forall_not_mem (b := Proc.devRef .tc main_arg15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg15) := W2_of_ne m ρ c main_arg15 (by decide)
    _ = W0 m ρ c (Proc.devRef .tc main_arg15) := StableHlo.after_of_forall_not_mem (b := Proc.devRef .tc main_arg15) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg15) := rfl

end Cert.KernelIdeal.Boundaries

end
-- ==== Proof.Bodies.lean ====
/- The three kernel bodies read at an index, at the ideal values: each entry of what a body stores, as sums over the
   contracted axis of products of the entries it loaded. -/
import proofs.«121724_j32804960207226_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Bodies

open Idealize.ShloMosaic Idealize.ShloMosaic.ValueIdx Cert.KernelIdeal Cert.KernelIdeal.Gen

/-- A plain matrix product [M,K] × [K,N] read at (p, q): the sum over the contracted axis, re-indexed from the
    contraction shape's index type to `Fin K`, the two operands read at (p, k) and (k, q). -/
theorem plain_dot_sum {M K N : ℕ} (d : DotDims ⟨2, ![M, K]⟩ ⟨2, ![K, N]⟩ ⟨2, ![M, N]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (lhs : (⟨2, ![M, K]⟩ : Shape).Idx → EReal) (rhs : (⟨2, ![K, N]⟩ : Shape).Idx → EReal) (p : Fin M) (q : Fin N) :
    ∑ k : d.contr.Idx, lhs (d.lhsIdx (ix2 p q) k) * rhs (d.rhsIdx (ix2 p q) k) = ∑ k : Fin K, lhs (ix2 p k) * rhs (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

/-! ## Layer 1: two products into zero accumulators -/

/-- Layer 1's contraction: [2048,256] × [256,256]. -/
abbrev d1 : DotDims S2048x256 S256x256 S2048x256 := dot_S2048x256_S256x256_S2048x256_1_0_0_1_n_n

theorem d1_l0 (i : S2048x256.Idx) (q : d1.contr.Idx) : (d1.lhsIdx i q 0).val = (i 0).val := by
  unfold DotDims.lhsIdx
  rw [dif_neg (show ¬(0 : Fin S2048x256.rank) ∈ d1.lhsBatch by decide), dif_pos (show (0 : Fin S2048x256.rank) ∈ d1.lhsNonContracting by decide)]
  rfl
theorem d1_l1 (i : S2048x256.Idx) (q : d1.contr.Idx) : (d1.lhsIdx i q 1).val = (q ⟨0, by decide⟩).val :=
  DotDims.lhsIdx_val_of_single d1 rfl i q
theorem d1_r0 (i : S2048x256.Idx) (q : d1.contr.Idx) : (d1.rhsIdx i q 0).val = (q ⟨0, by decide⟩).val :=
  DotDims.rhsIdx_val_of_single d1 rfl i q
theorem d1_r1 (i : S2048x256.Idx) (q : d1.contr.Idx) : (d1.rhsIdx i q 1).val = (i 1).val := by
  unfold DotDims.rhsIdx
  rw [dif_neg (show ¬(1 : Fin S256x256.rank) ∈ d1.rhsBatch by decide), dif_pos (show (1 : Fin S256x256.rank) ∈ d1.rhsNonContracting by decide)]
  rfl

/-- One entry of what layer 1's body stores. -/
theorem pay1_apply (a : Vec Ideal S2048x256 .f32) (iv : Vec Ideal S2048x1 .f32) (x : Vec Ideal S2048x256 .f32)
    (wl wr : Vec Ideal S256x256 .bf16) (b : Vec Ideal S1x256 .f32) (p : Fin 2048) (q : Fin 256) :
    k1_pay1 (F := Ideal) a iv x wl wr b (ix2 p q)
      = max (((∑ k : Fin 256, (a (ix2 p k) * iv (ix2 p 0)) * wl (ix2 k q)) + ∑ k : Fin 256, x (ix2 p k) * wr (ix2 k q))
          + b (ix2 0 q)) (Ideal.ofBits .f32 0x00000000#32) := by
  unfold k1_pay1
  simp only [shapeCast_self]
  rw [maximumf_apply, addf_apply, addf_apply]
  simp only [matmul]
  rw [Ideal.matmul_constant_zero_apply, Ideal.matmul_constant_zero_apply,
    plain_dot_sum d1 rfl rfl d1_l0 d1_l1 d1_r0 d1_r1, plain_dot_sum d1 rfl rfl d1_l0 d1_l1 d1_r0 d1_r1]
  have hb : broadcastTo S2048x256 b broadcasts_S1x256_S2048x256 (ix2 p q) = b (ix2 0 q) :=
    broadcastTo_apply b _ (ix2 p q) (ix2 0 q) (fun a => by match a with | ⟨0, _⟩ => rfl | ⟨1, _⟩ => rfl)
  have hiv : ∀ k : Fin 256, broadcastTo S2048x256 iv broadcasts_S2048x1_S2048x256 (ix2 p k) = iv (ix2 p 0) := fun k =>
    broadcastTo_apply iv _ (ix2 p k) (ix2 p 0) (fun a => by match a with | ⟨0, _⟩ => rfl | ⟨1, _⟩ => rfl)
  simp only [truncf_apply, mulf_apply, hb, hiv, broadcast_apply, Ideal.ofBits_def]

end Cert.KernelIdeal.Bodies

end
-- ==== Proof.Body0.lean ====
/- Layer 0's kernel body read at an index, at the ideal values: the product of the concatenation [agg · inv | x] with the
   stacked weight splits into the sum over the first 128 contracted indices (the scaled neighbour sum against the upper half of
   the weight) and the sum over the last 128 (the root rows against the lower half). -/
import proofs.«121724_j32804960207226_2_alg».proof.Proof.Bodies

noncomputable section

namespace Cert.KernelIdeal.Bodies

open Idealize.ShloMosaic Idealize.ShloMosaic.ValueIdx Cert.KernelIdeal Cert.KernelIdeal.Gen

/-! ## Layer 0: one product of the concatenation [agg · inv | x] with the stacked weight -/

/-- Layer 0's contraction: [4096,256] × [256,256]. -/
abbrev d0 : DotDims S4096x256 S256x256 S4096x256 := dot_S4096x256_S256x256_S4096x256_1_0_0_1_n_n

theorem d0_l0 (i : S4096x256.Idx) (q : d0.contr.Idx) : (d0.lhsIdx i q 0).val = (i 0).val := by
  unfold DotDims.lhsIdx
  rw [dif_neg (show ¬(0 : Fin S4096x256.rank) ∈ d0.lhsBatch by decide), dif_pos (show (0 : Fin S4096x256.rank) ∈ d0.lhsNonContracting by decide)]
  rfl
theorem d0_l1 (i : S4096x256.Idx) (q : d0.contr.Idx) : (d0.lhsIdx i q 1).val = (q ⟨0, by decide⟩).val :=
  DotDims.lhsIdx_val_of_single d0 rfl i q
theorem d0_r0 (i : S4096x256.Idx) (q : d0.contr.Idx) : (d0.rhsIdx i q 0).val = (q ⟨0, by decide⟩).val :=
  DotDims.rhsIdx_val_of_single d0 rfl i q
theorem d0_r1 (i : S4096x256.Idx) (q : d0.contr.Idx) : (d0.rhsIdx i q 1).val = (i 1).val := by
  unfold DotDims.rhsIdx
  rw [dif_neg (show ¬(1 : Fin S256x256.rank) ∈ d0.rhsBatch by decide), dif_pos (show (1 : Fin S256x256.rank) ∈ d0.rhsNonContracting by decide)]
  rfl

/-- A sum over 256 indices is the sum over the first 128 plus the sum over the last 128. -/
theorem sum_256_split (f : Fin 256 → EReal) :
    ∑ k, f k = (∑ k : Fin 128, f (Fin.castAdd 128 k)) + ∑ k : Fin 128, f (Fin.natAdd 128 k) :=
  Fin.sum_univ_add (a := 128) (b := 128) f

/-- The concatenation of two [4096,128] blocks along the columns, read in its first 128 columns: the first block. -/
theorem concat_left {α : Type} (x₁ x₂ : S4096x128.Idx → α) (p : Fin 4096) (k : Fin 128) :
    concatenate S4096x256 1 [⟨S4096x128, x₁⟩, ⟨S4096x128, x₂⟩] concatenates_S4096x128_S4096x128_S4096x256_d1 (ix2 p (Fin.castAdd 128 k))
      = x₁ (ix2 p k) :=
  concatenate_pair_apply_left (t := S4096x256) 1 x₁ x₂ _ _ rfl (ix2 p k) (fun b => by match b with | ⟨0, _⟩ => rfl | ⟨1, _⟩ => rfl)

/-- … and in its last 128 columns: the second block, the column 128 less. -/
theorem concat_right {α : Type} (x₁ x₂ : S4096x128.Idx → α) (p : Fin 4096) (k : Fin 128) :
    concatenate S4096x256 1 [⟨S4096x128, x₁⟩, ⟨S4096x128, x₂⟩] concatenates_S4096x128_S4096x128_S4096x256_d1 (ix2 p (Fin.natAdd 128 k))
      = x₂ (ix2 p k) :=
  concatenate_pair_apply_right (t := S4096x256) 1 x₁ x₂ _ _ rfl rfl (ix2 p k)
    (fun b hb => by match b with | ⟨0, _⟩ => rfl | ⟨1, _⟩ => exact absurd rfl hb)
    (by show k.val + 128 = 128 + k.val; omega)

/-- One entry of what layer 0's body stores. -/
theorem pay0_apply (a : Vec Ideal S4096x128 .f32) (iv : Vec Ideal S4096x1 .f32) (x : Vec Ideal S4096x128 .f32)
    (w : Vec Ideal S256x256 .bf16) (b : Vec Ideal S1x256 .f32) (p : Fin 4096) (q : Fin 256) :
    k0_pay1 (F := Ideal) a iv x w b (ix2 p q)
      = max (((∑ k : Fin 128, (a (ix2 p k) * iv (ix2 p 0)) * w (ix2 (Fin.castAdd 128 k) q)) + ∑ k : Fin 128, x (ix2 p k) * w (ix2 (Fin.natAdd 128 k) q))
          + b (ix2 0 q)) (Ideal.ofBits .f32 0x00000000#32) := by
  unfold k0_pay1
  simp only [shapeCast_self]
  rw [maximumf_apply, addf_apply]
  simp only [matmul]
  rw [Ideal.matmul_constant_zero_apply, plain_dot_sum d0 rfl rfl d0_l0 d0_l1 d0_r0 d0_r1, sum_256_split]
  have hb : broadcastTo S4096x256 b broadcasts_S1x256_S4096x256 (ix2 p q) = b (ix2 0 q) :=
    broadcastTo_apply b _ (ix2 p q) (ix2 0 q) (fun a => by match a with | ⟨0, _⟩ => rfl | ⟨1, _⟩ => rfl)
  have hiv : ∀ k : Fin 128, broadcastTo S4096x128 iv broadcasts_S4096x1_S4096x128 (ix2 p k) = iv (ix2 p 0) := fun k =>
    broadcastTo_apply iv _ (ix2 p k) (ix2 p 0) (fun a => by match a with | ⟨0, _⟩ => rfl | ⟨1, _⟩ => rfl)
  simp only [concat_left, concat_right, shapeCast_self, truncf_apply, mulf_apply, hb, hiv, broadcast_apply, Ideal.ofBits_def]

end Cert.KernelIdeal.Bodies

end
-- ==== Proof.Region0.lean ====
/- Region 0 (the first layer's kernel): the array its pipeline leaves, as one function of the arrays it is entered with. -/
import proofs.«121724_j32804960207226_2_alg».proof.Proof.Gen.KernelIdeal.Frame
import proofs.«121724_j32804960207226_2_alg».proof.Proof.Body0

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Bodies

/-- One entry of the first layer: row `r` of the summed neighbours scaled by the row's reciprocal count through the upper half
    of the stacked weights, plus row `r` of the root features through the lower half, plus the bias, clamped below at zero. -/
def layerEntry (A X : S102400x128.Idx → EReal) (I : S102400x1.Idx → EReal) (W : S256x256.Idx → EReal) (B : S1x256.Idx → EReal)
    (r : Fin 102400) (q : Fin 256) : EReal :=
  max (((∑ k : Fin 128, (A (ix2 r k) * I (ix2 r 0)) * W (ix2 (Fin.castAdd 128 k) q)) + ∑ k : Fin 128, X (ix2 r k) * W (ix2 (Fin.natAdd 128 k) q))
      + B (ix2 0 q)) (Ideal.ofBits .f32 0x00000000#32)

/-- The first layer on whole arrays. -/
def layer (A X : S102400x128.Idx → EReal) (I : S102400x1.Idx → EReal) (W : S256x256.Idx → EReal) (B : S1x256.Idx → EReal) :
    S102400x256.Idx → EReal :=
  fun i => layerEntry A X I W B ⟨(i 0).val, idx2_lt0 i⟩ ⟨(i 1).val, idx2_lt1 i⟩

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block row `t`, the weights and the bias at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The blocks read at an entry: block `t` of a row-blocked window is rows `4096 t …` of its array; the weights' and the
    bias's one block is the whole array. -/
theorem rd0 (c : Dev nD) (t : Fin cfg0.N) (p : Fin 4096) (k : Fin 128) :
    iblk0 V c 0 t (ix2 p k) = V c main_v10 (ix2 (⟨t.val * 4096 + p.val, by have ht : t.val < 25 := t.isLt; have := p.isLt; omega⟩ : Fin 102400) k) := by
  show V c main_v10 (((cfg0.win 0).blk t).view.emb (ix2 p k)) = _
  refine congrArg _ (funext fun a => Fin.ext ?_)
  obtain ⟨e00, e01, e10, e11, e20, e21, e30, e31, e40, e41, e50, e51⟩ := idx_facts t
  match a with
  | ⟨0, _⟩ => show win0_0.index t (0 : Fin 2) * 4096 + 1 * p.val = t.val * 4096 + p.val; omega
  | ⟨1, _⟩ => show win0_0.index t (1 : Fin 2) * 128 + 1 * k.val = k.val; omega

theorem rd1 (c : Dev nD) (t : Fin cfg0.N) (p : Fin 4096) (k : Fin 128) :
    iblk0 V c 1 t (ix2 p k) = V c main_v0 (ix2 (⟨t.val * 4096 + p.val, by have ht : t.val < 25 := t.isLt; have := p.isLt; omega⟩ : Fin 102400) k) := by
  show V c main_v0 (((cfg0.win 1).blk t).view.emb (ix2 p k)) = _
  refine congrArg _ (funext fun a => Fin.ext ?_)
  obtain ⟨e00, e01, e10, e11, e20, e21, e30, e31, e40, e41, e50, e51⟩ := idx_facts t
  match a with
  | ⟨0, _⟩ => show win0_1.index t (0 : Fin 2) * 4096 + 1 * p.val = t.val * 4096 + p.val; omega
  | ⟨1, _⟩ => show win0_1.index t (1 : Fin 2) * 128 + 1 * k.val = k.val; omega

theorem rd2 (c : Dev nD) (t : Fin cfg0.N) (p : Fin 4096) :
    iblk0 V c 2 t (ix2 p 0) = V c main_v19 (ix2 (⟨t.val * 4096 + p.val, by have ht : t.val < 25 := t.isLt; have := p.isLt; omega⟩ : Fin 102400) 0) := by
  show V c main_v19 (((cfg0.win 2).blk t).view.emb (ix2 p 0)) = _
  refine congrArg _ (funext fun a => Fin.ext ?_)
  obtain ⟨e00, e01, e10, e11, e20, e21, e30, e31, e40, e41, e50, e51⟩ := idx_facts t
  match a with
  | ⟨0, _⟩ => show win0_2.index t (0 : Fin 2) * 4096 + 1 * p.val = t.val * 4096 + p.val; omega
  | ⟨1, _⟩ => show win0_2.index t (1 : Fin 2) * 1 + 1 * 0 = 0; omega

theorem rd3 (c : Dev nD) (t : Fin cfg0.N) (k q : Fin 256) : iblk0 V c 3 t (ix2 k q) = V c main_v21 (ix2 k q) := by
  show V c main_v21 (((cfg0.win 3).blk t).view.emb (ix2 k q)) = _
  refine congrArg _ (funext fun a => Fin.ext ?_)
  obtain ⟨e00, e01, e10, e11, e20, e21, e30, e31, e40, e41, e50, e51⟩ := idx_facts t
  match a with
  | ⟨0, _⟩ => show win0_3.index t (0 : Fin 2) * 256 + 1 * k.val = k.val; omega
  | ⟨1, _⟩ => show win0_3.index t (1 : Fin 2) * 256 + 1 * q.val = q.val; omega

theorem rd4 (c : Dev nD) (t : Fin cfg0.N) (q : Fin 256) : iblk0 V c 4 t (ix2 0 q) = V c main_v22 (ix2 0 q) := by
  show V c main_v22 (((cfg0.win 4).blk t).view.emb (ix2 0 q)) = _
  refine congrArg _ (funext fun a => Fin.ext ?_)
  obtain ⟨e00, e01, e10, e11, e20, e21, e30, e31, e40, e41, e50, e51⟩ := idx_facts t
  match a with
  | ⟨0, _⟩ => show win0_4.index t (0 : Fin 2) * 1 + 1 * 0 = 0; omega
  | ⟨1, _⟩ => show win0_4.index t (1 : Fin 2) * 256 + 1 * q.val = q.val; omega

/-- Entry (p, q) of the output's block `t` is entry (4096 t + p, q) of its array. -/
theorem emb5 (t : Fin cfg0.N) (p : Fin 4096) (q : Fin 256) :
    ((cfg0.win 5).blk t).view.emb (ix2 p q) = ix2 (⟨t.val * 4096 + p.val, by have ht : t.val < 25 := t.isLt; have := p.isLt; omega⟩ : Fin 102400) q := by
  refine funext fun a => Fin.ext ?_
  obtain ⟨e00, e01, e10, e11, e20, e21, e30, e31, e40, e41, e50, e51⟩ := idx_facts t
  match a with
  | ⟨0, _⟩ => show win0_5.index t (0 : Fin 2) * 4096 + 1 * p.val = t.val * 4096 + p.val; omega
  | ⟨1, _⟩ => show win0_5.index t (1 : Fin 2) * 256 + 1 * q.val = q.val; omega

/-- What point `t` writes back is block `t` of the first layer of the arrays the region was entered with. -/
theorem flushed_eq (c : Dev nD) (t : Fin cfg0.N) :
    (dat0 V c).flushed 5 t = ((cfg0.win 5).blk t).view.read (Elt Ideal)
      (layer (V c main_v10) (V c main_v0) (V c main_v19) (V c main_v21) (V c main_v22)) := by
  show (cfg0.win 5).cut (grid0.coords t) ((dat0 V c).after 5 t) = _
  rw [after0_5]
  unfold out0_5
  rw [View.canon_unit_zero hz]
  simp only [View.ld_unit_zero (S := S4096x128) hz, View.ld_unit_zero (S := S4096x1) hz, View.ld_unit_zero (S := S256x256) hz,
    View.ld_unit_zero (S := S1x256) hz]
  funext j
  obtain ⟨p, q, rfl⟩ : ∃ (p : Fin 4096) (q : Fin 256), j = ix2 p q := ⟨j 0, j 1, eq_ix2 j⟩
  show k0_pay1 (iblk0 V c 0 t) (iblk0 V c 2 t) (iblk0 V c 1 t) (iblk0 V c 3 t) (iblk0 V c 4 t) (ix2 p q)
      = layer (V c main_v10) (V c main_v0) (V c main_v19) (V c main_v21) (V c main_v22) (((cfg0.win 5).blk t).view.emb (ix2 p q))
  rw [pay0_apply, emb5 t p q]
  simp only [rd0 V c t, rd1 V c t, rd2 V c t, rd3 V c t, rd4 V c t]
  rfl

/-- An entry of the output array is in point `t`'s block iff each coordinate is in the block's range on its axis. -/
theorem mem_blk (t : Fin cfg0.N) (i : S102400x256.Idx) :
    i ∈ ((cfg0.win 5).blk t).view.set ↔ ∀ a : Fin 2, win0_5.index t a * S4096x256.size a ≤ (i a).val ∧ (i a).val < win0_5.index t a * S4096x256.size a + S4096x256.size a := by
  show i ∈ ((View.whole main_v23).slice (win0_5.rect t)).set ↔ _
  rw [View.set_slice_whole, Rect.mem_set_unit]
  exact Iff.rfl

/-- The output's blocks tile its array: row `r` is in the block of point `r / 4096`. -/
theorem cover (i : S102400x256.Idx) : ∃ t : Fin cfg0.N, (cfg0.win 5).flush t = true ∧ i ∈ ((cfg0.win 5).blk t).view.set := by
  have hi0 : (i 0).val < 102400 := (i 0).isLt
  have hi1 : (i 1).val < 256 := (i 1).isLt
  let t : Fin cfg0.N := ⟨(i 0).val / 4096, by show (i 0).val / 4096 < 25; omega⟩
  have htv : t.val = (i 0).val / 4096 := rfl
  refine ⟨t, flush0_5 t, ?_⟩
  rw [mem_blk]
  obtain ⟨e00, e01, e10, e11, e20, e21, e30, e31, e40, e41, e50, e51⟩ := idx_facts t
  intro a
  match a with
  | ⟨0, _⟩ => show win0_5.index t (0 : Fin 2) * 4096 ≤ (i 0).val ∧ (i 0).val < win0_5.index t (0 : Fin 2) * 4096 + 4096; omega
  | ⟨1, _⟩ => show win0_5.index t (1 : Fin 2) * 256 ≤ (i 1).val ∧ (i 1).val < win0_5.index t (1 : Fin 2) * 256 + 256; omega

/-- The array region 0 leaves: the first layer of the arrays it was entered with. -/
theorem final (c : Dev nD) : (dat0 V c).arrAt 5 cfg0.N
    = layer (V c main_v10) (V c main_v0) (V c main_v19) (V c main_v21) (V c main_v22) :=
  (dat0 V c).arrAt_eq_of_cover 5 _ (fun t _ => flushed_eq V c t) cover

end Cert.KernelIdeal.Region0

end
-- ==== Proof.Region1.lean ====
/- Region 1 (the second layer's kernel): the array its pipeline leaves, as one function of the arrays it is entered with. -/
import proofs.«121724_j32804960207226_2_alg».proof.Proof.Gen.KernelIdeal.Frame
import proofs.«121724_j32804960207226_2_alg».proof.Proof.Bodies

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Bodies

/-- One entry of the second layer: row `r` of the summed neighbours scaled by the row's reciprocal count through the left
    weights, plus row `r` of the root features through the right weights, plus the bias, clamped below at zero. -/
def layerEntry (A X : S10240x256.Idx → EReal) (I : S10240x1.Idx → EReal) (Wl : S256x256.Idx → EReal) (B : S1x256.Idx → EReal)
    (Wr : S256x256.Idx → EReal) (r : Fin 10240) (q : Fin 256) : EReal :=
  max (((∑ k : Fin 256, (A (ix2 r k) * I (ix2 r 0)) * Wl (ix2 k q)) + ∑ k : Fin 256, X (ix2 r k) * Wr (ix2 k q)) + B (ix2 0 q))
    (Ideal.ofBits .f32 0x00000000#32)

/-- The second layer on whole arrays. -/
def layer (A X : S10240x256.Idx → EReal) (I : S10240x1.Idx → EReal) (Wl : S256x256.Idx → EReal) (B : S1x256.Idx → EReal)
    (Wr : S256x256.Idx → EReal) : S10240x256.Idx → EReal :=
  fun i => layerEntry A X I Wl B Wr ⟨(i 0).val, idx2_lt0 i⟩ ⟨(i 1).val, idx2_lt1 i⟩

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block row `t`, the weights and the bias at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The blocks read at an entry: block `t` of a row-blocked window is rows `2048 t …` of its array; the weights' and the
    bias's one block is the whole array. -/
theorem rd0 (c : Dev nD) (t : Fin cfg1.N) (p : Fin 2048) (k : Fin 256) :
    iblk1 V c 0 t (ix2 p k) = V c main_v34 (ix2 (⟨t.val * 2048 + p.val, by have ht : t.val < 5 := t.isLt; have := p.isLt; omega⟩ : Fin 10240) k) := by
  show V c main_v34 (((cfg1.win 0).blk t).view.emb (ix2 p k)) = _
  refine congrArg _ (funext fun a => Fin.ext ?_)
  obtain ⟨e00, e01, e10, e11, e20, e21, e30, e31, e40, e41, e50, e51, e60, e61⟩ := idx_facts t
  match a with
  | ⟨0, _⟩ => show win1_0.index t (0 : Fin 2) * 2048 + 1 * p.val = t.val * 2048 + p.val; omega
  | ⟨1, _⟩ => show win1_0.index t (1 : Fin 2) * 256 + 1 * k.val = k.val; omega

theorem rd1 (c : Dev nD) (t : Fin cfg1.N) (p : Fin 2048) (k : Fin 256) :
    iblk1 V c 1 t (ix2 p k) = V c main_v24 (ix2 (⟨t.val * 2048 + p.val, by have ht : t.val < 5 := t.isLt; have := p.isLt; omega⟩ : Fin 10240) k) := by
  show V c main_v24 (((cfg1.win 1).blk t).view.emb (ix2 p k)) = _
  refine congrArg _ (funext fun a => Fin.ext ?_)
  obtain ⟨e00, e01, e10, e11, e20, e21, e30, e31, e40, e41, e50, e51, e60, e61⟩ := idx_facts t
  match a with
  | ⟨0, _⟩ => show win1_1.index t (0 : Fin 2) * 2048 + 1 * p.val = t.val * 2048 + p.val; omega
  | ⟨1, _⟩ => show win1_1.index t (1 : Fin 2) * 256 + 1 * k.val = k.val; omega

theorem rd2 (c : Dev nD) (t : Fin cfg1.N) (p : Fin 2048) :
    iblk1 V c 2 t (ix2 p 0) = V c main_v43 (ix2 (⟨t.val * 2048 + p.val, by have ht : t.val < 5 := t.isLt; have := p.isLt; omega⟩ : Fin 10240) 0) := by
  show V c main_v43 (((cfg1.win 2).blk t).view.emb (ix2 p 0)) = _
  refine congrArg _ (funext fun a => Fin.ext ?_)
  obtain ⟨e00, e01, e10, e11, e20, e21, e30, e31, e40, e41, e50, e51, e60, e61⟩ := idx_facts t
  match a with
  | ⟨0, _⟩ => show win1_2.index t (0 : Fin 2) * 2048 + 1 * p.val = t.val * 2048 + p.val; omega
  | ⟨1, _⟩ => show win1_2.index t (1 : Fin 2) * 1 + 1 * 0 = 0; omega

theorem rd3 (c : Dev nD) (t : Fin cfg1.N) (k q : Fin 256) : iblk1 V c 3 t (ix2 k q) = V c main_v44 (ix2 k q) := by
  show V c main_v44 (((cfg1.win 3).blk t).view.emb (ix2 k q)) = _
  refine congrArg _ (funext fun a => Fin.ext ?_)
  obtain ⟨e00, e01, e10, e11, e20, e21, e30, e31, e40, e41, e50, e51, e60, e61⟩ := idx_facts t
  match a with
  | ⟨0, _⟩ => show win1_3.index t (0 : Fin 2) * 256 + 1 * k.val = k.val; omega
  | ⟨1, _⟩ => show win1_3.index t (1 : Fin 2) * 256 + 1 * q.val = q.val; omega

theorem rd4 (c : Dev nD) (t : Fin cfg1.N) (q : Fin 256) : iblk1 V c 4 t (ix2 0 q) = V c main_v46 (ix2 0 q) := by
  show V c main_v46 (((cfg1.win 4).blk t).view.emb (ix2 0 q)) = _
  refine congrArg _ (funext fun a => Fin.ext ?_)
  obtain ⟨e00, e01, e10, e11, e20, e21, e30, e31, e40, e41, e50, e51, e60, e61⟩ := idx_facts t
  match a with
  | ⟨0, _⟩ => show win1_4.index t (0 : Fin 2) * 1 + 1 * 0 = 0; omega
  | ⟨1, _⟩ => show win1_4.index t (1 : Fin 2) * 256 + 1 * q.val = q.val; omega

theorem rd5 (c : Dev nD) (t : Fin cfg1.N) (k q : Fin 256) : iblk1 V c 5 t (ix2 k q) = V c main_v45 (ix2 k q) := by
  show V c main_v45 (((cfg1.win 5).blk t).view.emb (ix2 k q)) = _
  refine congrArg _ (funext fun a => Fin.ext ?_)
  obtain ⟨e00, e01, e10, e11, e20, e21, e30, e31, e40, e41, e50, e51, e60, e61⟩ := idx_facts t
  match a with
  | ⟨0, _⟩ => show win1_5.index t (0 : Fin 2) * 256 + 1 * k.val = k.val; omega
  | ⟨1, _⟩ => show win1_5.index t (1 : Fin 2) * 256 + 1 * q.val = q.val; omega

/-- Entry (p, q) of the output's block `t` is entry (2048 t + p, q) of its array. -/
theorem emb6 (t : Fin cfg1.N) (p : Fin 2048) (q : Fin 256) :
    ((cfg1.win 6).blk t).view.emb (ix2 p q) = ix2 (⟨t.val * 2048 + p.val, by have ht : t.val < 5 := t.isLt; have := p.isLt; omega⟩ : Fin 10240) q := by
  refine funext fun a => Fin.ext ?_
  obtain ⟨e00, e01, e10, e11, e20, e21, e30, e31, e40, e41, e50, e51, e60, e61⟩ := idx_facts t
  match a with
  | ⟨0, _⟩ => show win1_6.index t (0 : Fin 2) * 2048 + 1 * p.val = t.val * 2048 + p.val; omega
  | ⟨1, _⟩ => show win1_6.index t (1 : Fin 2) * 256 + 1 * q.val = q.val; omega

/-- What point `t` writes back is block `t` of the second layer of the arrays the region was entered with. -/
theorem flushed_eq (c : Dev nD) (t : Fin cfg1.N) :
    (dat1 V c).flushed 6 t = ((cfg1.win 6).blk t).view.read (Elt Ideal)
      (layer (V c main_v34) (V c main_v24) (V c main_v43) (V c main_v44) (V c main_v46) (V c main_v45)) := by
  show (cfg1.win 6).cut (grid1.coords t) ((dat1 V c).after 6 t) = _
  rw [after1_6]
  unfold out1_6
  rw [View.canon_unit_zero hz]
  simp only [View.ld_unit_zero (S := S2048x256) hz, View.ld_unit_zero (S := S2048x1) hz, View.ld_unit_zero (S := S256x256) hz,
    View.ld_unit_zero (S := S1x256) hz]
  funext j
  obtain ⟨p, q, rfl⟩ : ∃ (p : Fin 2048) (q : Fin 256), j = ix2 p q := ⟨j 0, j 1, eq_ix2 j⟩
  show k1_pay1 (iblk1 V c 0 t) (iblk1 V c 2 t) (iblk1 V c 1 t) (iblk1 V c 3 t) (iblk1 V c 5 t) (iblk1 V c 4 t) (ix2 p q)
      = layer (V c main_v34) (V c main_v24) (V c main_v43) (V c main_v44) (V c main_v46) (V c main_v45) (((cfg1.win 6).blk t).view.emb (ix2 p q))
  rw [pay1_apply, emb6 t p q]
  simp only [rd0 V c t, rd1 V c t, rd2 V c t, rd3 V c t, rd4 V c t, rd5 V c t]
  rfl

/-- An entry of the output array is in point `t`'s block iff each coordinate is in the block's range on its axis. -/
theorem mem_blk (t : Fin cfg1.N) (i : S10240x256.Idx) :
    i ∈ ((cfg1.win 6).blk t).view.set ↔ ∀ a : Fin 2, win1_6.index t a * S2048x256.size a ≤ (i a).val ∧ (i a).val < win1_6.index t a * S2048x256.size a + S2048x256.size a := by
  show i ∈ ((View.whole main_v47).slice (win1_6.rect t)).set ↔ _
  rw [View.set_slice_whole, Rect.mem_set_unit]
  exact Iff.rfl

/-- The output's blocks tile its array: row `r` is in the block of point `r / 2048`. -/
theorem cover (i : S10240x256.Idx) : ∃ t : Fin cfg1.N, (cfg1.win 6).flush t = true ∧ i ∈ ((cfg1.win 6).blk t).view.set := by
  have hi0 : (i 0).val < 10240 := (i 0).isLt
  have hi1 : (i 1).val < 256 := (i 1).isLt
  let t : Fin cfg1.N := ⟨(i 0).val / 2048, by show (i 0).val / 2048 < 5; omega⟩
  have htv : t.val = (i 0).val / 2048 := rfl
  refine ⟨t, flush1_6 t, ?_⟩
  rw [mem_blk]
  obtain ⟨e00, e01, e10, e11, e20, e21, e30, e31, e40, e41, e50, e51, e60, e61⟩ := idx_facts t
  intro a
  match a with
  | ⟨0, _⟩ => show win1_6.index t (0 : Fin 2) * 2048 ≤ (i 0).val ∧ (i 0).val < win1_6.index t (0 : Fin 2) * 2048 + 2048; omega
  | ⟨1, _⟩ => show win1_6.index t (1 : Fin 2) * 256 ≤ (i 1).val ∧ (i 1).val < win1_6.index t (1 : Fin 2) * 256 + 256; omega

/-- The array region 1 leaves: the second layer of the arrays it was entered with. -/
theorem final (c : Dev nD) : (dat1 V c).arrAt 6 cfg1.N
    = layer (V c main_v34) (V c main_v24) (V c main_v43) (V c main_v44) (V c main_v46) (V c main_v45) :=
  (dat1 V c).arrAt_eq_of_cover 6 _ (fun t _ => flushed_eq V c t) cover

end Cert.KernelIdeal.Region1

end
-- ==== Proof.Region2.lean ====
/- Region 2 (the last layer's kernel, one grid point): the two arrays its pipeline leaves, as functions of the arrays it is
   entered with. Its one block of every window is the whole array, so the body's two stored values ARE the results. -/
import proofs.«121724_j32804960207226_2_alg».proof.Proof.Gen.KernelIdeal.Frame
import Idealize.ShloMosaic.Lib.ValueIdx
import Idealize.ShloMosaic.Lib.Pipeline.Value

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- The last layer's logits on whole arrays: the body's first stored value (arguments in window order: summed neighbours, root
    features, reciprocal counts, left weights, bias, right weights). -/
def logits (A X : S1024x256.Idx → EReal) (I : S1024x1.Idx → EReal) (Wl : S256x47.Idx → EReal) (B : S1x47.Idx → EReal)
    (Wr : S256x47.Idx → EReal) : S1024x47.Idx → EReal :=
  k2_pay1 (F := Ideal) A I X Wl Wr B

/-- The log-probabilities on whole arrays: the body's second stored value. -/
def logprobs (A X : S1024x256.Idx → EReal) (I : S1024x1.Idx → EReal) (Wl : S256x47.Idx → EReal) (B : S1x47.Idx → EReal)
    (Wr : S256x47.Idx → EReal) : S1024x47.Idx → EReal :=
  k2_pay2 (F := Ideal) A I X Wl Wr B

variable (V : (c : Dev nD) → (b : Ref sig .tc) → Buf (Elt Ideal) ((c : Thread nD τ).loc b))

theorem hz : (![0, 0] : Fin 2 → Nat) = fun _ => 0 := funext fun a => by fin_cases a <;> rfl

/-- The printed index maps at the one grid point: every window's block is block 0. -/
theorem idx_facts : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0 :=
  (by decide +kernel : ∀ t : Fin grid2.N, _)

/-- Each window's one block is its whole array. -/
theorem blk0 (c : Dev nD) (t : Fin cfg2.N) : iblk2 V c 0 t = (V c main_v58 : S1024x256.Idx → EReal) := by
  funext y
  show V c main_v58 (((cfg2.win 0).blk t).view.emb y) = V c main_v58 y
  refine congrArg _ (funext fun a => Fin.ext ?_)
  obtain ⟨e00, e01, e10, e11, e20, e21, e30, e31, e40, e41, e50, e51, e60, e61, e70, e71⟩ := idx_facts t
  match a with
  | ⟨0, _⟩ => show win2_0.index t (0 : Fin 2) * 1024 + 1 * (y 0).val = (y 0).val; omega
  | ⟨1, _⟩ => show win2_0.index t (1 : Fin 2) * 256 + 1 * (y 1).val = (y 1).val; omega

theorem blk1 (c : Dev nD) (t : Fin cfg2.N) : iblk2 V c 1 t = (V c main_v48 : S1024x256.Idx → EReal) := by
  funext y
  show V c main_v48 (((cfg2.win 1).blk t).view.emb y) = V c main_v48 y
  refine congrArg _ (funext fun a => Fin.ext ?_)
  obtain ⟨e00, e01, e10, e11, e20, e21, e30, e31, e40, e41, e50, e51, e60, e61, e70, e71⟩ := idx_facts t
  match a with
  | ⟨0, _⟩ => show win2_1.index t (0 : Fin 2) * 1024 + 1 * (y 0).val = (y 0).val; omega
  | ⟨1, _⟩ => show win2_1.index t (1 : Fin 2) * 256 + 1 * (y 1).val = (y 1).val; omega

theorem blk2 (c : Dev nD) (t : Fin cfg2.N) : iblk2 V c 2 t = (V c main_v67 : S1024x1.Idx → EReal) := by
  funext y
  show V c main_v67 (((cfg2.win 2).blk t).view.emb y) = V c main_v67 y
  refine congrArg _ (funext fun a => Fin.ext ?_)
  obtain ⟨e00, e01, e10, e11, e20, e21, e30, e31, e40, e41, e50, e51, e60, e61, e70, e71⟩ := idx_facts t
  match a with
  | ⟨0, _⟩ => show win2_2.index t (0 : Fin 2) * 1024 + 1 * (y 0).val = (y 0).val; omega
  | ⟨1, _⟩ => show win2_2.index t (1 : Fin 2) * 1 + 1 * (y 1).val = (y 1).val; omega

theorem blk3 (c : Dev nD) (t : Fin cfg2.N) : iblk2 V c 3 t = (V c main_v68 : S256x47.Idx → EReal) := by
  funext y
  show V c main_v68 (((cfg2.win 3).blk t).view.emb y) = V c main_v68 y
  refine congrArg _ (funext fun a => Fin.ext ?_)
  obtain ⟨e00, e01, e10, e11, e20, e21, e30, e31, e40, e41, e50, e51, e60, e61, e70, e71⟩ := idx_facts t
  match a with
  | ⟨0, _⟩ => show win2_3.index t (0 : Fin 2) * 256 + 1 * (y 0).val = (y 0).val; omega
  | ⟨1, _⟩ => show win2_3.index t (1 : Fin 2) * 47 + 1 * (y 1).val = (y 1).val; omega

theorem blk4 (c : Dev nD) (t : Fin cfg2.N) : iblk2 V c 4 t = (V c main_v70 : S1x47.Idx → EReal) := by
  funext y
  show V c main_v70 (((cfg2.win 4).blk t).view.emb y) = V c main_v70 y
  refine congrArg _ (funext fun a => Fin.ext ?_)
  obtain ⟨e00, e01, e10, e11, e20, e21, e30, e31, e40, e41, e50, e51, e60, e61, e70, e71⟩ := idx_facts t
  match a with
  | ⟨0, _⟩ => show win2_4.index t (0 : Fin 2) * 1 + 1 * (y 0).val = (y 0).val; omega
  | ⟨1, _⟩ => show win2_4.index t (1 : Fin 2) * 47 + 1 * (y 1).val = (y 1).val; omega

theorem blk5 (c : Dev nD) (t : Fin cfg2.N) : iblk2 V c 5 t = (V c main_v69 : S256x47.Idx → EReal) := by
  funext y
  show V c main_v69 (((cfg2.win 5).blk t).view.emb y) = V c main_v69 y
  refine congrArg _ (funext fun a => Fin.ext ?_)
  obtain ⟨e00, e01, e10, e11, e20, e21, e30, e31, e40, e41, e50, e51, e60, e61, e70, e71⟩ := idx_facts t
  match a with
  | ⟨0, _⟩ => show win2_5.index t (0 : Fin 2) * 256 + 1 * (y 0).val = (y 0).val; omega
  | ⟨1, _⟩ => show win2_5.index t (1 : Fin 2) * 47 + 1 * (y 1).val = (y 1).val; omega

theorem emb6 (t : Fin cfg2.N) (j : S1024x47.Idx) : ((cfg2.win 6).blk t).view.emb j = j := by
  refine funext fun a => Fin.ext ?_
  obtain ⟨e00, e01, e10, e11, e20, e21, e30, e31, e40, e41, e50, e51, e60, e61, e70, e71⟩ := idx_facts t
  match a with
  | ⟨0, _⟩ => show win2_6.index t (0 : Fin 2) * 1024 + 1 * (j 0).val = (j 0).val; omega
  | ⟨1, _⟩ => show win2_6.index t (1 : Fin 2) * 47 + 1 * (j 1).val = (j 1).val; omega

theorem emb7 (t : Fin cfg2.N) (j : S1024x47.Idx) : ((cfg2.win 7).blk t).view.emb j = j := by
  refine funext fun a => Fin.ext ?_
  obtain ⟨e00, e01, e10, e11, e20, e21, e30, e31, e40, e41, e50, e51, e60, e61, e70, e71⟩ := idx_facts t
  match a with
  | ⟨0, _⟩ => show win2_7.index t (0 : Fin 2) * 1024 + 1 * (j 0).val = (j 0).val; omega
  | ⟨1, _⟩ => show win2_7.index t (1 : Fin 2) * 47 + 1 * (j 1).val = (j 1).val; omega

/-- What the one point writes back to result 0 is the logits of the arrays the region was entered with. -/
theorem flushed6 (c : Dev nD) (t : Fin cfg2.N) :
    (dat2 V c).flushed 6 t = ((cfg2.win 6).blk t).view.read (Elt Ideal)
      (logits (V c main_v58) (V c main_v48) (V c main_v67) (V c main_v68) (V c main_v70) (V c main_v69)) := by
  show (cfg2.win 6).cut (grid2.coords t) ((dat2 V c).after 6 t) = _
  rw [after2_6]
  unfold out2_6
  rw [View.canon_unit_zero hz]
  simp only [View.ld_unit_zero (S := S1024x256) hz, View.ld_unit_zero (S := S1024x1) hz, View.ld_unit_zero (S := S256x47) hz,
    View.ld_unit_zero (S := S1x47) hz]
  funext j
  show k2_pay1 (iblk2 V c 0 t) (iblk2 V c 2 t) (iblk2 V c 1 t) (iblk2 V c 3 t) (iblk2 V c 5 t) (iblk2 V c 4 t) j
      = logits (V c main_v58) (V c main_v48) (V c main_v67) (V c main_v68) (V c main_v70) (V c main_v69) (((cfg2.win 6).blk t).view.emb j)
  rw [blk0 V c t, blk1 V c t, blk2 V c t, blk3 V c t, blk4 V c t, blk5 V c t, emb6 t j]
  rfl

theorem mem_blk6 (t : Fin cfg2.N) (i : S1024x47.Idx) :
    i ∈ ((cfg2.win 6).blk t).view.set ↔ ∀ a : Fin 2, win2_6.index t a * S1024x47.size a ≤ (i a).val ∧ (i a).val < win2_6.index t a * S1024x47.size a + S1024x47.size a := by
  show i ∈ ((View.whole main_v71_0).slice (win2_6.rect t)).set ↔ _
  rw [View.set_slice_whole, Rect.mem_set_unit]
  exact Iff.rfl

theorem cover6 (i : S1024x47.Idx) : ∃ t : Fin cfg2.N, (cfg2.win 6).flush t = true ∧ i ∈ ((cfg2.win 6).blk t).view.set := by
  have hi0 : (i 0).val < 1024 := (i 0).isLt
  have hi1 : (i 1).val < 47 := (i 1).isLt
  let t : Fin cfg2.N := ⟨0, by decide⟩
  refine ⟨t, flush2_6 t, ?_⟩
  rw [mem_blk6]
  obtain ⟨e00, e01, e10, e11, e20, e21, e30, e31, e40, e41, e50, e51, e60, e61, e70, e71⟩ := idx_facts t
  intro a
  match a with
  | ⟨0, _⟩ => show win2_6.index t (0 : Fin 2) * 1024 ≤ (i 0).val ∧ (i 0).val < win2_6.index t (0 : Fin 2) * 1024 + 1024; omega
  | ⟨1, _⟩ => show win2_6.index t (1 : Fin 2) * 47 ≤ (i 1).val ∧ (i 1).val < win2_6.index t (1 : Fin 2) * 47 + 47; omega

theorem final6 (c : Dev nD) : (dat2 V c).arrAt 6 cfg2.N
    = logits (V c main_v58) (V c main_v48) (V c main_v67) (V c main_v68) (V c main_v70) (V c main_v69) :=
  (dat2 V c).arrAt_eq_of_cover 6 _ (fun t _ => flushed6 V c t) cover6

/-- What the one point writes back to result 1 is the log-probabilities of the arrays the region was entered with. -/
theorem flushed7 (c : Dev nD) (t : Fin cfg2.N) :
    (dat2 V c).flushed 7 t = ((cfg2.win 7).blk t).view.read (Elt Ideal)
      (logprobs (V c main_v58) (V c main_v48) (V c main_v67) (V c main_v68) (V c main_v70) (V c main_v69)) := by
  show (cfg2.win 7).cut (grid2.coords t) ((dat2 V c).after 7 t) = _
  rw [after2_7]
  unfold out2_7
  rw [View.canon_unit_zero hz]
  simp only [View.ld_unit_zero (S := S1024x256) hz, View.ld_unit_zero (S := S1024x1) hz, View.ld_unit_zero (S := S256x47) hz,
    View.ld_unit_zero (S := S1x47) hz]
  funext j
  show k2_pay2 (iblk2 V c 0 t) (iblk2 V c 2 t) (iblk2 V c 1 t) (iblk2 V c 3 t) (iblk2 V c 5 t) (iblk2 V c 4 t) j
      = logprobs (V c main_v58) (V c main_v48) (V c main_v67) (V c main_v68) (V c main_v70) (V c main_v69) (((cfg2.win 7).blk t).view.emb j)
  rw [blk0 V c t, blk1 V c t, blk2 V c t, blk3 V c t, blk4 V c t, blk5 V c t, emb7 t j]
  rfl

theorem mem_blk7 (t : Fin cfg2.N) (i : S1024x47.Idx) :
    i ∈ ((cfg2.win 7).blk t).view.set ↔ ∀ a : Fin 2, win2_7.index t a * S1024x47.size a ≤ (i a).val ∧ (i a).val < win2_7.index t a * S1024x47.size a + S1024x47.size a := by
  show i ∈ ((View.whole main_v71_1).slice (win2_7.rect t)).set ↔ _
  rw [View.set_slice_whole, Rect.mem_set_unit]
  exact Iff.rfl

theorem cover7 (i : S1024x47.Idx) : ∃ t : Fin cfg2.N, (cfg2.win 7).flush t = true ∧ i ∈ ((cfg2.win 7).blk t).view.set := by
  have hi0 : (i 0).val < 1024 := (i 0).isLt
  have hi1 : (i 1).val < 47 := (i 1).isLt
  let t : Fin cfg2.N := ⟨0, by decide⟩
  refine ⟨t, flush2_7 t, ?_⟩
  rw [mem_blk7]
  obtain ⟨e00, e01, e10, e11, e20, e21, e30, e31, e40, e41, e50, e51, e60, e61, e70, e71⟩ := idx_facts t
  intro a
  match a with
  | ⟨0, _⟩ => show win2_7.index t (0 : Fin 2) * 1024 ≤ (i 0).val ∧ (i 0).val < win2_7.index t (0 : Fin 2) * 1024 + 1024; omega
  | ⟨1, _⟩ => show win2_7.index t (1 : Fin 2) * 47 ≤ (i 1).val ∧ (i 1).val < win2_7.index t (1 : Fin 2) * 47 + 47; omega

theorem final7 (c : Dev nD) : (dat2 V c).arrAt 7 cfg2.N
    = logprobs (V c main_v58) (V c main_v48) (V c main_v67) (V c main_v68) (V c main_v70) (V c main_v69) :=
  (dat2 V c).arrAt_eq_of_cover 7 _ (fun t _ => flushed7 V c t) cover7

end Cert.KernelIdeal.Region2

end
-- ==== Proof.HostTerms.lean ====
/- What the kernel program's host code hands each kernel beside the gathered sums: the reciprocal counts as a column, the weights
   in the narrow format (stacked for the first layer), the bias as a row. -/
import proofs.«121724_j32804960207226_2_alg».proof.Proof.Gen.KernelIdeal

noncomputable section

namespace Cert.KernelIdeal.HostTerms

open Idealize.ShloMosaic Idealize.ShloMosaic.TcCoe Idealize.ShloMosaic.StableHlo Idealize.SL.Sem Cert.KernelIdeal Cert.KernelIdeal.Facts₀ Cert.KernelIdeal.Facts

variable {F : FTy → Type} [FloatOps F]

/-- The reciprocal of the clamped neighbour counts, as a column (first layer). -/
def inv0 (cm : S102400.Idx → F .f32) : S102400x1.Idx → F .f32 :=
  shapeCast S102400x1 (Host.divf (broadcastInDim S102400 ![] bcast_S_S102400 (constant S_ .f32 0x3F800000#32)) cm) shapeCasts_S102400_S102400x1

/-- The same for the second layer. -/
def inv1 (cm : S10240.Idx → F .f32) : S10240x1.Idx → F .f32 :=
  shapeCast S10240x1 (Host.divf (broadcastInDim S10240 ![] bcast_S_S10240 (constant S_ .f32 0x3F800000#32)) cm) shapeCasts_S10240_S10240x1

/-- The same for the last layer. -/
def inv2 (cm : S1024.Idx → F .f32) : S1024x1.Idx → F .f32 :=
  shapeCast S1024x1 (Host.divf (broadcastInDim S1024 ![] bcast_S_S1024 (constant S_ .f32 0x3F800000#32)) cm) shapeCasts_S1024_S1024x1

/-- The first layer's two weight matrices stacked along the rows, in the narrow format. -/
def wstack (wl wr : S128x256.Idx → F .f32) : S256x256.Idx → F .bf16 :=
  truncf .bf16 (concatenate S256x256 0 [⟨S128x256, wl⟩, ⟨S128x256, wr⟩] concatenates_S128x256_S128x256_S256x256_d0) bitsLt_bf16_f32

/-- A weight matrix in the narrow format. -/
def narrow {s : Shape} (w : s.Idx → F .f32) : s.Idx → F .bf16 := truncf .bf16 w bitsLt_bf16_f32

/-- A bias vector as a row. -/
def biasRow256 (b : S256.Idx → F .f32) : S1x256.Idx → F .f32 := shapeCast S1x256 b shapeCasts_S256_S1x256
/-- The last layer's bias vector as a row. -/
def biasRow47 (b : S47.Idx → F .f32) : S1x47.Idx → F .f32 := shapeCast S1x47 b shapeCasts_S47_S1x47

end Cert.KernelIdeal.HostTerms

end
-- ==== Proof.Stretch0.lean ====
/- The host operations before the first kernel, read back: what each of the kernel's operands holds when the region is entered,
   as the reference's stages of the same arguments where the two programs compute the same thing. -/
import proofs.«121724_j32804960207226_2_alg».proof.Proof.Gen.KernelIdeal.Launch
import proofs.«121724_j32804960207226_2_alg».proof.Proof.RefReadP
import proofs.«121724_j32804960207226_2_alg».proof.Proof.HostTerms
import Idealize.ShloMosaic.Lib.StableHlo.Run

noncomputable section

namespace Cert.KernelIdeal.Stretch0

open Idealize.ShloMosaic Idealize.ShloMosaic.TcCoe Idealize.ShloMosaic.StableHlo Idealize.SL.Sem
open Cert.KernelIdeal Cert.KernelIdeal.Gen Cert.KernelIdeal.HostTerms
open Cert.ReferenceIdeal.ReadP (val_main_v10 val_main_v0 val_main_v16)

variable {F : FTy → Type} [FloatOps F] (Wv : Valuation τ sig (Elt F))

/-- The summed neighbour features: the same gather and scatter-add as the reference's. -/
theorem agg : StableHlo.after (hostOps0 (F := F)) Wv (Proc.devRef .tc main_v10)
    = val_main_v10 (F := F) (Wv (Proc.devRef .tc main_arg0)) (Wv (Proc.devRef .tc main_arg1)) (Wv (Proc.devRef .tc main_arg2)) := by
  dsimp only [hostOps0]
  after_results
  rfl

/-- The root features: the same slice. -/
theorem root : StableHlo.after (hostOps0 (F := F)) Wv (Proc.devRef .tc main_v0) = val_main_v0 (F := F) (Wv (Proc.devRef .tc main_arg0)) := by
  dsimp only [hostOps0]
  after_results
  rfl

/-- The reciprocal of the reference's clamped counts, as a column. -/
theorem inv : StableHlo.after (hostOps0 (F := F)) Wv (Proc.devRef .tc main_v19) = inv0 (F := F) (val_main_v16 (F := F) (Wv (Proc.devRef .tc main_arg2))) := by
  dsimp only [hostOps0]
  after_results
  rfl

set_option maxHeartbeats 4000000 in
/-- The stacked weights in the narrow format. -/
theorem weights : StableHlo.after (hostOps0 (F := F)) Wv (Proc.devRef .tc main_v21) = wstack (F := F) (Wv (Proc.devRef .tc main_arg7)) (Wv (Proc.devRef .tc main_arg9)) := by
  dsimp only [hostOps0]
  after_results
  rfl

/-- The bias as a row. -/
theorem bias : StableHlo.after (hostOps0 (F := F)) Wv (Proc.devRef .tc main_v22) = biasRow256 (F := F) (Wv (Proc.devRef .tc main_arg8)) := by
  dsimp only [hostOps0]
  after_results
  rfl

end Cert.KernelIdeal.Stretch0

end
-- ==== Proof.Stretch1.lean ====
/- The host operations between the first and the second kernel, read back from contents that hold the reference's first-layer
   output where the first kernel's result is. -/
import proofs.«121724_j32804960207226_2_alg».proof.Proof.Gen.KernelIdeal.Launch
import proofs.«121724_j32804960207226_2_alg».proof.Proof.RefReadP
import proofs.«121724_j32804960207226_2_alg».proof.Proof.HostTerms
import Idealize.ShloMosaic.Lib.StableHlo.Run

noncomputable section

namespace Cert.KernelIdeal.Stretch1

open Idealize.ShloMosaic Idealize.ShloMosaic.TcCoe Idealize.ShloMosaic.StableHlo Idealize.SL.Sem
open Cert.KernelIdeal Cert.KernelIdeal.Gen Cert.KernelIdeal.HostTerms
open Cert.ReferenceIdeal.ReadP (val_main_v26 val_main_v27 val_main_v37 val_main_v43)

variable {F : FTy → Type} [FloatOps F] (Wv : Valuation τ sig (Elt F))

variable (x0 : (⟨Cert.ReferenceIdeal.S1024000x128, .f32⟩ : BufTy).Contents (Elt F)) (x1 x2 : (⟨Cert.ReferenceIdeal.S1024000, .i32⟩ : BufTy).Contents (Elt F))
  (x7 : (⟨Cert.ReferenceIdeal.S128x256, .f32⟩ : BufTy).Contents (Elt F)) (x8 : (⟨Cert.ReferenceIdeal.S256, .f32⟩ : BufTy).Contents (Elt F)) (x9 : (⟨Cert.ReferenceIdeal.S128x256, .f32⟩ : BufTy).Contents (Elt F))

set_option maxHeartbeats 4000000 in
/-- The summed neighbour features of the second layer. -/
theorem agg (H : Wv (Proc.devRef .tc main_v23) = val_main_v26 (F := F) x0 x1 x2 x7 x8 x9) :
    StableHlo.after (hostOps1 (F := F)) Wv (Proc.devRef .tc main_v34)
      = val_main_v37 (F := F) x0 x1 x2 (Wv (Proc.devRef .tc main_arg3)) (Wv (Proc.devRef .tc main_arg4)) x7 x8 x9 := by
  dsimp only [hostOps1]
  after_results
  rw [H]
  rfl

set_option maxHeartbeats 4000000 in
/-- The root features of the second layer. -/
theorem root (H : Wv (Proc.devRef .tc main_v23) = val_main_v26 (F := F) x0 x1 x2 x7 x8 x9) :
    StableHlo.after (hostOps1 (F := F)) Wv (Proc.devRef .tc main_v24) = val_main_v27 (F := F) x0 x1 x2 x7 x8 x9 := by
  dsimp only [hostOps1]
  after_results
  rw [H]
  rfl

set_option maxHeartbeats 4000000 in
/-- The reciprocal of the reference's clamped counts, as a column. -/
theorem inv : StableHlo.after (hostOps1 (F := F)) Wv (Proc.devRef .tc main_v43) = inv1 (F := F) (val_main_v43 (F := F) (Wv (Proc.devRef .tc main_arg4))) := by
  dsimp only [hostOps1]
  after_results
  rfl

set_option maxHeartbeats 4000000 in
/-- The left weights in the narrow format. -/
theorem wl : StableHlo.after (hostOps1 (F := F)) Wv (Proc.devRef .tc main_v44) = narrow (F := F) (Wv (Proc.devRef .tc main_arg10)) := by
  dsimp only [hostOps1]
  after_results
  rfl

set_option maxHeartbeats 4000000 in
/-- The bias as a row. -/
theorem bias : StableHlo.after (hostOps1 (F := F)) Wv (Proc.devRef .tc main_v46) = biasRow256 (F := F) (Wv (Proc.devRef .tc main_arg11)) := by
  dsimp only [hostOps1]
  after_results
  rfl

set_option maxHeartbeats 4000000 in
/-- The right weights in the narrow format. -/
theorem wr : StableHlo.after (hostOps1 (F := F)) Wv (Proc.devRef .tc main_v45) = narrow (F := F) (Wv (Proc.devRef .tc main_arg12)) := by
  dsimp only [hostOps1]
  after_results
  rfl

end Cert.KernelIdeal.Stretch1

end
-- ==== Proof.Stretch2.lean ====
/- The host operations between the second and the last kernel, read back from contents that hold the reference's second-layer
   output where the second kernel's result is. -/
import proofs.«121724_j32804960207226_2_alg».proof.Proof.Gen.KernelIdeal.Launch
import proofs.«121724_j32804960207226_2_alg».proof.Proof.RefReadP
import proofs.«121724_j32804960207226_2_alg».proof.Proof.HostTerms
import Idealize.ShloMosaic.Lib.StableHlo.Run

noncomputable section

namespace Cert.KernelIdeal.Stretch2

open Idealize.ShloMosaic Idealize.ShloMosaic.TcCoe Idealize.ShloMosaic.StableHlo Idealize.SL.Sem
open Cert.KernelIdeal Cert.KernelIdeal.Gen Cert.KernelIdeal.HostTerms
open Cert.ReferenceIdeal.ReadP (val_main_v53 val_main_v54 val_main_v64 val_main_v70)

variable {F : FTy → Type} [FloatOps F] (Wv : Valuation τ sig (Elt F))

variable (x0 : (⟨Cert.ReferenceIdeal.S1024000x128, .f32⟩ : BufTy).Contents (Elt F)) (x1 x2 : (⟨Cert.ReferenceIdeal.S1024000, .i32⟩ : BufTy).Contents (Elt F)) (x3 x4 : (⟨Cert.ReferenceIdeal.S102400, .i32⟩ : BufTy).Contents (Elt F))
  (x7 : (⟨Cert.ReferenceIdeal.S128x256, .f32⟩ : BufTy).Contents (Elt F)) (x8 : (⟨Cert.ReferenceIdeal.S256, .f32⟩ : BufTy).Contents (Elt F)) (x9 : (⟨Cert.ReferenceIdeal.S128x256, .f32⟩ : BufTy).Contents (Elt F))
  (x10 : (⟨Cert.ReferenceIdeal.S256x256, .f32⟩ : BufTy).Contents (Elt F)) (x11 : (⟨Cert.ReferenceIdeal.S256, .f32⟩ : BufTy).Contents (Elt F)) (x12 : (⟨Cert.ReferenceIdeal.S256x256, .f32⟩ : BufTy).Contents (Elt F))

set_option maxHeartbeats 4000000 in
/-- The summed neighbour features of the last layer. -/
theorem agg (H : Wv (Proc.devRef .tc main_v47) = val_main_v53 (F := F) x0 x1 x2 x3 x4 x7 x8 x9 x10 x11 x12) :
    StableHlo.after (hostOps2 (F := F)) Wv (Proc.devRef .tc main_v58)
      = val_main_v64 (F := F) x0 x1 x2 x3 x4 (Wv (Proc.devRef .tc main_arg5)) (Wv (Proc.devRef .tc main_arg6)) x7 x8 x9 x10 x11 x12 := by
  dsimp only [hostOps2]
  after_results
  rw [H]
  rfl

set_option maxHeartbeats 4000000 in
/-- The root features of the last layer. -/
theorem root (H : Wv (Proc.devRef .tc main_v47) = val_main_v53 (F := F) x0 x1 x2 x3 x4 x7 x8 x9 x10 x11 x12) :
    StableHlo.after (hostOps2 (F := F)) Wv (Proc.devRef .tc main_v48) = val_main_v54 (F := F) x0 x1 x2 x3 x4 x7 x8 x9 x10 x11 x12 := by
  dsimp only [hostOps2]
  after_results
  rw [H]
  rfl

set_option maxHeartbeats 4000000 in
/-- The reciprocal of the reference's clamped counts, as a column. -/
theorem inv : StableHlo.after (hostOps2 (F := F)) Wv (Proc.devRef .tc main_v67) = inv2 (F := F) (val_main_v70 (F := F) (Wv (Proc.devRef .tc main_arg6))) := by
  dsimp only [hostOps2]
  after_results
  rfl

set_option maxHeartbeats 4000000 in
/-- The left weights in the narrow format. -/
theorem wl : StableHlo.after (hostOps2 (F := F)) Wv (Proc.devRef .tc main_v68) = narrow (F := F) (Wv (Proc.devRef .tc main_arg13)) := by
  dsimp only [hostOps2]
  after_results
  rfl

set_option maxHeartbeats 4000000 in
/-- The bias as a row. -/
theorem bias : StableHlo.after (hostOps2 (F := F)) Wv (Proc.devRef .tc main_v70) = biasRow47 (F := F) (Wv (Proc.devRef .tc main_arg14)) := by
  dsimp only [hostOps2]
  after_results
  rfl

set_option maxHeartbeats 4000000 in
/-- The right weights in the narrow format. -/
theorem wr : StableHlo.after (hostOps2 (F := F)) Wv (Proc.devRef .tc main_v69) = narrow (F := F) (Wv (Proc.devRef .tc main_arg15)) := by
  dsimp only [hostOps2]
  after_results
  rfl

end Cert.KernelIdeal.Stretch2

end
-- ==== Proof.Algebra.lean ====
import proofs.«121724_j32804960207226_2_alg».proof.Proof.Reals
import Idealize.ShloMosaic.PureOps.Ideal
import Idealize.ShloMosaic.PureOps.Ideal.Laws
import Mathlib.Algebra.BigOperators.Fin
import Mathlib.Data.EReal.Operations
import Mathlib.Data.Finset.Lattice.Fold

/-!
Extended-real identities: a product with a reciprocal is a quotient, a sum over `n + n` terms splits
in two halves, subtraction of a sum whose first term is real regroups, and a maximum of finitely many
reals is real.
-/

noncomputable section

namespace Cert.Sage

open Idealize.ShloMosaic

/-- Off zero the quotient is the product with the inverse, and the reciprocal is the inverse itself:
    `a · (1 / c) = a / c`. -/
theorem mul_one_div {a c : EReal} (hc : c ≠ 0) : a * Ideal.div 1 c = Ideal.div a c := by
  unfold Ideal.div
  rw [if_neg hc, if_neg hc, one_mul]

/-- `max x 1 ≥ 1 > 0`. -/
theorem max_one_ne_zero (x : EReal) : Max.max x 1 ≠ 0 :=
  (lt_of_lt_of_le zero_lt_one (le_max_right x 1)).ne'

/-- one entry of a layer as the kernel computes it: the neighbour sum scaled by the reciprocal count, through the left weights, plus the root row through the right weights, plus the bias -/
def kernelRow {n : ℕ} (a x : Fin n → EReal) (inv : EReal) (wl wr : Fin n → EReal) (b : EReal) : EReal :=
  ((∑ k, (a k * inv) * wl k) + ∑ k, x k * wr k) + b

/-- the same entry as the reference computes it: the mean by division, the bias added before the root term -/
def refRow {n : ℕ} (a x : Fin n → EReal) (c : EReal) (wl wr : Fin n → EReal) (b : EReal) : EReal :=
  ((∑ k, Ideal.div (a k) c * wl k) + b) + ∑ k, x k * wr k

/-- The two spellings of a layer's entry agree: term by term `a · (1 / c) = a / c`, and the bias and the
    root term commute past each other (addition on the extended reals is commutative and associative). -/
theorem kernelRow_eq_refRow {n : ℕ} (a x : Fin n → EReal) (c : EReal) (wl wr : Fin n → EReal) (b : EReal) (hc : c ≠ 0) :
    kernelRow a x (Ideal.div 1 c) wl wr b = refRow a x c wl wr b := by
  unfold kernelRow refRow
  simp only [mul_one_div hc]
  exact add_right_comm _ _ _

/-- A sum over `n + n` indices is the sum over the first `n` plus the sum over the last `n`. -/
theorem sum_fin_add {n : ℕ} (f : Fin (n + n) → EReal) :
    ∑ k, f k = (∑ k : Fin n, f (Fin.castAdd n k)) + ∑ k : Fin n, f (Fin.natAdd n k) :=
  Fin.sum_univ_add f

/-- `x − (m + L) = (x − m) − L` when `m` is real: then `−(m + L) = −m − L` whatever `L` is. -/
theorem lsm_regroup {x m L : EReal} (hm : IsReal m) : x - (m + L) = (x - m) - L := by
  obtain ⟨r, rfl⟩ := hm
  rw [sub_eq_add_neg, EReal.neg_add (Or.inl (EReal.coe_ne_bot r)) (Or.inl (EReal.coe_ne_top r)),
    sub_eq_add_neg, sub_eq_add_neg, sub_eq_add_neg, add_assoc]

/-- The f32 pattern `0xFF800000` denotes `−∞`. -/
theorem ofBits_neg_inf_f32 : Ideal.ofBits .f32 0xFF800000#32 = ⊥ := by
  simp [Ideal.ofBits, Ideal.ieee]

/-- The maximum of a nonempty finite family of reals, folded from `−∞`, is one of them, so it is real. -/
theorem fold_max_bot_real {n : ℕ} (f : Fin (n + 1) → EReal) (hf : ∀ k, IsReal (f k)) :
    IsReal ((Finset.univ : Finset (Fin (n + 1))).fold max ⊥ f) := by
  obtain ⟨i, -, hi⟩ := Finset.exists_mem_eq_sup (Finset.univ : Finset (Fin (n + 1))) Finset.univ_nonempty f
  have e : (Finset.univ : Finset (Fin (n + 1))).fold max ⊥ f = Finset.univ.sup f := rfl
  rw [e, hi]
  exact hf i

end Cert.Sage

end
-- ==== Proof.Body2.lean ====
/- Layer 2's kernel body read at an index, at the ideal values: each logit as sums over the contracted axis of
   products of the loaded entries, and each log-probability as the logit less the row's maximum and the logarithm of the
   row's sum of shifted exponentials. -/
import proofs.«121724_j32804960207226_2_alg».proof.Proof.Bodies
import proofs.«121724_j32804960207226_2_alg».proof.Proof.Algebra

noncomputable section

namespace Cert.KernelIdeal.Bodies

open Idealize.ShloMosaic Idealize.ShloMosaic.ValueIdx Cert.KernelIdeal Cert.KernelIdeal.Gen

/-! ## Layer 2: the logits -/

/-- Layer 2's contraction: [1024,256] × [256,47]. -/
abbrev d2 : DotDims S1024x256 S256x47 S1024x47 := dot_S1024x256_S256x47_S1024x47_1_0_0_1_n_n

theorem d2_l0 (i : S1024x47.Idx) (q : d2.contr.Idx) : (d2.lhsIdx i q 0).val = (i 0).val := by
  unfold DotDims.lhsIdx
  rw [dif_neg (show ¬(0 : Fin S1024x256.rank) ∈ d2.lhsBatch by decide), dif_pos (show (0 : Fin S1024x256.rank) ∈ d2.lhsNonContracting by decide)]
  rfl
theorem d2_l1 (i : S1024x47.Idx) (q : d2.contr.Idx) : (d2.lhsIdx i q 1).val = (q ⟨0, by decide⟩).val :=
  DotDims.lhsIdx_val_of_single d2 rfl i q
theorem d2_r0 (i : S1024x47.Idx) (q : d2.contr.Idx) : (d2.rhsIdx i q 0).val = (q ⟨0, by decide⟩).val :=
  DotDims.rhsIdx_val_of_single d2 rfl i q
theorem d2_r1 (i : S1024x47.Idx) (q : d2.contr.Idx) : (d2.rhsIdx i q 1).val = (i 1).val := by
  unfold DotDims.rhsIdx
  rw [dif_neg (show ¬(1 : Fin S256x47.rank) ∈ d2.rhsBatch by decide), dif_pos (show (1 : Fin S256x47.rank) ∈ d2.rhsNonContracting by decide)]
  rfl

/-- One entry of the logits layer 2's body stores. -/
theorem pay2h_apply (a : Vec Ideal S1024x256 .f32) (iv : Vec Ideal S1024x1 .f32) (x : Vec Ideal S1024x256 .f32)
    (wl wr : Vec Ideal S256x47 .bf16) (b : Vec Ideal S1x47 .f32) (p : Fin 1024) (q : Fin 47) :
    k2_pay1 (F := Ideal) a iv x wl wr b (ix2 p q)
      = ((∑ k : Fin 256, (a (ix2 p k) * iv (ix2 p 0)) * wl (ix2 k q)) + ∑ k : Fin 256, x (ix2 p k) * wr (ix2 k q)) + b (ix2 0 q) := by
  unfold k2_pay1
  simp only [shapeCast_self]
  rw [addf_apply, addf_apply]
  simp only [matmul]
  rw [Ideal.matmul_constant_zero_apply, Ideal.matmul_constant_zero_apply,
    plain_dot_sum d2 rfl rfl d2_l0 d2_l1 d2_r0 d2_r1, plain_dot_sum d2 rfl rfl d2_l0 d2_l1 d2_r0 d2_r1]
  have hb : broadcastTo S1024x47 b broadcasts_S1x47_S1024x47 (ix2 p q) = b (ix2 0 q) :=
    broadcastTo_apply b _ (ix2 p q) (ix2 0 q) (fun a => by match a with | ⟨0, _⟩ => rfl | ⟨1, _⟩ => rfl)
  have hiv : ∀ k : Fin 256, broadcastTo S1024x256 iv broadcasts_S1024x1_S1024x256 (ix2 p k) = iv (ix2 p 0) := fun k =>
    broadcastTo_apply iv _ (ix2 p k) (ix2 p 0) (fun a => by match a with | ⟨0, _⟩ => rfl | ⟨1, _⟩ => rfl)
  simp only [truncf_apply, mulf_apply, hb, hiv]

/-! ## Layer 2: the log-probabilities -/

/-- The maximum of row p of a [1024,47] block, folded from −∞. -/
def rowMax (h : FVec Ideal S1024x47 .f32) (p : Fin 1024) : EReal :=
  (Finset.univ : Finset (Fin 47)).fold max ⊥ (fun j => h (ix2 p j))

/-- The index over row p whose column is k, as the reduction along the columns inserts it. -/
theorem lift_row (p : Fin 1024) (k : Fin 47) : reduces_S1024x47_S1024.lift (ix1 p) k = ix2 p k :=
  funext fun c => Fin.ext (by match c with | ⟨0, _⟩ => rfl | ⟨1, _⟩ => rfl)

/-- The reduction by maximum along the columns from the pattern of −∞, read at row p: the row's maximum. -/
theorem rowmax_apply (h : FVec Ideal S1024x47 .f32) (p : Fin 1024) :
    multiReduction (F := Ideal) .maximumf [1] S1024 h 0xFF800000#32 reduces_S1024x47_S1024 (.inl rfl) rfl (ix1 p) = rowMax h p := by
  refine (Ideal.multiReduction_maximumf_single h 0xFF800000#32 reduces_S1024x47_S1024 (.inl rfl) rfl (ix1 p)).trans ?_
  have e : (h ∘ reduces_S1024x47_S1024.lift (ix1 p)) = fun j : Fin 47 => h (ix2 p j) :=
    funext fun j => congrArg h (lift_row p j)
  rw [e, Ideal.ofBits_def, Cert.Sage.ofBits_neg_inf_f32]
  rfl

/-- The reduction by sum along the columns, read at row p: the row's sum. -/
theorem rowsum_apply (g : FVec Ideal S1024x47 .f32) (p : Fin 1024) :
    multiReduction (F := Ideal) .add [1] S1024 g 0x00000000#32 reduces_S1024x47_S1024 (.inl rfl) rfl (ix1 p) = ∑ j : Fin 47, g (ix2 p j) := by
  refine (Ideal.multiReduction_add_single g 0x00000000#32 reduces_S1024x47_S1024 (.inl rfl) rfl (ix1 p)).trans ?_
  exact Finset.sum_congr rfl fun j _ => congrArg g (lift_row p j)

/-- A [1024] vector recast as a [1024,1] column, read at (p, 0): the vector at p. -/
theorem col_apply {α : Type} (v : S1024.Idx → α) (p : Fin 1024) :
    shapeCast S1024x1 v shapeCasts_S1024_S1024x1 (ix2 p 0) = v (ix1 p) :=
  shapeCast_apply v _ (ix2 p 0) (ix1 p) (by
    rw [Shape.rowMajor_val_one, Shape.rowMajor_val_two]; show p.val = p.val * 1 + 0; omega)

/-- A [1024,1] column broadcast along the columns, read at (p, q): the column at (p, 0). -/
theorem bcast_col_apply {α : Type} (c : S1024x1.Idx → α) (p : Fin 1024) (q : Fin 47) :
    broadcastTo S1024x47 c broadcasts_S1024x1_S1024x47 (ix2 p q) = c (ix2 p 0) :=
  broadcastTo_apply c _ (ix2 p q) (ix2 p 0) (fun a => by match a with | ⟨0, _⟩ => rfl | ⟨1, _⟩ => rfl)

/-- The log-softmax tail of layer 2's body over an arbitrary block of logits h, read at (p, q): the logit less the
    row's maximum plus the logarithm of the row's sum of exponentials of the logits less that maximum. -/
theorem lsm_tail_apply (h : FVec Ideal S1024x47 .f32) (p : Fin 1024) (q : Fin 47) :
    subf h (broadcastTo S1024x47
        (addf (shapeCast S1024x1 (multiReduction (F := Ideal) .maximumf [1] S1024 h 0xFF800000#32 reduces_S1024x47_S1024 (.inl rfl) rfl) shapeCasts_S1024_S1024x1)
          (log (shapeCast S1024x1 (multiReduction (F := Ideal) .add [1] S1024
              (exp (subf h (broadcastTo S1024x47 (shapeCast S1024x1 (multiReduction (F := Ideal) .maximumf [1] S1024 h 0xFF800000#32 reduces_S1024x47_S1024 (.inl rfl) rfl) shapeCasts_S1024_S1024x1) broadcasts_S1024x1_S1024x47)))
              0x00000000#32 reduces_S1024x47_S1024 (.inl rfl) rfl) shapeCasts_S1024_S1024x1)))
        broadcasts_S1024x1_S1024x47) (ix2 p q)
      = h (ix2 p q) - (rowMax h p + Ideal.log (∑ j : Fin 47, Ideal.exp (h (ix2 p j) - rowMax h p))) := by
  rw [subf_apply, bcast_col_apply, addf_apply, col_apply, rowmax_apply]
  show h (ix2 p q) - (rowMax h p + Ideal.log (shapeCast S1024x1 _ shapeCasts_S1024_S1024x1 (ix2 p 0))) = _
  rw [col_apply, rowsum_apply]
  refine congrArg (fun s => h (ix2 p q) - (rowMax h p + Ideal.log s)) (Finset.sum_congr rfl fun j _ => ?_)
  show Ideal.exp (subf h _ (ix2 p j)) = _
  rw [subf_apply, bcast_col_apply, col_apply, rowmax_apply]

/-- One entry of the log-probabilities layer 2's body stores, over the logits it stores. -/
theorem pay2l_apply (a : Vec Ideal S1024x256 .f32) (iv : Vec Ideal S1024x1 .f32) (x : Vec Ideal S1024x256 .f32)
    (wl wr : Vec Ideal S256x47 .bf16) (b : Vec Ideal S1x47 .f32) (p : Fin 1024) (q : Fin 47) :
    k2_pay2 (F := Ideal) a iv x wl wr b (ix2 p q)
      = k2_pay1 (F := Ideal) a iv x wl wr b (ix2 p q)
        - ((Finset.univ : Finset (Fin 47)).fold max ⊥ (fun j => k2_pay1 (F := Ideal) a iv x wl wr b (ix2 p j))
           + Ideal.log (∑ j : Fin 47, Ideal.exp (k2_pay1 (F := Ideal) a iv x wl wr b (ix2 p j)
               - (Finset.univ : Finset (Fin 47)).fold max ⊥ (fun j' => k2_pay1 (F := Ideal) a iv x wl wr b (ix2 p j'))))) :=
  lsm_tail_apply (k2_pay1 (F := Ideal) a iv x wl wr b) p q

end Cert.KernelIdeal.Bodies

end
-- ==== Proof.KernelLayers.lean ====
/- The kernel's three layers fed what its host code hands them, read at an entry: each is the row form `kernelRow` of the
   rows of its arguments — the neighbour sums scaled by the reciprocal of the count, through the left weights, plus the root
   row through the right weights, plus the bias — clamped below at zero in the first two layers; the last layer's
   log-probabilities are its logits less the row's maximum and the logarithm of the row's sum of shifted exponentials. -/
import proofs.«121724_j32804960207226_2_alg».proof.Proof.Region0
import proofs.«121724_j32804960207226_2_alg».proof.Proof.Region1
import proofs.«121724_j32804960207226_2_alg».proof.Proof.Region2
import proofs.«121724_j32804960207226_2_alg».proof.Proof.Body2
import proofs.«121724_j32804960207226_2_alg».proof.Proof.HostTerms
import proofs.«121724_j32804960207226_2_alg».proof.Proof.Algebra
import Idealize.ShloMosaic.Lib.IdealHost
import Idealize.ShloMosaic.Lib.ValueLayout

noncomputable section

namespace Cert.KernelIdeal.KernelLayers

open Idealize.ShloMosaic Idealize.ShloMosaic.ValueIdx Cert.KernelIdeal Cert.KernelIdeal.HostTerms Cert.Sage

/-! ## The host terms at an entry -/

/-- An [n] vector recast as an [n,1] column, read at (r, 0): the vector at r. -/
theorem col_cast_apply {n : ℕ} {α : Type} (v : (⟨1, ![n]⟩ : Shape).Idx → α)
    (h : (⟨1, ![n]⟩ : Shape).ShapeCasts ⟨2, ![n, 1]⟩) (r : Fin n) :
    shapeCast ⟨2, ![n, 1]⟩ v h (ix2 r 0) = v (ix1 r) :=
  shapeCast_apply v h (ix2 r 0) (ix1 r) (by
    rw [Shape.rowMajor_val_one, Shape.rowMajor_val_two]; show r.val = r.val * 1 + 0; omega)

/-- The column of reciprocals the host code forms — the constant 1 broadcast, divided by the counts entry by entry, recast
    as a column — read at (r, 0): the reciprocal of the count of row r. -/
theorem inv_apply {n : ℕ} (cm : (⟨1, ![n]⟩ : Shape).Idx → EReal) (hb : (⟨0, ![]⟩ : Shape).BroadcastsInDim ⟨1, ![n]⟩ ![])
    (hc : (⟨1, ![n]⟩ : Shape).ShapeCasts ⟨2, ![n, 1]⟩) (r : Fin n) :
    shapeCast ⟨2, ![n, 1]⟩
        (Host.divf (F := Ideal) (φ := .f32) (broadcastInDim ⟨1, ![n]⟩ ![] hb (constant (F := Ideal) ⟨0, ![]⟩ .f32 0x3F800000#32)) cm) hc (ix2 r 0)
      = Ideal.div 1 (cm (ix1 r)) := by
  rw [col_cast_apply, hostDivf_apply, broadcastInDim_scalar_apply, constant_apply, Ideal.ofBits_one_f32]

theorem inv0_apply (CM : S102400.Idx → EReal) (r : Fin 102400) : inv0 (F := Ideal) CM (ix2 r 0) = Ideal.div 1 (CM (ix1 r)) :=
  inv_apply CM _ _ r
theorem inv1_apply (CM : S10240.Idx → EReal) (r : Fin 10240) : inv1 (F := Ideal) CM (ix2 r 0) = Ideal.div 1 (CM (ix1 r)) :=
  inv_apply CM _ _ r
theorem inv2_apply (CM : S1024.Idx → EReal) (r : Fin 1024) : inv2 (F := Ideal) CM (ix2 r 0) = Ideal.div 1 (CM (ix1 r)) :=
  inv_apply CM _ _ r

/-- A weight matrix in the narrow format is, on extended reals, the matrix. -/
theorem narrow_apply {s : Shape} (w : s.Idx → EReal) (i : s.Idx) : narrow (F := Ideal) w i = w i := rfl

/-- The bias vector as a row, read at (0, q): the vector at q. -/
theorem biasRow256_apply (b : S256.Idx → EReal) (q : Fin 256) : biasRow256 (F := Ideal) b (ix2 0 q) = b (ix1 q) :=
  shapeCast_a_1a_apply b _ 0 q
theorem biasRow47_apply (b : S47.Idx → EReal) (q : Fin 47) : biasRow47 (F := Ideal) b (ix2 0 q) = b (ix1 q) :=
  shapeCast_a_1a_apply b _ 0 q

/-- The stacked weight in its first 128 rows: the left weight. -/
theorem wstack_upper (wl wr : S128x256.Idx → EReal) (k : Fin 128) (q : Fin 256) :
    wstack (F := Ideal) wl wr (ix2 (Fin.castAdd 128 k) q) = wl (ix2 k q) :=
  concatenate_pair_apply_left (t := S256x256) 0 wl wr Gen.concatenates_S128x256_S128x256_S256x256_d0
    (ix2 (Fin.castAdd 128 k) q) rfl (ix2 k q)
    (fun b => by match b with | ⟨0, _⟩ => rfl | ⟨1, _⟩ => rfl)

/-- … and in its last 128 rows: the right weight, the row 128 less. -/
theorem wstack_lower (wl wr : S128x256.Idx → EReal) (k : Fin 128) (q : Fin 256) :
    wstack (F := Ideal) wl wr (ix2 (Fin.natAdd 128 k) q) = wr (ix2 k q) :=
  concatenate_pair_apply_right (t := S256x256) 0 wl wr Gen.concatenates_S128x256_S128x256_S256x256_d0
    (ix2 (Fin.natAdd 128 k) q) rfl rfl (ix2 k q)
    (fun b hb => by match b with | ⟨0, _⟩ => exact absurd rfl hb | ⟨1, _⟩ => rfl)
    (by show k.val + 128 = 128 + k.val; omega)

/-! ## The layers at an entry -/

/-- An entry of the first layer on the host's terms. -/
theorem layer0_row (A X : S102400x128.Idx → EReal) (CM : S102400.Idx → EReal) (wl wr : S128x256.Idx → EReal) (b : S256.Idx → EReal) (r : Fin 102400) (q : Fin 256) :
    Region0.layer A X (inv0 (F := Ideal) CM) (wstack (F := Ideal) wl wr) (biasRow256 (F := Ideal) b) (ix2 r q)
      = max (kernelRow (fun k : Fin 128 => A (ix2 r k)) (fun k : Fin 128 => X (ix2 r k)) (Ideal.div 1 (CM (ix1 r)))
               (fun k => wl (ix2 k q)) (fun k => wr (ix2 k q)) (b (ix1 q))) (Ideal.ofBits .f32 0x00000000#32) := by
  show Region0.layerEntry A X (inv0 (F := Ideal) CM) (wstack (F := Ideal) wl wr) (biasRow256 (F := Ideal) b) r q = _
  unfold Region0.layerEntry kernelRow
  simp only [inv0_apply, wstack_upper, wstack_lower, biasRow256_apply]

/-- An entry of the second layer on the host's terms. -/
theorem layer1_row (A X : S10240x256.Idx → EReal) (CM : S10240.Idx → EReal) (wl : S256x256.Idx → EReal) (b : S256.Idx → EReal) (wr : S256x256.Idx → EReal) (r : Fin 10240) (q : Fin 256) :
    Region1.layer A X (inv1 (F := Ideal) CM) (narrow (F := Ideal) wl) (biasRow256 (F := Ideal) b) (narrow (F := Ideal) wr) (ix2 r q)
      = max (kernelRow (fun k : Fin 256 => A (ix2 r k)) (fun k : Fin 256 => X (ix2 r k)) (Ideal.div 1 (CM (ix1 r)))
               (fun k => wl (ix2 k q)) (fun k => wr (ix2 k q)) (b (ix1 q))) (Ideal.ofBits .f32 0x00000000#32) := by
  show Region1.layerEntry A X (inv1 (F := Ideal) CM) (narrow (F := Ideal) wl) (biasRow256 (F := Ideal) b) (narrow (F := Ideal) wr) r q = _
  unfold Region1.layerEntry kernelRow
  simp only [inv1_apply, narrow_apply, biasRow256_apply]

/-- An entry of the last layer's logits on the host's terms. -/
theorem logits_row (A X : S1024x256.Idx → EReal) (CM : S1024.Idx → EReal) (wl : S256x47.Idx → EReal) (b : S47.Idx → EReal) (wr : S256x47.Idx → EReal) (r : Fin 1024) (q : Fin 47) :
    Region2.logits A X (inv2 (F := Ideal) CM) (narrow (F := Ideal) wl) (biasRow47 (F := Ideal) b) (narrow (F := Ideal) wr) (ix2 r q)
      = kernelRow (fun k : Fin 256 => A (ix2 r k)) (fun k : Fin 256 => X (ix2 r k)) (Ideal.div 1 (CM (ix1 r)))
               (fun k => wl (ix2 k q)) (fun k => wr (ix2 k q)) (b (ix1 q)) := by
  unfold Region2.logits kernelRow
  rw [Bodies.pay2h_apply]
  simp only [inv2_apply, narrow_apply, biasRow47_apply]

/-- An entry of the last layer's log-probabilities: the logit less the row's maximum and the logarithm of the row's sum
    of the exponentials of the logits less that maximum. -/
theorem logprobs_row (A X : S1024x256.Idx → EReal) (CM : S1024.Idx → EReal) (wl : S256x47.Idx → EReal) (b : S47.Idx → EReal) (wr : S256x47.Idx → EReal) (r : Fin 1024) (q : Fin 47) :
    Region2.logprobs A X (inv2 (F := Ideal) CM) (narrow (F := Ideal) wl) (biasRow47 (F := Ideal) b) (narrow (F := Ideal) wr) (ix2 r q)
      = Region2.logits A X (inv2 (F := Ideal) CM) (narrow (F := Ideal) wl) (biasRow47 (F := Ideal) b) (narrow (F := Ideal) wr) (ix2 r q)
        - ((Finset.univ : Finset (Fin 47)).fold max ⊥ (fun j => Region2.logits A X (inv2 (F := Ideal) CM) (narrow (F := Ideal) wl) (biasRow47 (F := Ideal) b) (narrow (F := Ideal) wr) (ix2 r j))
           + Ideal.log (∑ j : Fin 47, Ideal.exp (Region2.logits A X (inv2 (F := Ideal) CM) (narrow (F := Ideal) wl) (biasRow47 (F := Ideal) b) (narrow (F := Ideal) wr) (ix2 r j)
               - (Finset.univ : Finset (Fin 47)).fold max ⊥ (fun j' => Region2.logits A X (inv2 (F := Ideal) CM) (narrow (F := Ideal) wl) (biasRow47 (F := Ideal) b) (narrow (F := Ideal) wr) (ix2 r j'))))) :=
  Bodies.pay2l_apply A (inv2 (F := Ideal) CM) X (narrow (F := Ideal) wl) (narrow (F := Ideal) wr) (biasRow47 (F := Ideal) b) r q

end Cert.KernelIdeal.KernelLayers

end
-- ==== Proof.RefLayers.lean ====
import proofs.«121724_j32804960207226_2_alg».proof.Proof.RefReadP
import proofs.«121724_j32804960207226_2_alg».proof.Proof.Algebra
import Idealize.ShloMosaic.Lib.ValueIdx
import Idealize.ShloMosaic.Lib.IdealHost
import Idealize.ShloMosaic.PureOps.Reduce

/-!
The reference's layers read at an entry.

Each layer's output at row r, column q is one `refRow`: the sum over k of (the scatter-added neighbour sum at
(r, k) divided by the clamped count of row r) times the left weight at (k, q), plus the bias at q, plus the sum
over k of the root row's entry at (r, k) times the right weight at (k, q); after the first two layers, the
maximum of that with zero. The clamped count is a maximum with one, so it is never zero. The second result is
the log-softmax of the third layer's output along each row: the entry minus the row's maximum, minus the
logarithm of the sum over the row of the exponentials of the entries minus that maximum.
-/

noncomputable section

namespace Cert.Sage

open Idealize.ShloMosaic Idealize.ShloMosaic.ValueIdx Cert.ReferenceIdeal Cert.ReferenceIdeal.ReadP

/-- The first layer's output at row r, column q. -/
theorem ref_layer0_apply (x0 : (⟨S1024000x128, .f32⟩ : BufTy).Contents (Elt Ideal)) (x1 x2 : (⟨S1024000, .i32⟩ : BufTy).Contents (Elt Ideal)) (x7 : (⟨S128x256, .f32⟩ : BufTy).Contents (Elt Ideal)) (x8 : (⟨S256, .f32⟩ : BufTy).Contents (Elt Ideal)) (x9 : (⟨S128x256, .f32⟩ : BufTy).Contents (Elt Ideal))
    (r : Fin 102400) (q : Fin 256) :
    val_main_v26 (F := Ideal) x0 x1 x2 x7 x8 x9 (ix2 r q)
      = max (refRow (fun k : Fin 128 => val_main_v10 (F := Ideal) x0 x1 x2 (ix2 r k)) (fun k : Fin 128 => val_main_v0 (F := Ideal) x0 (ix2 r k))
        (val_main_v16 (F := Ideal) x2 (ix1 r)) (fun k => x7 (ix2 k q)) (fun k => x9 (ix2 k q)) (x8 (ix1 q)))
        (Ideal.ofBits .f32 0x00000000#32) := by
  rw [val_main_v26_apply, val_main_call0_v0_apply, val_main_call0_cst_apply, val_main_v25_apply, val_main_v23_apply, val_main_v20_apply, val_main_v22_apply, val_main_v21_apply, val_main_v24_apply]
  simp only [Ideal.maximumf_def, Ideal.addf_def, Ideal.ofBits_def]
  unfold refRow
  refine congrArg₂ max (congrArg₂ (· + ·) (congrArg₂ (· + ·) (Finset.sum_congr rfl fun k _ => ?_) ?_) (Finset.sum_congr rfl fun k _ => ?_)) rfl
  · -- a term of the neighbour sum: the mean's entry in row r, column k, times the weight's in row k, column q
    have el : lidx_main_v20 (ix2 r q) k = ix2 r k := funext fun a => Fin.ext (by match a with | ⟨0, _⟩ => rfl | ⟨1, _⟩ => rfl)
    have er : ridx_main_v20 (ix2 r q) k = ix2 k q := funext fun a => Fin.ext (by match a with | ⟨0, _⟩ => rfl | ⟨1, _⟩ => rfl)
    have ec : idx_main_v17 (idx_main_v18 (ix2 r k)) = ix1 r := funext fun a => Fin.ext (by match a with | ⟨0, _⟩ => rfl)
    rw [el, er, val_main_v19_apply, val_main_v18_apply, val_main_v17_apply, ec]
    rfl
  · -- the bias, read at column q
    exact congrArg x8 (funext fun a => Fin.ext (by match a with | ⟨0, _⟩ => rfl))
  · -- a term of the root sum
    have el : lidx_main_v24 (ix2 r q) k = ix2 r k := funext fun a => Fin.ext (by match a with | ⟨0, _⟩ => rfl | ⟨1, _⟩ => rfl)
    have er : ridx_main_v24 (ix2 r q) k = ix2 k q := funext fun a => Fin.ext (by match a with | ⟨0, _⟩ => rfl | ⟨1, _⟩ => rfl)
    rw [el, er]

/-- The second layer's output at row r, column q. -/
theorem ref_layer1_apply (x0 : (⟨S1024000x128, .f32⟩ : BufTy).Contents (Elt Ideal)) (x1 x2 : (⟨S1024000, .i32⟩ : BufTy).Contents (Elt Ideal)) (x3 x4 : (⟨S102400, .i32⟩ : BufTy).Contents (Elt Ideal)) (x7 : (⟨S128x256, .f32⟩ : BufTy).Contents (Elt Ideal)) (x8 : (⟨S256, .f32⟩ : BufTy).Contents (Elt Ideal)) (x9 : (⟨S128x256, .f32⟩ : BufTy).Contents (Elt Ideal)) (x10 : (⟨S256x256, .f32⟩ : BufTy).Contents (Elt Ideal)) (x11 : (⟨S256, .f32⟩ : BufTy).Contents (Elt Ideal)) (x12 : (⟨S256x256, .f32⟩ : BufTy).Contents (Elt Ideal))
    (r : Fin 10240) (q : Fin 256) :
    val_main_v53 (F := Ideal) x0 x1 x2 x3 x4 x7 x8 x9 x10 x11 x12 (ix2 r q)
      = max (refRow (fun k : Fin 256 => val_main_v37 (F := Ideal) x0 x1 x2 x3 x4 x7 x8 x9 (ix2 r k)) (fun k : Fin 256 => val_main_v27 (F := Ideal) x0 x1 x2 x7 x8 x9 (ix2 r k))
        (val_main_v43 (F := Ideal) x4 (ix1 r)) (fun k => x10 (ix2 k q)) (fun k => x12 (ix2 k q)) (x11 (ix1 q)))
        (Ideal.ofBits .f32 0x00000000#32) := by
  rw [val_main_v53_apply, val_main_call1_v0_apply, val_main_call1_cst_apply, val_main_v52_apply, val_main_v50_apply, val_main_v47_apply, val_main_v49_apply, val_main_v48_apply, val_main_v51_apply]
  simp only [Ideal.maximumf_def, Ideal.addf_def, Ideal.ofBits_def]
  unfold refRow
  refine congrArg₂ max (congrArg₂ (· + ·) (congrArg₂ (· + ·) (Finset.sum_congr rfl fun k _ => ?_) ?_) (Finset.sum_congr rfl fun k _ => ?_)) rfl
  · -- a term of the neighbour sum: the mean's entry in row r, column k, times the weight's in row k, column q
    have el : lidx_main_v47 (ix2 r q) k = ix2 r k := funext fun a => Fin.ext (by match a with | ⟨0, _⟩ => rfl | ⟨1, _⟩ => rfl)
    have er : ridx_main_v47 (ix2 r q) k = ix2 k q := funext fun a => Fin.ext (by match a with | ⟨0, _⟩ => rfl | ⟨1, _⟩ => rfl)
    have ec : idx_main_v44 (idx_main_v45 (ix2 r k)) = ix1 r := funext fun a => Fin.ext (by match a with | ⟨0, _⟩ => rfl)
    rw [el, er, val_main_v46_apply, val_main_v45_apply, val_main_v44_apply, ec]
    rfl
  · -- the bias, read at column q
    exact congrArg x11 (funext fun a => Fin.ext (by match a with | ⟨0, _⟩ => rfl))
  · -- a term of the root sum
    have el : lidx_main_v51 (ix2 r q) k = ix2 r k := funext fun a => Fin.ext (by match a with | ⟨0, _⟩ => rfl | ⟨1, _⟩ => rfl)
    have er : ridx_main_v51 (ix2 r q) k = ix2 k q := funext fun a => Fin.ext (by match a with | ⟨0, _⟩ => rfl | ⟨1, _⟩ => rfl)
    rw [el, er]

/-- The third layer's output, the array the softmax is taken of, at row r, column q. -/
theorem ref_layer2_apply (x0 : (⟨S1024000x128, .f32⟩ : BufTy).Contents (Elt Ideal)) (x1 x2 : (⟨S1024000, .i32⟩ : BufTy).Contents (Elt Ideal)) (x3 x4 : (⟨S102400, .i32⟩ : BufTy).Contents (Elt Ideal)) (x5 x6 : (⟨S10240, .i32⟩ : BufTy).Contents (Elt Ideal)) (x7 : (⟨S128x256, .f32⟩ : BufTy).Contents (Elt Ideal)) (x8 : (⟨S256, .f32⟩ : BufTy).Contents (Elt Ideal)) (x9 : (⟨S128x256, .f32⟩ : BufTy).Contents (Elt Ideal)) (x10 : (⟨S256x256, .f32⟩ : BufTy).Contents (Elt Ideal)) (x11 : (⟨S256, .f32⟩ : BufTy).Contents (Elt Ideal)) (x12 : (⟨S256x256, .f32⟩ : BufTy).Contents (Elt Ideal)) (x13 : (⟨S256x47, .f32⟩ : BufTy).Contents (Elt Ideal)) (x14 : (⟨S47, .f32⟩ : BufTy).Contents (Elt Ideal)) (x15 : (⟨S256x47, .f32⟩ : BufTy).Contents (Elt Ideal))
    (r : Fin 1024) (q : Fin 47) :
    val_main_v79 (F := Ideal) x0 x1 x2 x3 x4 x5 x6 x7 x8 x9 x10 x11 x12 x13 x14 x15 (ix2 r q)
      = refRow (fun k : Fin 256 => val_main_v64 (F := Ideal) x0 x1 x2 x3 x4 x5 x6 x7 x8 x9 x10 x11 x12 (ix2 r k)) (fun k : Fin 256 => val_main_v54 (F := Ideal) x0 x1 x2 x3 x4 x7 x8 x9 x10 x11 x12 (ix2 r k))
        (val_main_v70 (F := Ideal) x6 (ix1 r)) (fun k => x13 (ix2 k q)) (fun k => x15 (ix2 k q)) (x14 (ix1 q)) := by
  rw [val_main_v79_apply, val_main_v77_apply, val_main_v74_apply, val_main_v76_apply, val_main_v75_apply, val_main_v78_apply]
  simp only [Ideal.maximumf_def, Ideal.addf_def, Ideal.ofBits_def]
  unfold refRow
  refine (congrArg₂ (· + ·) (congrArg₂ (· + ·) (Finset.sum_congr rfl fun k _ => ?_) ?_) (Finset.sum_congr rfl fun k _ => ?_))
  · -- a term of the neighbour sum: the mean's entry in row r, column k, times the weight's in row k, column q
    have el : lidx_main_v74 (ix2 r q) k = ix2 r k := funext fun a => Fin.ext (by match a with | ⟨0, _⟩ => rfl | ⟨1, _⟩ => rfl)
    have er : ridx_main_v74 (ix2 r q) k = ix2 k q := funext fun a => Fin.ext (by match a with | ⟨0, _⟩ => rfl | ⟨1, _⟩ => rfl)
    have ec : idx_main_v71 (idx_main_v72 (ix2 r k)) = ix1 r := funext fun a => Fin.ext (by match a with | ⟨0, _⟩ => rfl)
    rw [el, er, val_main_v73_apply, val_main_v72_apply, val_main_v71_apply, ec]
    rfl
  · -- the bias, read at column q
    exact congrArg x14 (funext fun a => Fin.ext (by match a with | ⟨0, _⟩ => rfl))
  · -- a term of the root sum
    have el : lidx_main_v78 (ix2 r q) k = ix2 r k := funext fun a => Fin.ext (by match a with | ⟨0, _⟩ => rfl | ⟨1, _⟩ => rfl)
    have er : ridx_main_v78 (ix2 r q) k = ix2 k q := funext fun a => Fin.ext (by match a with | ⟨0, _⟩ => rfl | ⟨1, _⟩ => rfl)
    rw [el, er]

/-- The first layer's divisor, the maximum of the edge count and one, is not zero. -/
theorem ref_cmax0_ne_zero (x2 : (⟨S1024000, .i32⟩ : BufTy).Contents (Elt Ideal)) (i : S102400.Idx) :
    val_main_v16 (F := Ideal) x2 i ≠ 0 := by
  rw [val_main_v16_apply, val_main_v15_apply, val_main_cst_3_apply, Ideal.maximumf_def, Ideal.ofBits_def, Ideal.ofBits_one_f32]
  exact max_one_ne_zero _

/-- The second layer's divisor is not zero. -/
theorem ref_cmax1_ne_zero (x4 : (⟨S102400, .i32⟩ : BufTy).Contents (Elt Ideal)) (i : S10240.Idx) :
    val_main_v43 (F := Ideal) x4 i ≠ 0 := by
  rw [val_main_v43_apply, val_main_v42_apply, val_main_cst_9_apply, Ideal.maximumf_def, Ideal.ofBits_def, Ideal.ofBits_one_f32]
  exact max_one_ne_zero _

/-- The third layer's divisor is not zero. -/
theorem ref_cmax2_ne_zero (x6 : (⟨S10240, .i32⟩ : BufTy).Contents (Elt Ideal)) (i : S1024.Idx) :
    val_main_v70 (F := Ideal) x6 i ≠ 0 := by
  rw [val_main_v70_apply, val_main_v69_apply, val_main_cst_15_apply, Ideal.maximumf_def, Ideal.ofBits_def, Ideal.ofBits_one_f32]
  exact max_one_ne_zero _

/-! ### The log-softmax stage -/

/-- A row index with a column put back on the reduced axis is the pair (row, column). -/
theorem lift_ix1_col {m n : Nat} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c
  apply Fin.ext
  match c with
  | ⟨0, _⟩ => rfl
  | ⟨1, _⟩ => rfl

/-- From −∞ a reduction with a maximum body along the rows of a matrix is, at row p, the maximum of that row's
    entries folded from −∞. -/
theorem hostReduce_max_row {m n : Nat} (x : FVec Ideal ⟨2, ![m, n]⟩ .f32)
    (h' : (⟨2, ![m, n]⟩ : Shape).ReducesTo [1] (⟨1, ![m]⟩ : Shape)) (h : (⟨2, ![m, n]⟩ : Shape).Reduces [1] (⟨1, ![m]⟩ : Shape))
    (hu : 0 < (⟨0, ![]⟩ : Shape).numel) (p : Fin m) :
    Host.reduce FloatOps.maximumf x (constant (F := Ideal) (⟨0, ![]⟩ : Shape) .f32 0xFF800000#32) h' hu (ix1 p)
      = (Finset.univ : Finset (Fin n)).fold max ⊥ (fun j => x (ix2 p j)) := by
  rw [Host.reduce_eq_fold_single FloatOps.maximumf x _ h' h hu]
  show (Finset.univ : Finset (Fin n)).fold max (Ideal.ofBits .f32 0xFF800000#32) (fun j : Fin n => x (h.lift (ix1 p) j)) = _
  rw [ofBits_neg_inf_f32]
  exact congrArg (fun f => Finset.fold max ⊥ f (Finset.univ : Finset (Fin n))) (funext fun j => congrArg x (lift_ix1_col h p j))

/-- The reference's row maximum, the maximum of −∞ and the reduction from −∞, is the row's maximum folded from −∞. -/
theorem ref_rowmax_apply (x0 : (⟨S1024000x128, .f32⟩ : BufTy).Contents (Elt Ideal)) (x1 x2 : (⟨S1024000, .i32⟩ : BufTy).Contents (Elt Ideal)) (x3 x4 : (⟨S102400, .i32⟩ : BufTy).Contents (Elt Ideal)) (x5 x6 : (⟨S10240, .i32⟩ : BufTy).Contents (Elt Ideal)) (x7 : (⟨S128x256, .f32⟩ : BufTy).Contents (Elt Ideal)) (x8 : (⟨S256, .f32⟩ : BufTy).Contents (Elt Ideal)) (x9 : (⟨S128x256, .f32⟩ : BufTy).Contents (Elt Ideal)) (x10 : (⟨S256x256, .f32⟩ : BufTy).Contents (Elt Ideal)) (x11 : (⟨S256, .f32⟩ : BufTy).Contents (Elt Ideal)) (x12 : (⟨S256x256, .f32⟩ : BufTy).Contents (Elt Ideal)) (x13 : (⟨S256x47, .f32⟩ : BufTy).Contents (Elt Ideal)) (x14 : (⟨S47, .f32⟩ : BufTy).Contents (Elt Ideal)) (x15 : (⟨S256x47, .f32⟩ : BufTy).Contents (Elt Ideal))
    (p : Fin 1024) :
    val_main_call2_v2 (F := Ideal) x0 x1 x2 x3 x4 x5 x6 x7 x8 x9 x10 x11 x12 x13 x14 x15 (ix1 p)
      = (Finset.univ : Finset (Fin 47)).fold max ⊥ (fun j => val_main_v79 (F := Ideal) x0 x1 x2 x3 x4 x5 x6 x7 x8 x9 x10 x11 x12 x13 x14 x15 (ix2 p j)) := by
  rw [val_main_call2_v2_apply, val_main_call2_v1_apply, val_main_call2_cst_0_apply, Ideal.maximumf_def, Ideal.ofBits_def,
    ofBits_neg_inf_f32, max_bot_left]
  unfold val_main_call2_v0 val_main_call2_cst
  exact hostReduce_max_row (val_main_v79 (F := Ideal) x0 x1 x2 x3 x4 x5 x6 x7 x8 x9 x10 x11 x12 x13 x14 x15) Cert.ReferenceIdeal.Gen.reducesTo_S1024x47_S1024_d1 (by decide) Cert.ReferenceIdeal.Gen.h_S_ p

/-- The second result, the log-softmax of the third layer's output, at row p, column q. -/
theorem ref_logprob_apply (x0 : (⟨S1024000x128, .f32⟩ : BufTy).Contents (Elt Ideal)) (x1 x2 : (⟨S1024000, .i32⟩ : BufTy).Contents (Elt Ideal)) (x3 x4 : (⟨S102400, .i32⟩ : BufTy).Contents (Elt Ideal)) (x5 x6 : (⟨S10240, .i32⟩ : BufTy).Contents (Elt Ideal)) (x7 : (⟨S128x256, .f32⟩ : BufTy).Contents (Elt Ideal)) (x8 : (⟨S256, .f32⟩ : BufTy).Contents (Elt Ideal)) (x9 : (⟨S128x256, .f32⟩ : BufTy).Contents (Elt Ideal)) (x10 : (⟨S256x256, .f32⟩ : BufTy).Contents (Elt Ideal)) (x11 : (⟨S256, .f32⟩ : BufTy).Contents (Elt Ideal)) (x12 : (⟨S256x256, .f32⟩ : BufTy).Contents (Elt Ideal)) (x13 : (⟨S256x47, .f32⟩ : BufTy).Contents (Elt Ideal)) (x14 : (⟨S47, .f32⟩ : BufTy).Contents (Elt Ideal)) (x15 : (⟨S256x47, .f32⟩ : BufTy).Contents (Elt Ideal))
    (p : Fin 1024) (q : Fin 47) :
    val_main_v80 (F := Ideal) x0 x1 x2 x3 x4 x5 x6 x7 x8 x9 x10 x11 x12 x13 x14 x15 (ix2 p q)
      = (val_main_v79 (F := Ideal) x0 x1 x2 x3 x4 x5 x6 x7 x8 x9 x10 x11 x12 x13 x14 x15 (ix2 p q)
          - (Finset.univ : Finset (Fin 47)).fold max ⊥ (fun j => val_main_v79 (F := Ideal) x0 x1 x2 x3 x4 x5 x6 x7 x8 x9 x10 x11 x12 x13 x14 x15 (ix2 p j)))
        - Ideal.log (∑ j : Fin 47, Ideal.exp (val_main_v79 (F := Ideal) x0 x1 x2 x3 x4 x5 x6 x7 x8 x9 x10 x11 x12 x13 x14 x15 (ix2 p j)
            - (Finset.univ : Finset (Fin 47)).fold max ⊥ (fun j' => val_main_v79 (F := Ideal) x0 x1 x2 x3 x4 x5 x6 x7 x8 x9 x10 x11 x12 x13 x14 x15 (ix2 p j')))) := by
  -- an entry minus its row's maximum
  have hsub : ∀ j : Fin 47, val_main_call2_v5 (F := Ideal) x0 x1 x2 x3 x4 x5 x6 x7 x8 x9 x10 x11 x12 x13 x14 x15 (ix2 p j)
      = val_main_v79 (F := Ideal) x0 x1 x2 x3 x4 x5 x6 x7 x8 x9 x10 x11 x12 x13 x14 x15 (ix2 p j) - (Finset.univ : Finset (Fin 47)).fold max ⊥ (fun j' => val_main_v79 (F := Ideal) x0 x1 x2 x3 x4 x5 x6 x7 x8 x9 x10 x11 x12 x13 x14 x15 (ix2 p j')) := by
    intro j
    have e : idx_main_call2_v3 (idx_main_call2_v4 (ix2 p j)) = ix1 p := funext fun a => Fin.ext (by match a with | ⟨0, _⟩ => rfl)
    rw [val_main_call2_v5_apply, val_main_call2_v4_apply, val_main_call2_v3_apply, e, ref_rowmax_apply, Ideal.subf_def]
  rw [val_main_v80_apply, val_main_call2_v10_apply, val_main_call2_v9_apply, val_main_call2_v8_apply, val_main_call2_v7_apply,
    val_main_call2_cst_1_apply, hsub q]
  rw [Ideal.subf_def, Ideal.hostUnary_log_def, Ideal.ofBits_def, Ideal.ofBits_zero_f32, zero_add]
  refine congrArg (fun t => _ - Ideal.log t) (Finset.sum_congr rfl fun j _ => ?_)
  have e : idx_main_call2_v7 (idx_main_call2_v8 (idx_main_call2_v10 (ix2 p q))) j = ix2 p j := funext fun a => Fin.ext (by match a with | ⟨0, _⟩ => rfl | ⟨1, _⟩ => rfl)
  rw [e, val_main_call2_v6_apply, hsub j, Ideal.hostUnary_exp_def]

end Cert.Sage

end
-- ==== Proof.Bridge.lean ====
/- The bridge: the kernel program's two results are the reference's two stages of the same arguments. Layer by layer, the
   array a kernel leaves is the layer function of its operands (the region modules), its operands are the reference's stages
   (the stretch modules), and entry by entry the layer function of those operands is the reference's layer: dividing by the
   clamped count is multiplying by its reciprocal because the clamped count is at least one, and the three terms of an entry
   only change their order. The last layer's log-probabilities regroup x − (m + L) as (x − m) − L, which needs the row
   maximum m to be a real number. -/
import proofs.«121724_j32804960207226_2_alg».proof.Proof.KernelRun
import proofs.«121724_j32804960207226_2_alg».proof.Proof.Boundaries
import proofs.«121724_j32804960207226_2_alg».proof.Proof.Region0
import proofs.«121724_j32804960207226_2_alg».proof.Proof.Region1
import proofs.«121724_j32804960207226_2_alg».proof.Proof.Region2
import proofs.«121724_j32804960207226_2_alg».proof.Proof.Stretch0
import proofs.«121724_j32804960207226_2_alg».proof.Proof.Stretch1
import proofs.«121724_j32804960207226_2_alg».proof.Proof.Stretch2
import proofs.«121724_j32804960207226_2_alg».proof.Proof.KernelLayers
import proofs.«121724_j32804960207226_2_alg».proof.Proof.RefLayers
import proofs.«121724_j32804960207226_2_alg».proof.Proof.Algebra

set_option maxRecDepth 16384

noncomputable section

namespace Cert.Sage.Bridge

open Idealize.ShloMosaic Idealize.ShloMosaic.TcCoe Idealize.ShloMosaic.ValueIdx Idealize.SL.Sem
open Cert.KernelIdeal Cert.KernelIdeal.Gen Cert.KernelIdeal.HostTerms Cert.KernelIdeal.KernelLayers Cert.KernelIdeal.Boundaries
open Cert.Sage
open Cert.ReferenceIdeal.ReadP (val_main_v0 val_main_v10 val_main_v16 val_main_v26 val_main_v27 val_main_v37 val_main_v43 val_main_v53
  val_main_v54 val_main_v64 val_main_v70 val_main_v79 val_main_v80)

variable (m : (ℓ : Loc nD τ sig) → Buf (Elt Ideal) ℓ) (ρ : Dev nD → PrngReg) (c : Dev nD)

set_option maxHeartbeats 4000000 in
/-- After the first kernel its result array holds the reference's first-layer output. -/
theorem layer0_eq : W2 m ρ c (Proc.devRef .tc main_v23) = val_main_v26 (F := Ideal) (W0 m ρ c (Proc.devRef .tc main_arg0)) (W0 m ρ c (Proc.devRef .tc main_arg1)) (W0 m ρ c (Proc.devRef .tc main_arg2)) (W0 m ρ c (Proc.devRef .tc main_arg7)) (W0 m ρ c (Proc.devRef .tc main_arg8)) (W0 m ρ c (Proc.devRef .tc main_arg9)) := by
  have e : W2 m ρ c (Proc.devRef .tc main_v23) = (dat0 (V1 m ρ) c).arrAt 5 cfg0.N := W2_arr m ρ c 5
  rw [e, Region0.final (V1 m ρ) c]
  have e1 : V1 m ρ c main_v10 = val_main_v10 (F := Ideal) (W0 m ρ c (Proc.devRef .tc main_arg0)) (W0 m ρ c (Proc.devRef .tc main_arg1)) (W0 m ρ c (Proc.devRef .tc main_arg2)) := Stretch0.agg (W0 m ρ c)
  have e2 : V1 m ρ c main_v0 = val_main_v0 (F := Ideal) (W0 m ρ c (Proc.devRef .tc main_arg0)) := Stretch0.root (W0 m ρ c)
  have e3 : V1 m ρ c main_v19 = inv0 (F := Ideal) (val_main_v16 (F := Ideal) (W0 m ρ c (Proc.devRef .tc main_arg2))) := Stretch0.inv (W0 m ρ c)
  have e4 : V1 m ρ c main_v21 = wstack (F := Ideal) (W0 m ρ c (Proc.devRef .tc main_arg7)) (W0 m ρ c (Proc.devRef .tc main_arg9)) := Stretch0.weights (W0 m ρ c)
  have e5 : V1 m ρ c main_v22 = biasRow256 (F := Ideal) (W0 m ρ c (Proc.devRef .tc main_arg8)) := Stretch0.bias (W0 m ρ c)
  rw [e1, e2, e3, e4, e5]
  funext i
  obtain ⟨r, q, rfl⟩ : ∃ (r : Fin 102400) (q : Fin 256), i = ix2 r q := ⟨i 0, i 1, eq_ix2 i⟩
  rw [layer0_row, kernelRow_eq_refRow _ _ _ _ _ _ (ref_cmax0_ne_zero _ _), ← ref_layer0_apply]

set_option maxHeartbeats 4000000 in
/-- After the second kernel its result array holds the reference's second-layer output. -/
theorem layer1_eq : W4 m ρ c (Proc.devRef .tc main_v47) = val_main_v53 (F := Ideal) (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12)) := by
  have e : W4 m ρ c (Proc.devRef .tc main_v47) = (dat1 (V3 m ρ) c).arrAt 6 cfg1.N := W4_arr m ρ c 6
  rw [e, Region1.final (V3 m ρ) c]
  have H := layer0_eq m ρ c
  have b3 : W2 m ρ c (Proc.devRef .tc main_arg3) = (W0 m ρ c (Proc.devRef .tc main_arg3)) := W2_main_arg3 m ρ c
  have b4 : W2 m ρ c (Proc.devRef .tc main_arg4) = (W0 m ρ c (Proc.devRef .tc main_arg4)) := W2_main_arg4 m ρ c
  have b10 : W2 m ρ c (Proc.devRef .tc main_arg10) = (W0 m ρ c (Proc.devRef .tc main_arg10)) := W2_main_arg10 m ρ c
  have b11 : W2 m ρ c (Proc.devRef .tc main_arg11) = (W0 m ρ c (Proc.devRef .tc main_arg11)) := W2_main_arg11 m ρ c
  have b12 : W2 m ρ c (Proc.devRef .tc main_arg12) = (W0 m ρ c (Proc.devRef .tc main_arg12)) := W2_main_arg12 m ρ c
  have e1 : V3 m ρ c main_v34 = val_main_v37 (F := Ideal) (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg7)) (W0 m ρ c (Proc.devRef .tc main_arg8)) (W0 m ρ c (Proc.devRef .tc main_arg9)) := by
    rw [← b3, ← b4]; exact Stretch1.agg (W2 m ρ c) _ _ _ _ _ _ H
  have e2 : V3 m ρ c main_v24 = val_main_v27 (F := Ideal) (W0 m ρ c (Proc.devRef .tc main_arg0)) (W0 m ρ c (Proc.devRef .tc main_arg1)) (W0 m ρ c (Proc.devRef .tc main_arg2)) (W0 m ρ c (Proc.devRef .tc main_arg7)) (W0 m ρ c (Proc.devRef .tc main_arg8)) (W0 m ρ c (Proc.devRef .tc main_arg9)) := Stretch1.root (W2 m ρ c) _ _ _ _ _ _ H
  have e3 : V3 m ρ c main_v43 = inv1 (F := Ideal) (val_main_v43 (F := Ideal) (W0 m ρ c (Proc.devRef .tc main_arg4))) := by
    rw [← b4]; exact Stretch1.inv (W2 m ρ c)
  have e4 : V3 m ρ c main_v44 = narrow (F := Ideal) (W0 m ρ c (Proc.devRef .tc main_arg10)) := by rw [← b10]; exact Stretch1.wl (W2 m ρ c)
  have e5 : V3 m ρ c main_v46 = biasRow256 (F := Ideal) (W0 m ρ c (Proc.devRef .tc main_arg11)) := by rw [← b11]; exact Stretch1.bias (W2 m ρ c)
  have e6 : V3 m ρ c main_v45 = narrow (F := Ideal) (W0 m ρ c (Proc.devRef .tc main_arg12)) := by rw [← b12]; exact Stretch1.wr (W2 m ρ c)
  rw [e1, e2, e3, e4, e5, e6]
  funext i
  obtain ⟨r, q, rfl⟩ : ∃ (r : Fin 10240) (q : Fin 256), i = ix2 r q := ⟨i 0, i 1, eq_ix2 i⟩
  rw [layer1_row, kernelRow_eq_refRow _ _ _ _ _ _ (ref_cmax1_ne_zero _ _), ← ref_layer1_apply]

set_option maxHeartbeats 4000000 in
/-- The operands the last kernel is entered with, as the reference's stages. -/
theorem last_operands :
    V5 m ρ c main_v58 = val_main_v64 (F := Ideal) (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12)) ∧ V5 m ρ c main_v48 = val_main_v54 (F := Ideal) (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12))
    ∧ V5 m ρ c main_v67 = inv2 (F := Ideal) (val_main_v70 (F := Ideal) (W0 m ρ c (Proc.devRef .tc main_arg6)))
    ∧ V5 m ρ c main_v68 = narrow (F := Ideal) (W0 m ρ c (Proc.devRef .tc main_arg13)) ∧ V5 m ρ c main_v70 = biasRow47 (F := Ideal) (W0 m ρ c (Proc.devRef .tc main_arg14))
    ∧ V5 m ρ c main_v69 = narrow (F := Ideal) (W0 m ρ c (Proc.devRef .tc main_arg15)) := by
  have H := layer1_eq m ρ c
  have b5 : W4 m ρ c (Proc.devRef .tc main_arg5) = (W0 m ρ c (Proc.devRef .tc main_arg5)) := W4_main_arg5 m ρ c
  have b6 : W4 m ρ c (Proc.devRef .tc main_arg6) = (W0 m ρ c (Proc.devRef .tc main_arg6)) := W4_main_arg6 m ρ c
  have b13 : W4 m ρ c (Proc.devRef .tc main_arg13) = (W0 m ρ c (Proc.devRef .tc main_arg13)) := W4_main_arg13 m ρ c
  have b14 : W4 m ρ c (Proc.devRef .tc main_arg14) = (W0 m ρ c (Proc.devRef .tc main_arg14)) := W4_main_arg14 m ρ c
  have b15 : W4 m ρ c (Proc.devRef .tc main_arg15) = (W0 m ρ c (Proc.devRef .tc main_arg15)) := W4_main_arg15 m ρ c
  refine ⟨?_, Stretch2.root (W4 m ρ c) _ _ _ _ _ _ _ _ _ _ _ H, ?_, ?_, ?_, ?_⟩
  · rw [← b5, ← b6]; exact Stretch2.agg (W4 m ρ c) _ _ _ _ _ _ _ _ _ _ _ H
  · rw [← b6]; exact Stretch2.inv (W4 m ρ c)
  · rw [← b13]; exact Stretch2.wl (W4 m ρ c)
  · rw [← b14]; exact Stretch2.bias (W4 m ρ c)
  · rw [← b15]; exact Stretch2.wr (W4 m ρ c)

/-- The last layer's logits of the reference's operands are the reference's logits. -/
theorem logits_fun_eq :
    Region2.logits (val_main_v64 (F := Ideal) (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12))) (val_main_v54 (F := Ideal) (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12))) (inv2 (F := Ideal) (val_main_v70 (F := Ideal) (W0 m ρ c (Proc.devRef .tc main_arg6)))) (narrow (F := Ideal) (W0 m ρ c (Proc.devRef .tc main_arg13)))
      (biasRow47 (F := Ideal) (W0 m ρ c (Proc.devRef .tc main_arg14))) (narrow (F := Ideal) (W0 m ρ c (Proc.devRef .tc main_arg15))) = val_main_v79 (F := Ideal) (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12)) (W0 m ρ c (Proc.devRef .tc main_arg13)) (W0 m ρ c (Proc.devRef .tc main_arg14)) (W0 m ρ c (Proc.devRef .tc main_arg15)) := by
  funext i
  obtain ⟨r, q, rfl⟩ : ∃ (r : Fin 1024) (q : Fin 47), i = ix2 r q := ⟨i 0, i 1, eq_ix2 i⟩
  rw [logits_row, kernelRow_eq_refRow _ _ _ _ _ _ (ref_cmax2_ne_zero _ _), ← ref_layer2_apply]

/-- The kernel program's first result is the reference's logits. -/
theorem logits_eq : W6 m ρ c (Proc.devRef .tc main_v71_0) = val_main_v79 (F := Ideal) (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12)) (W0 m ρ c (Proc.devRef .tc main_arg13)) (W0 m ρ c (Proc.devRef .tc main_arg14)) (W0 m ρ c (Proc.devRef .tc main_arg15)) := by
  have e : W6 m ρ c (Proc.devRef .tc main_v71_0) = (dat2 (V5 m ρ) c).arrAt 6 cfg2.N := W6_arr m ρ c 6
  obtain ⟨e1, e2, e3, e4, e5, e6⟩ := last_operands m ρ c
  rw [e, Region2.final6 (V5 m ρ) c, e1, e2, e3, e4, e5, e6]
  exact logits_fun_eq m ρ c

/-- The kernel program's second result is the reference's log-probabilities, when the reference's logits are real numbers. -/
theorem logprobs_eq (hreal : ∀ i, IsReal (val_main_v79 (F := Ideal) (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12)) (W0 m ρ c (Proc.devRef .tc main_arg13)) (W0 m ρ c (Proc.devRef .tc main_arg14)) (W0 m ρ c (Proc.devRef .tc main_arg15)) i)) : W6 m ρ c (Proc.devRef .tc main_v71_1) = val_main_v80 (F := Ideal) (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12)) (W0 m ρ c (Proc.devRef .tc main_arg13)) (W0 m ρ c (Proc.devRef .tc main_arg14)) (W0 m ρ c (Proc.devRef .tc main_arg15)) := by
  have e : W6 m ρ c (Proc.devRef .tc main_v71_1) = (dat2 (V5 m ρ) c).arrAt 7 cfg2.N := W6_arr m ρ c 7
  obtain ⟨e1, e2, e3, e4, e5, e6⟩ := last_operands m ρ c
  rw [e, Region2.final7 (V5 m ρ) c, e1, e2, e3, e4, e5, e6]
  funext i
  obtain ⟨r, q, rfl⟩ : ∃ (r : Fin 1024) (q : Fin 47), i = ix2 r q := ⟨i 0, i 1, eq_ix2 i⟩
  rw [logprobs_row, logits_fun_eq m ρ c, ref_logprob_apply]
  exact lsm_regroup (fold_max_bot_real (n := 46) _ (fun k => hreal _))

end Cert.Sage.Bridge

end
-- ==== Proof.lean ====
/- The proof of `Cert.Claim`: a three-layer neighbourhood-mean network (gather rows by source, sum them by destination, divide
   by the clamped count, two matrix products and a bias per layer, a clamp at zero after the first two layers, a log-softmax of
   the last) computed by three pipelined kernels between stretches of host operations, against the same network written with
   plain array operations. At the ideal values the two programs differ only in (a) multiplying by the reciprocal of the clamped
   count where the reference divides by it — the same, the clamped count being at least one; (b) the order of the three terms of
   an entry; (c) the first layer's two products done as one product over stacked operands — a sum over 256 terms split in two
   halves; (d) the log-softmax written x − (m + L) where the reference has (x − m) − L — equal once the row maximum m is a real
   number, which holds because every float input is finite (the precondition) and every operation on the way keeps real
   numbers real. The frames are the generated ones; the idealization rewrote nothing, so `preserves` is trivial. -/
import proofs.«121724_j32804960207226_2_alg».proof.Defs
import proofs.«121724_j32804960207226_2_alg».proof.Proof.Gen.Kernel
import proofs.«121724_j32804960207226_2_alg».proof.Proof.Gen.Kernel.Frame
import proofs.«121724_j32804960207226_2_alg».proof.Proof.Gen.KernelIdeal
import proofs.«121724_j32804960207226_2_alg».proof.Proof.Gen.KernelIdeal.Frame
import proofs.«121724_j32804960207226_2_alg».proof.Proof.Gen.ReferenceIdeal
import proofs.«121724_j32804960207226_2_alg».proof.Proof.Gen.Pre_finite_inputs
import proofs.«121724_j32804960207226_2_alg».proof.Proof.RefRunP
import proofs.«121724_j32804960207226_2_alg».proof.Proof.RefReadP
import proofs.«121724_j32804960207226_2_alg».proof.Proof.RefReal
import proofs.«121724_j32804960207226_2_alg».proof.Proof.FiniteInputs
import proofs.«121724_j32804960207226_2_alg».proof.Proof.KernelRun
import proofs.«121724_j32804960207226_2_alg».proof.Proof.Bridge

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

theorem preserves : Cert.preserves_Kernel_KernelIdeal := trivial

set_option maxHeartbeats 4000000 in
/-- Both programs end with the reference's two stages of the arguments: the logits and their log-softmax. -/
theorem algebraic : Cert.algebraic_KernelIdeal_ReferenceIdeal := by
  intro m ρ m' ρ' hpre hagree
  refine ⟨fun c => Cert.ReferenceIdeal.ReadP.val_main_v79 (F := Ideal) (Cert.KernelIdeal.Gen.W0 m ρ c (Proc.devRef .tc Cert.KernelIdeal.main_arg0)) (Cert.KernelIdeal.Gen.W0 m ρ c (Proc.devRef .tc Cert.KernelIdeal.main_arg1)) (Cert.KernelIdeal.Gen.W0 m ρ c (Proc.devRef .tc Cert.KernelIdeal.main_arg2)) (Cert.KernelIdeal.Gen.W0 m ρ c (Proc.devRef .tc Cert.KernelIdeal.main_arg3)) (Cert.KernelIdeal.Gen.W0 m ρ c (Proc.devRef .tc Cert.KernelIdeal.main_arg4)) (Cert.KernelIdeal.Gen.W0 m ρ c (Proc.devRef .tc Cert.KernelIdeal.main_arg5)) (Cert.KernelIdeal.Gen.W0 m ρ c (Proc.devRef .tc Cert.KernelIdeal.main_arg6)) (Cert.KernelIdeal.Gen.W0 m ρ c (Proc.devRef .tc Cert.KernelIdeal.main_arg7)) (Cert.KernelIdeal.Gen.W0 m ρ c (Proc.devRef .tc Cert.KernelIdeal.main_arg8)) (Cert.KernelIdeal.Gen.W0 m ρ c (Proc.devRef .tc Cert.KernelIdeal.main_arg9)) (Cert.KernelIdeal.Gen.W0 m ρ c (Proc.devRef .tc Cert.KernelIdeal.main_arg10)) (Cert.KernelIdeal.Gen.W0 m ρ c (Proc.devRef .tc Cert.KernelIdeal.main_arg11)) (Cert.KernelIdeal.Gen.W0 m ρ c (Proc.devRef .tc Cert.KernelIdeal.main_arg12)) (Cert.KernelIdeal.Gen.W0 m ρ c (Proc.devRef .tc Cert.KernelIdeal.main_arg13)) (Cert.KernelIdeal.Gen.W0 m ρ c (Proc.devRef .tc Cert.KernelIdeal.main_arg14)) (Cert.KernelIdeal.Gen.W0 m ρ c (Proc.devRef .tc Cert.KernelIdeal.main_arg15)),
    fun c => Cert.ReferenceIdeal.ReadP.val_main_v80 (F := Ideal) (Cert.KernelIdeal.Gen.W0 m ρ c (Proc.devRef .tc Cert.KernelIdeal.main_arg0)) (Cert.KernelIdeal.Gen.W0 m ρ c (Proc.devRef .tc Cert.KernelIdeal.main_arg1)) (Cert.KernelIdeal.Gen.W0 m ρ c (Proc.devRef .tc Cert.KernelIdeal.main_arg2)) (Cert.KernelIdeal.Gen.W0 m ρ c (Proc.devRef .tc Cert.KernelIdeal.main_arg3)) (Cert.KernelIdeal.Gen.W0 m ρ c (Proc.devRef .tc Cert.KernelIdeal.main_arg4)) (Cert.KernelIdeal.Gen.W0 m ρ c (Proc.devRef .tc Cert.KernelIdeal.main_arg5)) (Cert.KernelIdeal.Gen.W0 m ρ c (Proc.devRef .tc Cert.KernelIdeal.main_arg6)) (Cert.KernelIdeal.Gen.W0 m ρ c (Proc.devRef .tc Cert.KernelIdeal.main_arg7)) (Cert.KernelIdeal.Gen.W0 m ρ c (Proc.devRef .tc Cert.KernelIdeal.main_arg8)) (Cert.KernelIdeal.Gen.W0 m ρ c (Proc.devRef .tc Cert.KernelIdeal.main_arg9)) (Cert.KernelIdeal.Gen.W0 m ρ c (Proc.devRef .tc Cert.KernelIdeal.main_arg10)) (Cert.KernelIdeal.Gen.W0 m ρ c (Proc.devRef .tc Cert.KernelIdeal.main_arg11)) (Cert.KernelIdeal.Gen.W0 m ρ c (Proc.devRef .tc Cert.KernelIdeal.main_arg12)) (Cert.KernelIdeal.Gen.W0 m ρ c (Proc.devRef .tc Cert.KernelIdeal.main_arg13)) (Cert.KernelIdeal.Gen.W0 m ρ c (Proc.devRef .tc Cert.KernelIdeal.main_arg14)) (Cert.KernelIdeal.Gen.W0 m ρ c (Proc.devRef .tc Cert.KernelIdeal.main_arg15)), ?_, ?_⟩
  · refine (θ_run Cert.KernelIdeal.defs _ _).mono (fun r h c => ?_) (Cert.KernelIdeal.RunNamed.run_named m ρ)
    obtain ⟨h0, h1, hargs⟩ := h c
    obtain ⟨r0, r7, r8, r9, r10, r11, r12, r13, r14, r15⟩ :=
      Cert.Sage.real_of_finite_inputs _ _ _ _ _ _ _ _ _ _ _ _ _ _ _ _ (hpre c)
    have hreal : ∀ i, Cert.Sage.IsReal (Cert.ReferenceIdeal.ReadP.val_main_v79 (F := Ideal) (Cert.KernelIdeal.Gen.W0 m ρ c (Proc.devRef .tc Cert.KernelIdeal.main_arg0)) (Cert.KernelIdeal.Gen.W0 m ρ c (Proc.devRef .tc Cert.KernelIdeal.main_arg1)) (Cert.KernelIdeal.Gen.W0 m ρ c (Proc.devRef .tc Cert.KernelIdeal.main_arg2)) (Cert.KernelIdeal.Gen.W0 m ρ c (Proc.devRef .tc Cert.KernelIdeal.main_arg3)) (Cert.KernelIdeal.Gen.W0 m ρ c (Proc.devRef .tc Cert.KernelIdeal.main_arg4)) (Cert.KernelIdeal.Gen.W0 m ρ c (Proc.devRef .tc Cert.KernelIdeal.main_arg5)) (Cert.KernelIdeal.Gen.W0 m ρ c (Proc.devRef .tc Cert.KernelIdeal.main_arg6)) (Cert.KernelIdeal.Gen.W0 m ρ c (Proc.devRef .tc Cert.KernelIdeal.main_arg7)) (Cert.KernelIdeal.Gen.W0 m ρ c (Proc.devRef .tc Cert.KernelIdeal.main_arg8)) (Cert.KernelIdeal.Gen.W0 m ρ c (Proc.devRef .tc Cert.KernelIdeal.main_arg9)) (Cert.KernelIdeal.Gen.W0 m ρ c (Proc.devRef .tc Cert.KernelIdeal.main_arg10)) (Cert.KernelIdeal.Gen.W0 m ρ c (Proc.devRef .tc Cert.KernelIdeal.main_arg11)) (Cert.KernelIdeal.Gen.W0 m ρ c (Proc.devRef .tc Cert.KernelIdeal.main_arg12)) (Cert.KernelIdeal.Gen.W0 m ρ c (Proc.devRef .tc Cert.KernelIdeal.main_arg13)) (Cert.KernelIdeal.Gen.W0 m ρ c (Proc.devRef .tc Cert.KernelIdeal.main_arg14)) (Cert.KernelIdeal.Gen.W0 m ρ c (Proc.devRef .tc Cert.KernelIdeal.main_arg15)) i) :=
      Cert.Sage.ref_logits_real _ _ _ _ _ _ _ _ _ _ _ _ _ _ _ _ r0 r7 r8 r9 r10 r11 r12 r13 r14 r15
    exact ⟨h0.trans (Cert.Sage.Bridge.logits_eq m ρ c), h1.trans (Cert.Sage.Bridge.logprobs_eq m ρ c hreal), hargs⟩
  · refine (θ_run Cert.ReferenceIdeal.defs _ _).mono (fun r h c => ?_) (Cert.ReferenceIdeal.ValueP.run (F := Ideal) m' ρ')
    obtain ⟨h0, h1, hargs⟩ := h c
    obtain ⟨g0, g1, g2, g3, g4, g5, g6, g7, g8, g9, g10, g11, g12, g13, g14, g15⟩ := hagree c
    refine ⟨?_, ?_, hargs⟩
    · rw [h0, Cert.ReferenceIdeal.ReadP.val_main_v79_eq, g0, g1, g2, g3, g4, g5, g6, g7, g8, g9, g10, g11, g12, g13, g14, g15]
    · rw [h1, Cert.ReferenceIdeal.ReadP.val_main_v80_eq, g0, g1, g2, g3, g4, g5, g6, g7, g8, g9, g10, g11, g12, g13, g14, g15]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
